-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S851968 : Shape := ⟨1, ![851968]⟩
abbrev S851968x1 : Shape := ⟨2, ![851968, 1]⟩
abbrev S2048x1 : Shape := ⟨2, ![2048, 1]⟩
abbrev S5000x128 : Shape := ⟨2, ![5000, 128]⟩
abbrev S851968x128 : Shape := ⟨2, ![851968, 128]⟩
abbrev S2048x128 : Shape := ⟨2, ![2048, 128]⟩
abbrev S1x128 : Shape := ⟨2, ![1, 128]⟩
abbrev S50000x64 : Shape := ⟨2, ![50000, 64]⟩
abbrev S5000x64 : Shape := ⟨2, ![5000, 64]⟩
abbrev S851968x64 : Shape := ⟨2, ![851968, 64]⟩
abbrev S2048x64 : Shape := ⟨2, ![2048, 64]⟩
abbrev S1x64 : Shape := ⟨2, ![1, 64]⟩
abbrev S5000 : Shape := ⟨1, ![5000]⟩
abbrev S5000x1 : Shape := ⟨2, ![5000, 1]⟩

abbrev nBuf : Space → Nat
  | .hbm => 94
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .i32⟩
  | .hbm, ⟨18, _⟩ => ⟨S_, .i32⟩
  | .hbm, ⟨19, _⟩ => ⟨S851968, .i32⟩
  | .hbm, ⟨20, _⟩ => ⟨S_, .i32⟩
  | .hbm, ⟨21, _⟩ => ⟨S_, .i32⟩
  | .hbm, ⟨22, _⟩ => ⟨S851968, .i32⟩
  | .hbm, ⟨23, _⟩ => ⟨S_, .f32⟩
  | .hbm, ⟨24, _⟩ => ⟨S_, .f32⟩
  | .hbm, ⟨25, _⟩ => ⟨S851968, .f32⟩
  | .hbm, ⟨26, _⟩ => ⟨S_, .f32⟩
  | .hbm, ⟨27, _⟩ => ⟨S50000, .f32⟩
  | .hbm, ⟨28, _⟩ => ⟨S851968x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S851968, .i32⟩
  | .hbm, ⟨40, _⟩ => ⟨S851968, .i1⟩
  | .hbm, ⟨41, _⟩ => ⟨S_, .i32⟩
  | .hbm, ⟨42, _⟩ => ⟨S851968, .i32⟩
  | .hbm, ⟨43, _⟩ => ⟨S851968, .i32⟩
  | .hbm, ⟨44, _⟩ => ⟨S851968, .i32⟩
  | .hbm, ⟨45, _⟩ => ⟨S851968x1, .i32⟩
  | .hbm, ⟨46, _⟩ => ⟨S851968, .f32⟩
  | .hbm, ⟨47, _⟩ => ⟨S851968x1, .f32⟩
  | .hbm, ⟨48, _⟩ => ⟨S_, .i32⟩
  | .hbm, ⟨49, _⟩ => ⟨S851968, .i32⟩
  | .hbm, ⟨50, _⟩ => ⟨S851968, .i1⟩
  | .hbm, ⟨51, _⟩ => ⟨S_, .i32⟩
  | .hbm, ⟨52, _⟩ => ⟨S851968, .i32⟩
  | .hbm, ⟨53, _⟩ => ⟨S851968, .i32⟩
  | .hbm, ⟨54, _⟩ => ⟨S851968, .i32⟩
  | .hbm, ⟨55, _⟩ => ⟨S851968x1, .i32⟩
  | .hbm, ⟨56, _⟩ => ⟨S851968, .f32⟩
  | .hbm, ⟨57, _⟩ => ⟨S851968x1, .f32⟩
  | .hbm, ⟨58, _⟩ => ⟨S851968x1, .f32⟩
  | .hbm, ⟨59, _⟩ => ⟨S851968x1, .f32⟩
  | .hbm, ⟨60, _⟩ => ⟨S50000x128, .f32⟩
  | .hbm, ⟨61, _⟩ => ⟨S_, .i32⟩
  | .hbm, ⟨62, _⟩ => ⟨S851968, .i32⟩
  | .hbm, ⟨63, _⟩ => ⟨S851968, .i1⟩
  | .hbm, ⟨64, _⟩ => ⟨S_, .i32⟩
  | .hbm, ⟨65, _⟩ => ⟨S851968, .i32⟩
  | .hbm, ⟨66, _⟩ => ⟨S851968, .i32⟩
  | .hbm, ⟨67, _⟩ => ⟨S851968, .i32⟩
  | .hbm, ⟨68, _⟩ => ⟨S851968x1, .i32⟩
  | .hbm, ⟨69, _⟩ => ⟨S851968x128, .f32⟩
  | .hbm, ⟨70, _⟩ => ⟨S851968x128, .f32⟩
  | .hbm, ⟨71, _⟩ => ⟨S_, .f32⟩
  | .hbm, ⟨72, _⟩ => ⟨S50000x128, .f32⟩
  | .hbm, ⟨73, _⟩ => ⟨S851968x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x64, .f32⟩
  | .hbm, ⟨78, _⟩ => ⟨S_, .i32⟩
  | .hbm, ⟨79, _⟩ => ⟨S851968, .i32⟩
  | .hbm, ⟨80, _⟩ => ⟨S851968, .i1⟩
  | .hbm, ⟨81, _⟩ => ⟨S_, .i32⟩
  | .hbm, ⟨82, _⟩ => ⟨S851968, .i32⟩
  | .hbm, ⟨83, _⟩ => ⟨S851968, .i32⟩
  | .hbm, ⟨84, _⟩ => ⟨S851968, .i32⟩
  | .hbm, ⟨85, _⟩ => ⟨S851968x1, .i32⟩
  | .hbm, ⟨86, _⟩ => ⟨S851968x64, .f32⟩
  | .hbm, ⟨87, _⟩ => ⟨S851968x64, .f32⟩
  | .hbm, ⟨88, _⟩ => ⟨S_, .f32⟩
  | .hbm, ⟨89, _⟩ => ⟨S50000x64, .f32⟩
  | .hbm, ⟨90, _⟩ => ⟨S851968x1, .i32⟩
  | .hbm, ⟨91, _⟩ => ⟨S50000x64, .f32⟩
  | .hbm, ⟨92, _⟩ => ⟨S1x64, .f32⟩
  | .hbm, ⟨93, _⟩ => ⟨S50000x64, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S2048x128, .f32⟩
  | .local _ .vmem, ⟨14, _⟩ => ⟨S2048x128, .f32⟩
  | .local _ .vmem, ⟨15, _⟩ => ⟨S2048x1, .f32⟩
  | .local _ .vmem, ⟨16, _⟩ => ⟨S2048x1, .f32⟩
  | .local _ .vmem, ⟨17, _⟩ => ⟨S2048x128, .f32⟩
  | .local _ .vmem, ⟨18, _⟩ => ⟨S2048x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S5000x64, .f32⟩
  | .local _ .vmem, ⟨28, _⟩ => ⟨S5000x64, .f32⟩
  | .local _ .vmem, ⟨29, _⟩ => ⟨S2048x64, .f32⟩
  | .local _ .vmem, ⟨30, _⟩ => ⟨S2048x64, .f32⟩
  | .local _ .vmem, ⟨31, _⟩ => ⟨S2048x1, .f32⟩
  | .local _ .vmem, ⟨32, _⟩ => ⟨S2048x1, .f32⟩
  | .local _ .vmem, ⟨33, _⟩ => ⟨S2048x64, .f32⟩
  | .local _ .vmem, ⟨34, _⟩ => ⟨S2048x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_cst_1 : Ref sig .tc := ⟨.hbm, 23, rfl⟩
abbrev main_call2_v0 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call3_v0 : Ref sig .tc := ⟨.hbm, 35, rfl⟩
abbrev main_call3_v1 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39

abbrev nD : Nat := 1
abbrev τ : Topo := Topo.v7x

variable {F : FTy → Type} [FloatOps F]

abbrev grid0 : Pipeline.Grid := ⟨1, ![416], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![416], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![416], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  pads_S850000_S851968_019680 : S850000.Pads (![0] : Fin 1 → Nat) ![1968] ![0] S851968
  h_S_ : 0 < S_.numel
  bcast_S851968_S851968x1_0 : S851968.BroadcastsInDim S851968x1 (![0] : Fin 1 → Fin S851968x1.rank)
  bcast_S_S851968 : S_.BroadcastsInDim S851968 (![] : Fin 0 → Fin S851968.rank)
  shapeCasts_S851968_S851968x1 : S851968.ShapeCasts S851968x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S851968x1_S851968_n_0_0_1_wf : ScatterDims.WF S50000 S851968x1 S851968 [] [0] [0] 1
  gather_S50000_S851968x1_S851968_n_0_n_n_0_1_1_wf : GatherDims.WF S50000 S851968x1 S851968 [] [0] [] [0] [] 1 ![1]
  dot_S5000x128_S128x128_S5000x128_1_0_0_1_n_n_wf : DotDims.WF S5000x128 S128x128 S5000x128 [1] [0] [0] [1] [] []
  gather_S50000x128_S851968x1_S851968x128_1_0_n_n_0_1_1128_wf : GatherDims.WF S50000x128 S851968x1 S851968x128 [1] [0] [] [0] [] 1 ![1, 128]
  scatter_S50000x128_S851968x1_S851968x128_1_0_0_1_wf : ScatterDims.WF S50000x128 S851968x1 S851968x128 [1] [0] [0] 1
  dot_S5000x128_S128x64_S5000x64_1_0_0_1_n_n_wf : DotDims.WF S5000x128 S128x64 S5000x64 [1] [0] [0] [1] [] []
  gather_S50000x64_S851968x1_S851968x64_1_0_n_n_0_1_164_wf : GatherDims.WF S50000x64 S851968x1 S851968x64 [1] [0] [] [0] [] 1 ![1, 64]
  scatter_S50000x64_S851968x1_S851968x64_1_0_0_1_wf : ScatterDims.WF S50000x64 S851968x1 S851968x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S851968x1.size a
  hwx0_0 : ∀ i : grid0.Coords, EltTy.bits .f32 = 32 ∨ (Rect.block (s := S851968x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S851968x1.size a
  hwx0_1 : ∀ i : grid0.Coords, EltTy.bits .f32 = 32 ∨ (Rect.block (s := S851968x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S851968x1.size a
  hwx0_2 : ∀ i : grid0.Coords, EltTy.bits .f32 = 32 ∨ (Rect.block (s := S851968x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S851968x1.size a
  hwx0_3 : ∀ i : grid0.Coords, EltTy.bits .f32 = 32 ∨ (Rect.block (s := S851968x1) S2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S851968x128.size a
  hwx2_0 : ∀ i : grid2.Coords, EltTy.bits .f32 = 32 ∨ (Rect.block (s := S851968x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S851968x1.size a
  hwx2_1 : ∀ i : grid2.Coords, EltTy.bits .f32 = 32 ∨ (Rect.block (s := S851968x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S851968x128.size a
  hwx2_2 : ∀ i : grid2.Coords, EltTy.bits .f32 = 32 ∨ (Rect.block (s := S851968x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S851968x64.size a
  hwx5_0 : ∀ i : grid5.Coords, EltTy.bits .f32 = 32 ∨ (Rect.block (s := S851968x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S851968x1.size a
  hwx5_1 : ∀ i : grid5.Coords, EltTy.bits .f32 = 32 ∨ (Rect.block (s := S851968x1) S2048x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S851968x64.size a
  hwx5_2 : ∀ i : grid5.Coords, EltTy.bits .f32 = 32 ∨ (Rect.block (s := S851968x64) S2048x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)

variable [Facts₀]

def scatter_S50000_S851968x1_S851968_n_0_0_1 : ScatterDims S50000 S851968x1 S851968 where
  updateWindowDims := []
  insertedWindowDims := [0]
  scatterDimsToOperandDims := [0]
  indexVectorDim := 1
  wf := scatter_S50000_S851968x1_S851968_n_0_0_1_wf
def gather_S50000_S851968x1_S851968_n_0_n_n_0_1_1 : GatherDims S50000 S851968x1 S851968 where
  offsetDims := []
  collapsedSliceDims := [0]
  operandBatchingDims := []
  startIndicesBatchingDims := []
  startIndexMap := [0]
  indexVectorDim := 1
  sliceSizes := ![1]
  wf := gather_S50000_S851968x1_S851968_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S851968x1_S851968x128_1_0_n_n_0_1_1128 : GatherDims S50000x128 S851968x1 S851968x128 where
  offsetDims := [1]
  collapsedSliceDims := [0]
  operandBatchingDims := []
  startIndicesBatchingDims := []
  startIndexMap := [0]
  indexVectorDim := 1
  sliceSizes := ![1, 128]
  wf := gather_S50000x128_S851968x1_S851968x128_1_0_n_n_0_1_1128_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S851968x1_S851968x64_1_0_n_n_0_1_164 : GatherDims S50000x64 S851968x1 S851968x64 where
  offsetDims := [1]
  collapsedSliceDims := [0]
  operandBatchingDims := []
  startIndicesBatchingDims := []
  startIndexMap := [0]
  indexVectorDim := 1
  sliceSizes := ![1, 64]
  wf := gather_S50000x64_S851968x1_S851968x64_1_0_n_n_0_1_164_wf
def scatter_S50000x64_S851968x1_S851968x64_1_0_0_1 : ScatterDims S50000x64 S851968x1 S851968x64 where
  updateWindowDims := [1]
  insertedWindowDims := [0]
  scatterDimsToOperandDims := [0]
  indexVectorDim := 1
  wf := scatter_S50000x64_S851968x1_S851968x64_1_0_0_1_wf

abbrev win0_0 : Pipeline.Window sig grid0 :=
  Pipeline.Window.ofSpec (Memref.whole main_v26) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S_ : Shape := ⟨0, ![]⟩
abbrev S850000 : Shape := ⟨1, ![850000]⟩
abbrev S1x850000 : Shape := ⟨2, ![1, 850000]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x50000, .i32⟩
  | .hbm, ⟨9, _⟩ => ⟨S1x50000, .i32⟩
  | .hbm, ⟨10, _⟩ => ⟨S2x50000, .i32⟩
  | .hbm, ⟨11, _⟩ => ⟨S2x850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S1x850000, .i32⟩
  | .hbm, ⟨16, _⟩ => ⟨S850000, .i32⟩
  | .hbm, ⟨17, _⟩ => ⟨S1x850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S50000x1, .f32⟩
  | .hbm, ⟨98, _⟩ => ⟨S50000x1, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  bcast_S_S50000 : S_.BroadcastsInDim S50000 (![] : Fin 0 → Fin S50000.rank)
  concatenates_S800000_S50000_S850000_d0 : Shape.Concatenates [S800000, S50000] S850000 0
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named. @main is twenty segments: stretches of host operations and
  seven TensorCore regions. Every weakly fair execution terminates without a fault, and in the final state each
  unscoped buffer holds what the fold of the segments leaves in it: the result buffer holds the last region's
  output array as that fold computes it, and the seven argument arrays are as launched.
-/
import proofs.«168910_j58506044506599_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates, nothing faults, the result buffer ends at the contents the fold of the
    segments gives it at the last boundary, and every argument array ends as launched. -/
theorem run : θ_run defs (onTc (τ := τ) (main (F := F))) ⟨m, fun _ => 0, ρ⟩ (fun r => ∀ c : Dev nD,
      r.2.mem ((c.tc : Thread nD τ).loc main_v64) = W20 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v64 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c)⟩)

end Cert.KernelIdeal.RunValue

end
-- ==== Proof.Assembly.lean ====
/-
  The certificate's claims assembled from one value equation. Each program runs (terminates, nothing faults) with its
  argument arrays unchanged; the idealized kernel is the kernel's own text read over the extended reals; and the
  idealized kernel and the idealized reference, from memories that agree on the seven arguments, end with one and
  the same result array — GIVEN that the contents the kernel's run leaves in its result buffer are the
  reference's result function of the kernel's seven argument arrays (`hres`).
-/
import proofs.«168910_j58506044506599_1_alg».proof.Defs
import proofs.«168910_j58506044506599_1_alg».proof.Proof.Gen.Kernel
import proofs.«168910_j58506044506599_1_alg».proof.Proof.Gen.Kernel.Frame
import proofs.«168910_j58506044506599_1_alg».proof.Proof.Gen.KernelIdeal
import proofs.«168910_j58506044506599_1_alg».proof.Proof.Gen.KernelIdeal.Frame
import proofs.«168910_j58506044506599_1_alg».proof.Proof.Gen.ReferenceIdeal
import proofs.«168910_j58506044506599_1_alg».proof.Proof.Gen.ReferenceIdeal.Run
import proofs.«168910_j58506044506599_1_alg».proof.Proof.Gen.ReferenceIdeal.Read
import proofs.«168910_j58506044506599_1_alg».proof.Proof.Gen.Pre_finite_inputs
import proofs.«168910_j58506044506599_1_alg».proof.Proof.KernelRun

noncomputable section

namespace Cert.Assembly

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the two programs, from memories agreeing on the arguments, end with the same result:
    the reference's result function of the arguments — the kernel by the value equation, the reference by its run. -/
theorem algebraic
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.KernelIdeal.Gen.W20 (F := Ideal) m ρ c (Proc.devRef .tc Cert.KernelIdeal.main_v64)
          = Cert.ReferenceIdeal.Read.val_main_v73 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))) :
    Cert.algebraic_KernelIdeal_ReferenceIdeal := by
  intro m ρ m' ρ' _ hagree
  refine ⟨fun c => Cert.ReferenceIdeal.Read.val_main_v73 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6)), ?_, ?_⟩
  · exact (θ_run Cert.KernelIdeal.defs _ _).mono (fun _ h c => ⟨(h c).1.trans (hres m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq]
    obtain ⟨h0, h1, h2, h3, h4, h5, h6⟩ := hagree c
    rw [h0, h1, h2, h3, h4, h5, h6]

/-- Everything the certificate claims, from the one value equation. -/
theorem claim_of_result
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.KernelIdeal.Gen.W20 (F := Ideal) m ρ c (Proc.devRef .tc Cert.KernelIdeal.main_v64)
          = Cert.ReferenceIdeal.Read.val_main_v73 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))) :
    Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic hres⟩

end Cert.Assembly

end
-- ==== Proof.KeepEdges.lean ====
/-
  A stretch of host operations leaves every buffer it does not write as it found it: the stretch's fold, read at such a buffer, is the contents before the stretch. Stated here for the edge arrays, the edge coefficients and the arguments, stretch by stretch.
-/
import proofs.«168910_j58506044506599_1_alg».proof.Proof.Gen.KernelIdeal.Frame

set_option maxRecDepth 16384

noncomputable section

namespace Cert.KernelIdeal.KeepEdges

open Cert.KernelIdeal Cert.KernelIdeal.Gen
open Idealize.ShloMosaic Idealize.ShloMosaic.TcCoe Idealize.SL.Sem Idealize.ShloMosaic.StableHlo

variable {F : FTy → Type} [FloatOps F]

theorem keep_0_2_main_v9 (U : Valuation τ sig (Elt F)) :
    StableHlo.after (hostOps0_2 (F := F)) U (Proc.devRef .tc main_v9) = U (Proc.devRef .tc main_v9) :=
  StableHlo.after_of_forall_not_mem (b := Proc.devRef .tc main_v9) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_v9 (U : Valuation τ sig (Elt F)) :
    StableHlo.after (hostOps0_3 (F := F)) U (Proc.devRef .tc main_v9) = U (Proc.devRef .tc main_v9) :=
  StableHlo.after_of_forall_not_mem (b := Proc.devRef .tc main_v9) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_v9 (U : Valuation τ sig (Elt F)) :
    StableHlo.after (hostOps0_4 (F := F)) U (Proc.devRef .tc main_v9) = U (Proc.devRef .tc main_v9) :=
  StableHlo.after_of_forall_not_mem (b := Proc.devRef .tc main_v9) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_v9 (U : Valuation τ sig (Elt F)) :
    StableHlo.after (hostOps0_5 (F := F)) U (Proc.devRef .tc main_v9) = U (Proc.devRef .tc main_v9) :=
  StableHlo.after_of_forall_not_mem (b := Proc.devRef .tc main_v9) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_v9 (U : Valuation τ sig (Elt F)) :
    StableHlo.after (hostOps0_6 (F := F)) U (Proc.devRef .tc main_v9) = U (Proc.devRef .tc main_v9) :=
  StableHlo.after_of_forall_not_mem (b := Proc.devRef .tc main_v9) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_v9 (U : Valuation τ sig (Elt F)) :
    StableHlo.after (hostOps0_7 (F := F)) U (Proc.devRef .tc main_v9) = U (Proc.devRef .tc main_v9) :=
  StableHlo.after_of_forall_not_mem (b := Proc.devRef .tc main_v9) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_v9 (U : Valuation τ sig (Elt F)) :
    StableHlo.after (hostOps0_8 (F := F)) U (Proc.devRef .tc main_v9) = U (Proc.devRef .tc main_v9) :=
  StableHlo.after_of_forall_not_mem (b := Proc.devRef .tc main_v9) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_v9 (U : Valuation τ sig (Elt F)) :
    StableHlo.after (hostOps2 (F := F)) U (Proc.devRef .tc main_v9) = U (Proc.devRef .tc main_v9) :=
  StableHlo.after_of_forall_not_mem (b := Proc.devRef .tc main_v9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_3_main_v9 (U : Valuation τ sig (Elt F)) :
    StableHlo.after (hostOps3 (F := F)) U (Proc.devRef .tc main_v9) = U (Proc.devRef .tc main_v9) :=
  StableHlo.after_of_forall_not_mem (b := Proc.devRef .tc main_v9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_v10 (U : Valuation τ sig (Elt F)) :
    StableHlo.after (hostOps0_4 (F := F)) U (Proc.devRef .tc main_v10) = U (Proc.devRef .tc main_v10) :=
  StableHlo.after_of_forall_not_mem (b := Proc.devRef .tc main_v10) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_v10 (U : Valuation τ sig (Elt F)) :
    StableHlo.after (hostOps0_5 (F := F)) U (Proc.devRef .tc main_v10) = U (Proc.devRef .tc main_v10) :=
  StableHlo.after_of_forall_not_mem (b := Proc.devRef .tc main_v10) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_v10 (U : Valuation τ sig (Elt F)) :
    StableHlo.after (hostOps0_6 (F := F)) U (Proc.devRef .tc main_v10) = U (Proc.devRef .tc main_v10) :=
  StableHlo.after_of_forall_not_mem (b := Proc.devRef .tc main_v10) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_v10 (U : Valuation τ sig (Elt F)) :
    StableHlo.after (hostOps0_7 (F := F)) U (Proc.devRef .tc main_v10) = U (Proc.devRef .tc main_v10) :=
  StableHlo.after_of_forall_not_mem (b := Proc.devRef .tc main_v10) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_v10 (U : Valuation τ sig (Elt F)) :
    StableHlo.after (hostOps0_8 (F := F)) U (Proc.devRef .tc main_v10) = U (Proc.devRef .tc main_v10) :=
  StableHlo.after_of_forall_not_mem (b := Proc.devRef .tc main_v10) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_v10 (U : Valuation τ sig (Elt F)) :
    StableHlo.after (hostOps2 (F := F)) U (Proc.devRef .tc main_v10) = U (Proc.devRef .tc main_v10) :=
  StableHlo.after_of_forall_not_mem (b := Proc.devRef .tc main_v10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_3_main_v10 (U : Valuation τ sig (Elt F)) :
    StableHlo.after (hostOps3 (F := F)) U (Proc.devRef .tc main_v10) = U (Proc.devRef .tc main_v10) :=
  StableHlo.after_of_forall_not_mem (b := Proc.devRef .tc main_v10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_5_main_v10 (U : Valuation τ sig (Elt F)) :
    StableHlo.after (hostOps5 (F := F)) U (Proc.devRef .tc main_v10) = U (Proc.devRef .tc main_v10) :=
  StableHlo.after_of_forall_not_mem (b := Proc.devRef .tc main_v10) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_v11 (U : Valuation τ sig (Elt F)) :
    StableHlo.after (hostOps0_6 (F := F)) U (Proc.devRef .tc main_v11) = U (Proc.devRef .tc main_v11) :=
  StableHlo.after_of_forall_not_mem (b := Proc.devRef .tc main_v11) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_v11 (U : Valuation τ sig (Elt F)) :
    StableHlo.after (hostOps0_7 (F := F)) U (Proc.devRef .tc main_v11) = U (Proc.devRef .tc main_v11) :=
  StableHlo.after_of_forall_not_mem (b := Proc.devRef .tc main_v11) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_v36 (U : Valuation τ sig (Elt F)) :
    StableHlo.after (hostOps2 (F := F)) U (Proc.devRef .tc main_v36) = U (Proc.devRef .tc main_v36) :=
  StableHlo.after_of_forall_not_mem (b := Proc.devRef .tc main_v36) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_3_main_v36 (U : Valuation τ sig (Elt F)) :
    StableHlo.after (hostOps3 (F := F)) U (Proc.devRef .tc main_v36) = U (Proc.devRef .tc main_v36) :=
  StableHlo.after_of_forall_not_mem (b := Proc.devRef .tc main_v36) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_5_main_v36 (U : Valuation τ sig (Elt F)) :
    StableHlo.after (hostOps5 (F := F)) U (Proc.devRef .tc main_v36) = U (Proc.devRef .tc main_v36) :=
  StableHlo.after_of_forall_not_mem (b := Proc.devRef .tc main_v36) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KeepEdges

end
-- ==== Proof.KeepArgs.lean ====
/-
  A stretch of host operations leaves every buffer it does not write as it found it: the stretch's fold, read at such a buffer, is the contents before the stretch. Stated here for the edge arrays, the edge coefficients and the arguments, stretch by stretch.
-/
import proofs.«168910_j58506044506599_1_alg».proof.Proof.Gen.KernelIdeal.Frame

set_option maxRecDepth 16384

noncomputable section

namespace Cert.KernelIdeal.KeepArgs

open Cert.KernelIdeal Cert.KernelIdeal.Gen
open Idealize.ShloMosaic Idealize.ShloMosaic.TcCoe Idealize.SL.Sem Idealize.ShloMosaic.StableHlo

variable {F : FTy → Type} [FloatOps F]

theorem keep_0_main_arg0 (U : Valuation τ sig (Elt F)) :
    StableHlo.after (hostOps0 (F := F)) U (Proc.devRef .tc main_arg0) = U (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_1_main_arg0 (U : Valuation τ sig (Elt F)) :
    StableHlo.after (hostOps0_1 (F := F)) U (Proc.devRef .tc main_arg0) = U (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_2_main_arg0 (U : Valuation τ sig (Elt F)) :
    StableHlo.after (hostOps0_2 (F := F)) U (Proc.devRef .tc main_arg0) = U (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_arg0 (U : Valuation τ sig (Elt F)) :
    StableHlo.after (hostOps0_3 (F := F)) U (Proc.devRef .tc main_arg0) = U (Proc.devRef .tc main_arg0) :=
  StableHlo.after_of_forall_not_mem (b := Proc.devRef .tc main_arg0) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_arg0 (U : Valuation τ sig (Elt F)) :
    StableHlo.after (hostOps0_4 (F := F)) U (Proc.devRef .tc main_arg0) = U (Proc.devRef .tc main_arg0) :=
  StableHlo.after_of_forall_not_mem (b := Proc.devRef .tc main_arg0) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_arg0 (U : Valuation τ sig (Elt F)) :
    StableHlo.after (hostOps0_5 (F := F)) U (Proc.devRef .tc main_arg0) = U (Proc.devRef .tc main_arg0) :=
  StableHlo.after_of_forall_not_mem (b := Proc.devRef .tc main_arg0) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_arg0 (U : Valuation τ sig (Elt F)) :
    StableHlo.after (hostOps0_6 (F := F)) U (Proc.devRef .tc main_arg0) = U (Proc.devRef .tc main_arg0) :=
  StableHlo.after_of_forall_not_mem (b := Proc.devRef .tc main_arg0) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_arg0 (U : Valuation τ sig (Elt F)) :
    StableHlo.after (hostOps0_7 (F := F)) U (Proc.devRef .tc main_arg0) = U (Proc.devRef .tc main_arg0) :=
  StableHlo.after_of_forall_not_mem (b := Proc.devRef .tc main_arg0) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_arg0 (U : Valuation τ sig (Elt F)) :
    StableHlo.after (hostOps0_8 (F := F)) U (Proc.devRef .tc main_arg0) = U (Proc.devRef .tc main_arg0) :=
  StableHlo.after_of_forall_not_mem (b := Proc.devRef .tc main_arg0) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_main_arg3 (U : Valuation τ sig (Elt F)) :
    StableHlo.after (hostOps0 (F := F)) U (Proc.devRef .tc main_arg3) = U (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_1_main_arg3 (U : Valuation τ sig (Elt F)) :
    StableHlo.after (hostOps0_1 (F := F)) U (Proc.devRef .tc main_arg3) = U (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_2_main_arg3 (U : Valuation τ sig (Elt F)) :
    StableHlo.after (hostOps0_2 (F := F)) U (Proc.devRef .tc main_arg3) = U (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_arg3 (U : Valuation τ sig (Elt F)) :
    StableHlo.after (hostOps0_3 (F := F)) U (Proc.devRef .tc main_arg3) = U (Proc.devRef .tc main_arg3) :=
  StableHlo.after_of_forall_not_mem (b := Proc.devRef .tc main_arg3) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_arg3 (U : Valuation τ sig (Elt F)) :
    StableHlo.after (hostOps0_4 (F := F)) U (Proc.devRef .tc main_arg3) = U (Proc.devRef .tc main_arg3) :=
  StableHlo.after_of_forall_not_mem (b := Proc.devRef .tc main_arg3) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_arg3 (U : Valuation τ sig (Elt F)) :
    StableHlo.after (hostOps0_5 (F := F)) U (Proc.devRef .tc main_arg3) = U (Proc.devRef .tc main_arg3) :=
  StableHlo.after_of_forall_not_mem (b := Proc.devRef .tc main_arg3) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_arg3 (U : Valuation τ sig (Elt F)) :
    StableHlo.after (hostOps0_6 (F := F)) U (Proc.devRef .tc main_arg3) = U (Proc.devRef .tc main_arg3) :=
  StableHlo.after_of_forall_not_mem (b := Proc.devRef .tc main_arg3) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_arg3 (U : Valuation τ sig (Elt F)) :
    StableHlo.after (hostOps0_7 (F := F)) U (Proc.devRef .tc main_arg3) = U (Proc.devRef .tc main_arg3) :=
  StableHlo.after_of_forall_not_mem (b := Proc.devRef .tc main_arg3) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_arg3 (U : Valuation τ sig (Elt F)) :
    StableHlo.after (hostOps0_8 (F := F)) U (Proc.devRef .tc main_arg3) = U (Proc.devRef .tc main_arg3) :=
  StableHlo.after_of_forall_not_mem (b := Proc.devRef .tc main_arg3) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_main_arg4 (U : Valuation τ sig (Elt F)) :
    StableHlo.after (hostOps0 (F := F)) U (Proc.devRef .tc main_arg4) = U (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_1_main_arg4 (U : Valuation τ sig (Elt F)) :
    StableHlo.after (hostOps0_1 (F := F)) U (Proc.devRef .tc main_arg4) = U (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_2_main_arg4 (U : Valuation τ sig (Elt F)) :
    StableHlo.after (hostOps0_2 (F := F)) U (Proc.devRef .tc main_arg4) = U (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_arg4 (U : Valuation τ sig (Elt F)) :
    StableHlo.after (hostOps0_3 (F := F)) U (Proc.devRef .tc main_arg4) = U (Proc.devRef .tc main_arg4) :=
  StableHlo.after_of_forall_not_mem (b := Proc.devRef .tc main_arg4) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_arg4 (U : Valuation τ sig (Elt F)) :
    StableHlo.after (hostOps0_4 (F := F)) U (Proc.devRef .tc main_arg4) = U (Proc.devRef .tc main_arg4) :=
  StableHlo.after_of_forall_not_mem (b := Proc.devRef .tc main_arg4) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_arg4 (U : Valuation τ sig (Elt F)) :
    StableHlo.after (hostOps0_5 (F := F)) U (Proc.devRef .tc main_arg4) = U (Proc.devRef .tc main_arg4) :=
  StableHlo.after_of_forall_not_mem (b := Proc.devRef .tc main_arg4) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_arg4 (U : Valuation τ sig (Elt F)) :
    StableHlo.after (hostOps0_6 (F := F)) U (Proc.devRef .tc main_arg4) = U (Proc.devRef .tc main_arg4) :=
  StableHlo.after_of_forall_not_mem (b := Proc.devRef .tc main_arg4) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_arg4 (U : Valuation τ sig (Elt F)) :
    StableHlo.after (hostOps0_7 (F := F)) U (Proc.devRef .tc main_arg4) = U (Proc.devRef .tc main_arg4) :=
  StableHlo.after_of_forall_not_mem (b := Proc.devRef .tc main_arg4) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_arg4 (U : Valuation τ sig (Elt F)) :
    StableHlo.after (hostOps0_8 (F := F)) U (Proc.devRef .tc main_arg4) = U (Proc.devRef .tc main_arg4) :=
  StableHlo.after_of_forall_not_mem (b := Proc.devRef .tc main_arg4) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_arg4 (U : Valuation τ sig (Elt F)) :
    StableHlo.after (hostOps2 (F := F)) U (Proc.devRef .tc main_arg4) = U (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_main_arg5 (U : Valuation τ sig (Elt F)) :
    StableHlo.after (hostOps0 (F := F)) U (Proc.devRef .tc main_arg5) = U (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_1_main_arg5 (U : Valuation τ sig (Elt F)) :
    StableHlo.after (hostOps0_1 (F := F)) U (Proc.devRef .tc main_arg5) = U (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_2_main_arg5 (U : Valuation τ sig (Elt F)) :
    StableHlo.after (hostOps0_2 (F := F)) U (Proc.devRef .tc main_arg5) = U (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_arg5 (U : Valuation τ sig (Elt F)) :
    StableHlo.after (hostOps0_3 (F := F)) U (Proc.devRef .tc main_arg5) = U (Proc.devRef .tc main_arg5) :=
  StableHlo.after_of_forall_not_mem (b := Proc.devRef .tc main_arg5) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_arg5 (U : Valuation τ sig (Elt F)) :
    StableHlo.after (hostOps0_4 (F := F)) U (Proc.devRef .tc main_arg5) = U (Proc.devRef .tc main_arg5) :=
  StableHlo.after_of_forall_not_mem (b := Proc.devRef .tc main_arg5) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_arg5 (U : Valuation τ sig (Elt F)) :
    StableHlo.after (hostOps0_5 (F := F)) U (Proc.devRef .tc main_arg5) = U (Proc.devRef .tc main_arg5) :=
  StableHlo.after_of_forall_not_mem (b := Proc.devRef .tc main_arg5) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_arg5 (U : Valuation τ sig (Elt F)) :
    StableHlo.after (hostOps0_6 (F := F)) U (Proc.devRef .tc main_arg5) = U (Proc.devRef .tc main_arg5) :=
  StableHlo.after_of_forall_not_mem (b := Proc.devRef .tc main_arg5) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_arg5 (U : Valuation τ sig (Elt F)) :
    StableHlo.after (hostOps0_7 (F := F)) U (Proc.devRef .tc main_arg5) = U (Proc.devRef .tc main_arg5) :=
  StableHlo.after_of_forall_not_mem (b := Proc.devRef .tc main_arg5) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_arg5 (U : Valuation τ sig (Elt F)) :
    StableHlo.after (hostOps0_8 (F := F)) U (Proc.devRef .tc main_arg5) = U (Proc.devRef .tc main_arg5) :=
  StableHlo.after_of_forall_not_mem (b := Proc.devRef .tc main_arg5) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_arg5 (U : Valuation τ sig (Elt F)) :
    StableHlo.after (hostOps2 (F := F)) U (Proc.devRef .tc main_arg5) = U (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_3_main_arg5 (U : Valuation τ sig (Elt F)) :
    StableHlo.after (hostOps3 (F := F)) U (Proc.devRef .tc main_arg5) = U (Proc.devRef .tc main_arg5) :=
  StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_main_arg6 (U : Valuation τ sig (Elt F)) :
    StableHlo.after (hostOps0 (F := F)) U (Proc.devRef .tc main_arg6) = U (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_1_main_arg6 (U : Valuation τ sig (Elt F)) :
    StableHlo.after (hostOps0_1 (F := F)) U (Proc.devRef .tc main_arg6) = U (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_2_main_arg6 (U : Valuation τ sig (Elt F)) :
    StableHlo.after (hostOps0_2 (F := F)) U (Proc.devRef .tc main_arg6) = U (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_3_main_arg6 (U : Valuation τ sig (Elt F)) :
    StableHlo.after (hostOps0_3 (F := F)) U (Proc.devRef .tc main_arg6) = U (Proc.devRef .tc main_arg6) :=
  StableHlo.after_of_forall_not_mem (b := Proc.devRef .tc main_arg6) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_4_main_arg6 (U : Valuation τ sig (Elt F)) :
    StableHlo.after (hostOps0_4 (F := F)) U (Proc.devRef .tc main_arg6) = U (Proc.devRef .tc main_arg6) :=
  StableHlo.after_of_forall_not_mem (b := Proc.devRef .tc main_arg6) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_5_main_arg6 (U : Valuation τ sig (Elt F)) :
    StableHlo.after (hostOps0_5 (F := F)) U (Proc.devRef .tc main_arg6) = U (Proc.devRef .tc main_arg6) :=
  StableHlo.after_of_forall_not_mem (b := Proc.devRef .tc main_arg6) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_6_main_arg6 (U : Valuation τ sig (Elt F)) :
    StableHlo.after (hostOps0_6 (F := F)) U (Proc.devRef .tc main_arg6) = U (Proc.devRef .tc main_arg6) :=
  StableHlo.after_of_forall_not_mem (b := Proc.devRef .tc main_arg6) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_7_main_arg6 (U : Valuation τ sig (Elt F)) :
    StableHlo.after (hostOps0_7 (F := F)) U (Proc.devRef .tc main_arg6) = U (Proc.devRef .tc main_arg6) :=
  StableHlo.after_of_forall_not_mem (b := Proc.devRef .tc main_arg6) _ _ (List.forall_iff_forall_mem.mp (by
    simp only [hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_0_8_main_arg6 (U : Valuation τ sig (Elt F)) :
    StableHlo.after (hostOps0_8 (F := F)) U (Proc.devRef .tc main_arg6) = U (Proc.devRef .tc main_arg6) :=
  StableHlo.after_of_forall_not_mem (b := Proc.devRef .tc main_arg6) _ _ (List.forall_iff_forall_mem.mp (by
    simp only [hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_2_main_arg6 (U : Valuation τ sig (Elt F)) :
    StableHlo.after (hostOps2 (F := F)) U (Proc.devRef .tc main_arg6) = U (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_3_main_arg6 (U : Valuation τ sig (Elt F)) :
    StableHlo.after (hostOps3 (F := F)) U (Proc.devRef .tc main_arg6) = U (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_5_main_arg6 (U : Valuation τ sig (Elt F)) :
    StableHlo.after (hostOps5 (F := F)) U (Proc.devRef .tc main_arg6) = U (Proc.devRef .tc main_arg6) :=
  StableHlo.after_of_forall_not_mem (b := Proc.devRef .tc main_arg6) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KeepArgs

end
-- ==== Proof.HostStages.lean ====
/-
  The idealized kernel's host stretches, one at a time, over any contents U at the stretch's entry: each buffer a
  later stage reads, as the composed operations of the buffers the stretch found. The degree is an accumulating
  scatter of the edge weights through the column of col words into a zero vector; the inverse square root of the
  degree is kept where the degree is positive and replaced by 0 elsewhere; the coefficient columns are that vector
  gathered through the wrapped row and col words; the messages' rows are a layer's features gathered through the
  wrapped row words; the aggregates are accumulating scatters of message rows through the col words into zero rows.
-/
import proofs.«168910_j58506044506599_1_alg».proof.Proof.Gen.KernelIdeal.Frame
import Idealize.ShloMosaic.Lib.StableHlo.Run
import Idealize.ShloMosaic.PureOps.Ideal

set_option maxRecDepth 65536
set_option maxHeartbeats 1000000

noncomputable section

namespace Cert.KernelIdeal.HostStages

open Cert.KernelIdeal Cert.KernelIdeal.Gen
open Idealize.ShloMosaic Idealize.ShloMosaic.TcCoe Idealize.SL.Sem Idealize.ShloMosaic.StableHlo

/-- The zero vector of node values. -/
def zeroNodes : S50000.Idx → Ideal .f32 :=
  broadcastInDim S50000 ![] bcast_S_S50000 (constant (F := Ideal) S_ .f32 0x00000000#32)

/-- The degree of every node: the edge weights summed into the node their col word names. -/
def degOf (col : S851968.Idx → BitVec 32) (ew : S851968.Idx → Ideal .f32) : S50000.Idx → Ideal .f32 :=
  Host.scatterAdd (F := Ideal) (φ := .f32) scatter_S50000_S851968x1_S851968_n_0_0_1 zeroNodes
    (broadcastInDim S851968x1 ![0] bcast_S851968_S851968x1_0 col) ew

/-- The inverse square root of a positive degree, 0 for the others. -/
def dinvOf (deg : S50000.Idx → Ideal .f32) : S50000.Idx → Ideal .f32 :=
  select (cmpf (F := Ideal) (φ := .f32) .ogt deg zeroNodes) (Host.rsqrt (F := Ideal) (φ := .f32) deg)
    (broadcastInDim S50000 ![] bcast_S_S50000 (id (constant (F := Ideal) S_ .f32 0x00000000#32)))

/-- The index words wrapped once around the node count where they are negative. -/
def wrapK (v : S851968.Idx → BitVec 32) : S851968.Idx → BitVec 32 :=
  select (cmpi .slt v (broadcastInDim S851968 ![] bcast_S_S851968 (constantI S_ 32 0#32)))
    (addi v (broadcastInDim S851968 ![] bcast_S_S851968 (constantI S_ 32 50000#32))) v

/-- A vector of edge values as a column. -/
def colK {α : Type} (v : S851968.Idx → α) : S851968x1.Idx → α := shapeCast S851968x1 v shapeCasts_S851968_S851968x1

/-- The column of start or scatter indices made of a vector of edge words. -/
def idxColK (v : S851968.Idx → BitVec 32) : S851968x1.Idx → BitVec 32 :=
  broadcastInDim S851968x1 ![0] bcast_S851968_S851968x1_0 v

variable (U : Valuation τ sig (Elt Ideal))

theorem s6_v14 : (StableHlo.after (hostOps0_6 (F := Ideal)) U (Proc.devRef .tc main_v14) : S50000.Idx → Ideal .f32)
    = degOf (U (Proc.devRef .tc main_v10)) (U (Proc.devRef .tc main_v11)) := by
  after_results <;> rfl

theorem s6_v16 : (StableHlo.after (hostOps0_6 (F := Ideal)) U (Proc.devRef .tc main_v16) : S50000.Idx → BitVec 1)
    = cmpf (F := Ideal) (φ := .f32) .ogt (degOf (U (Proc.devRef .tc main_v10)) (U (Proc.devRef .tc main_v11))) zeroNodes := by
  after_results <;> rfl

theorem s6_v17 : (StableHlo.after (hostOps0_6 (F := Ideal)) U (Proc.devRef .tc main_v17) : S50000.Idx → Ideal .f32)
    = Host.rsqrt (F := Ideal) (φ := .f32) (degOf (U (Proc.devRef .tc main_v10)) (U (Proc.devRef .tc main_v11))) := by
  after_results <;> rfl

theorem s6_cst4 : (StableHlo.after (hostOps0_6 (F := Ideal)) U (Proc.devRef .tc main_cst_4) : S_.Idx → Ideal .f32)
    = constant (F := Ideal) S_ .f32 0x00000000#32 := by
  after_results <;> rfl

theorem s7_v18 : (StableHlo.after (hostOps0_7 (F := Ideal)) U (Proc.devRef .tc main_v18) : S50000.Idx → Ideal .f32)
    = select (U (Proc.devRef .tc main_v16)) (U (Proc.devRef .tc main_v17))
        (broadcastInDim S50000 ![] bcast_S_S50000 (id (U (Proc.devRef .tc main_cst_4)))) := by
  after_results <;> rfl

theorem s8_v26 : (StableHlo.after (hostOps0_8 (F := Ideal)) U (Proc.devRef .tc main_v26) : S851968x1.Idx → Ideal .f32)
    = colK (Host.gather gather_S50000_S851968x1_S851968_n_0_n_n_0_1_1 (U (Proc.devRef .tc main_v18))
        (idxColK (wrapK (U (Proc.devRef .tc main_v9))))) := by
  after_results <;> rfl

theorem s8_v34 : (StableHlo.after (hostOps0_8 (F := Ideal)) U (Proc.devRef .tc main_v34) : S851968x1.Idx → Ideal .f32)
    = colK (Host.gather gather_S50000_S851968x1_S851968_n_0_n_n_0_1_1 (U (Proc.devRef .tc main_v18))
        (idxColK (wrapK (U (Proc.devRef .tc main_v10))))) := by
  after_results <;> rfl

theorem s8_v35 : (StableHlo.after (hostOps0_8 (F := Ideal)) U (Proc.devRef .tc main_v35) : S851968x1.Idx → Ideal .f32)
    = colK (U (Proc.devRef .tc main_v11)) := by
  after_results <;> rfl

theorem h2_v44 : (StableHlo.after (hostOps2 (F := Ideal)) U (Proc.devRef .tc main_v44) : S851968x128.Idx → Ideal .f32)
    = Host.gather gather_S50000x128_S851968x1_S851968x128_1_0_n_n_0_1_1128 (U (Proc.devRef .tc main_v37))
        (idxColK (wrapK (U (Proc.devRef .tc main_v9)))) := by
  after_results <;> rfl

theorem h3_v48 : (StableHlo.after (hostOps3 (F := Ideal)) U (Proc.devRef .tc main_v48) : S50000x128.Idx → Ideal .f32)
    = Host.scatterAdd (F := Ideal) (φ := .f32) scatter_S50000x128_S851968x1_S851968x128_1_0_0_1
        (broadcastInDim S50000x128 ![] bcast_S_S50000x128 (constant (F := Ideal) S_ .f32 0x00000000#32))
        (idxColK (U (Proc.devRef .tc main_v10))) (U (Proc.devRef .tc main_v45)) := by
  after_results <;> rfl

theorem h3_v49 : (StableHlo.after (hostOps3 (F := Ideal)) U (Proc.devRef .tc main_v49) : S1x128.Idx → Ideal .f32)
    = shapeCast S1x128 (U (Proc.devRef .tc main_arg4)) shapeCasts_S128_S1x128 := by
  after_results <;> rfl

theorem h5_v58 : (StableHlo.after (hostOps5 (F := Ideal)) U (Proc.devRef .tc main_v58) : S851968x64.Idx → Ideal .f32)
    = Host.gather gather_S50000x64_S851968x1_S851968x64_1_0_n_n_0_1_164 (U (Proc.devRef .tc main_v51))
        (idxColK (wrapK (U (Proc.devRef .tc main_v9)))) := by
  after_results <;> rfl

theorem h6_v62 : (StableHlo.after (hostOps6 (F := Ideal)) U (Proc.devRef .tc main_v62) : S50000x64.Idx → Ideal .f32)
    = Host.scatterAdd (F := Ideal) (φ := .f32) scatter_S50000x64_S851968x1_S851968x64_1_0_0_1
        (broadcastInDim S50000x64 ![] bcast_S_S50000x64 (constant (F := Ideal) S_ .f32 0x00000000#32))
        (idxColK (U (Proc.devRef .tc main_v10))) (U (Proc.devRef .tc main_v59)) := by
  after_results <;> rfl

theorem h6_v63 : (StableHlo.after (hostOps6 (F := Ideal)) U (Proc.devRef .tc main_v63) : S1x64.Idx → Ideal .f32)
    = shapeCast S1x64 (U (Proc.devRef .tc main_arg6)) shapeCasts_S64_S1x64 := by
  after_results <;> rfl

end Cert.KernelIdeal.HostStages

end
-- ==== Proof.Region0.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The elementwise product of three columns: what the region's output array ends holding. -/
def prod3 (a b d : S851968x1.Idx → Ideal .f32) : S851968x1.Idx → Ideal .f32 := fun i => a i * b i * d i

/-- The product of three columns' entries at indices that coincide is the product array's entry there. -/
theorem prod3_at (a0 a1 a2 : S851968x1.Idx → Ideal .f32) (k0 k1 k2 k3 : S851968x1.Idx)
    (h0 : k0 = k3) (h1 : k1 = k3) (h2 : k2 = k3) : a0 k0 * a1 k1 * a2 k2 = prod3 a0 a1 a2 k3 := by
  subst h0 h1 h2; rfl

/-- The body's payload is the product of its three loaded blocks (the shape casts are identities). -/
theorem pay_eq (x0 x1 x2 : Vec Ideal S2048x1 .f32) : k0_pay1 x0 x1 x2 = mulf (mulf x0 x1) x2 := by
  unfold k0_pay1
  simp only [shapeCast_self]

/-- The printed index maps over the grid: every window's block index at point `t` is `(t, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the product of the three input arrays. -/
theorem flushed_eq (c : Dev nD) (t : Fin cfg0.N) :
    (dat0 V c).flushed 3 t = ((cfg0.win 3).blk t).view.read (Elt Ideal)
      (prod3 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S2048x1) zero_offsets]
  rw [pay_eq]
  obtain ⟨e00, e01, e10, e11, e20, e21, e30, e31⟩ := index_facts t
  funext j
  have h0 : (((cfg0.win 0).blk t).view.emb j : S851968x1.Idx) = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1 + 1 * (j 1).val = win0_3.index t (1 : Fin 2) * 1 + 1 * (j 1).val; omega
  have h1 : (((cfg0.win 1).blk t).view.emb j : S851968x1.Idx) = ((cfg0.win 3).blk t).view.emb j := by
    funext a; apply Fin.ext
    match a with
    | ⟨0, _⟩ => show win0_1.index t (0 : Fin 2) * 2048 + 1 * (j 0).val = win0_3.index t (0 : Fin 2) * 2048 + 1 * (j 0).val; omega
    | ⟨1, _⟩ => show win0_1.index t (1 : Fin 2) * 1 + 1 * (j 1).val = win0_3.index t (1 : Fin 2) * 1 + 1 * (j 1).val; omega
  have h2 : (((cfg0.win 2).blk t).view.emb j : S851968x1.Idx) = ((cfg0.win 3).blk t).view.emb j := by
    funext a; apply Fin.ext
    match a with
    | ⟨0, _⟩ => show win0_2.index t (0 : Fin 2) * 2048 + 1 * (j 0).val = win0_3.index t (0 : Fin 2) * 2048 + 1 * (j 0).val; omega
    | ⟨1, _⟩ => show win0_2.index t (1 : Fin 2) * 1 + 1 * (j 1).val = win0_3.index t (1 : Fin 2) * 1 + 1 * (j 1).val; omega
  exact prod3_at (V c (Pipeline.arrRef spec0 0)) (V c (Pipeline.arrRef spec0 1)) (V c (Pipeline.arrRef spec0 2)) _ _ _ _ h0 h1 h2

/-- An index of the array is in point `t`'s block iff each coordinate is in the block's range on its axis. -/
theorem mem_blk (t : Fin cfg0.N) (i : S851968x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v36).slice (win0_3.rect t)).set ↔ _
  rw [View.set_slice_whole, Rect.mem_set_unit]
  exact Iff.rfl

/-- Every index of the array is in the block of the point its row divided by the block's rows names. -/
theorem cover (i : S851968x1.Idx) :
    ∃ t : Fin cfg0.N, (cfg0.win 3).flush t = true ∧ i ∈ ((cfg0.win 3).blk t).view.set := by
  have hi0 : (i 0).val < 851968 := (i 0).isLt
  have hi1 : (i 1).val < 1 := (i 1).isLt
  obtain ⟨t, ht⟩ : ∃ t : Fin cfg0.N, t.val = (i 0).val / 2048 := ⟨⟨(i 0).val / 2048, by rw [show cfg0.N = 416 from N_0]; omega⟩, rfl⟩
  obtain ⟨e00, e01, e10, e11, e20, e21, e30, e31⟩ := index_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1 ≤ (i 1).val ∧ (i 1).val < win0_3.index t (1 : Fin 2) * 1 + 1; omega

/-- The region's output array at its exit: the elementwise product of the three input arrays as found at entry. -/
theorem arr (c : Dev nD) :
    (dat0 (F := Ideal) V c).arrAt 3 cfg0.N
      = prod3 (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.Region1.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

/-- The zero offsets of a whole-buffer access. -/
theorem zeroOffsets : (![0, 0] : Fin 2 → Nat) = fun _ => 0 := funext fun a => by fin_cases a <;> rfl

/-- Rows of `x` times the matrix `w`: entry `(r, q)` is `∑ k, x (r, k) * w (k, q)`. -/
def rowsTimes (x : S50000x128.Idx → EReal) (w : S128x128.Idx → EReal) : S50000x128.Idx → EReal :=
  fun i => ∑ k : Fin 128, x (ix2 (i 0) k) * w (ix2 k (i 1))

/-- Left operand index, row axis: the output index's row. -/
theorem lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand index, column axis: the contraction coordinate. -/
theorem lhs_col (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- Right operand index, row axis: the contraction coordinate. -/
theorem rhs_row (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
/-- Right operand index, column axis: the output index's column. -/
theorem rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction's left operand index: row of the output index, the contraction coordinate as column. -/
theorem lhsIdx_eq (p : Fin 5000) (q : Fin 128) (k : Fin 128) :
    dot_S5000x128_S128x128_S5000x128_1_0_0_1_n_n.lhsIdx (ix2 p q) ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhs_row _ _
    | ⟨1, _⟩ => exact (lhs_col _ _).trans hk)

/-- The contraction's right operand index: the contraction coordinate as row, column of the output index. -/
theorem rhsIdx_eq (p : Fin 5000) (q : Fin 128) (k : Fin 128) :
    dot_S5000x128_S128x128_S5000x128_1_0_0_1_n_n.rhsIdx (ix2 p q) ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhs_row _ _).trans hk
    | ⟨1, _⟩ => exact rhs_col _ _)

/-- The body's payload at an index of the block: the row of the left block times the column of the right one
    (the narrowing to bf16 is the identity on extended reals; the accumulator is the zero splat). -/
theorem pay_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  rw [lhsIdx_eq, rhsIdx_eq]
  rfl

variable (V : (c : Dev nD) → (b : Ref sig .tc) → Buf (Elt Ideal) ((c : Thread nD τ).loc b))

/-- The printed index maps, decided once over the grid: the left operand's block and the output's block are row block
    `t`, column block 0; the matrix is taken whole at every point. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The payload of a row block: if the left block is rows `b * 5000 …` of `X` and the right block is `W`, the payload
    at `j` is `rowsTimes X W` at row `b * 5000 + j 0`, column `j 1`. -/
theorem pay_block (X : S50000x128.Idx → EReal) (W : S128x128.Idx → EReal)
    (x0 : Vec Ideal S5000x128 .f32) (x1 : Vec Ideal S128x128 .f32) (b : Nat)
    (h0 : ∀ (y : S5000x128.Idx) (i : S50000x128.Idx), (i 0).val = b * 5000 + (y 0).val → (i 1).val = (y 1).val → x0 y = X i)
    (h1 : ∀ y : S128x128.Idx, x1 y = W y)
    (j : S5000x128.Idx) (i : S50000x128.Idx) (hi0 : (i 0).val = b * 5000 + (j 0).val) (hi1 : (i 1).val = (j 1).val) :
    k1_pay1 (F := Ideal) x0 x1 j = rowsTimes X W i := by
  obtain ⟨p, q, rfl⟩ : ∃ (p : Fin 5000) (q : Fin 128), j = ix2 p q := ⟨j 0, j 1, eq_ix2 j⟩
  rw [pay_apply]
  unfold rowsTimes
  refine Finset.sum_congr rfl fun k _ => ?_
  rw [h0 (ix2 p k) (ix2 (i 0) k) hi0 rfl, h1]
  have hq : q = i 1 := Fin.ext hi1.symm
  rw [hq]

/-- WHAT POINT `t` WRITES BACK is block `t` of `rowsTimes` of the two arrays as the region finds them. -/
theorem flushed_eq (c : Dev nD) (t : Fin cfg1.N) :
    (dat1 (F := Ideal) V c).flushed 2 t
      = ((cfg1.win 2).blk t).view.read (Elt Ideal) (rowsTimes (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x128) zeroOffsets]
  obtain ⟨e0, e1, e2, e3, e4, e5⟩ := idx_facts t
  funext j
  refine pay_block (V c (Pipeline.arrRef spec1 0)) (V c (Pipeline.arrRef spec1 1)) (iblk1 V c 0 t) (iblk1 V c 1 t) t.val ?_ ?_ j (((cfg1.win 2).blk t).view.emb j) ?_ ?_
  · intro y i hy0 hy1
    show V c (Pipeline.arrRef spec1 0) (((cfg1.win 0).blk t).view.emb y) = V c (Pipeline.arrRef spec1 0) i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 128 + 1 * (y 1).val = (i 1).val; omega
  · intro y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · show win1_2.index t (0 : Fin 2) * 5000 + 1 * (j 0).val = t.val * 5000 + (j 0).val; omega
  · show win1_2.index t (1 : Fin 2) * 128 + 1 * (j 1).val = (j 1).val; omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v37).slice (win1_2.rect t)).set ↔ _
  rw [View.set_slice_whole, Rect.mem_set_unit]
  exact Iff.rfl

/-- The ten row blocks cover the output array: row `r` is in the block of point `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- THE OUTPUT ARRAY after the region: `rowsTimes` of the two arrays the region found. -/
theorem arr (c : Dev nD) :
    (dat1 (F := Ideal) V c).arrAt 2 cfg1.N = rowsTimes (V c (Pipeline.arrRef spec1 0)) (V c (Pipeline.arrRef spec1 1)) :=
  (dat1 V c).arrAt_eq_of_cover 2 _ (fun t _ => flushed_eq V c t) (fun i => cover i)

end Cert.KernelIdeal.Region1

end
-- ==== Proof.Region2.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- Each row of a matrix scaled by that row's entry of a column: what the region's output array ends holding. -/
def scale (g : S851968x128.Idx → Ideal .f32) (n : S851968x1.Idx → Ideal .f32) : S851968x128.Idx → Ideal .f32 :=
  fun i => g i * n (ix2 (i 0) 0)

/-- A matrix entry times a column entry is the scaled array's entry when the matrix indices coincide and the column
    index is the same row, lane 0. -/
theorem scale_at (g : S851968x128.Idx → Ideal .f32) (n : S851968x1.Idx → Ideal .f32)
    (k0 k2 : S851968x128.Idx) (k1 : S851968x1.Idx) (h0 : k0 = k2)
    (h1r : (k1 0).val = (k2 0).val) (h1l : (k1 1).val = 0) :
    g k0 * n k1 = scale g n k2 := by
  subst h0
  have e : k1 = ix2 (k0 0) 0 := by
    funext a; apply Fin.ext
    match a with
    | ⟨0, _⟩ => exact h1r
    | ⟨1, _⟩ => exact h1l
  rw [e]; rfl

/-- The column block broadcast along the lanes reads, at row `p` and any lane, the column's entry of row `p`. -/
theorem bcast_at (x1 : Vec Ideal S2048x1 .f32) (j : S2048x128.Idx) :
    broadcastTo S2048x128 x1 broadcasts_S2048x1_S2048x128 j = x1 (ix2 (j 0) 0) :=
  broadcastTo_apply x1 _ j (ix2 (j 0) 0) (fun a => by match a with | ⟨0, _⟩ => rfl | ⟨1, _⟩ => rfl)

/-- The body's payload at an index: the matrix block's entry times the column block's entry of the same row. -/
theorem pay_at (x0 : Vec Ideal S2048x128 .f32) (x1 : Vec Ideal S2048x1 .f32) (j : S2048x128.Idx) :
    k2_pay1 x0 x1 j = x0 j * x1 (ix2 (j 0) 0) := by
  unfold k2_pay1
  simp only [shapeCast_self]
  rw [mulf_apply, bcast_at]

/-- The printed index maps over the grid: every window's block index at point `t` is `(t, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled array of the two input arrays. -/
theorem flushed_eq (c : Dev nD) (t : Fin cfg2.N) :
    (dat2 V c).flushed 2 t = ((cfg2.win 2).blk t).view.read (Elt Ideal)
      (scale (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2048x128) zero_offsets, View.ld_unit_zero (S := S2048x1) zero_offsets]
  obtain ⟨e00, e01, e10, e11, e20, e21⟩ := index_facts t
  funext j
  show k2_pay1 (iblk2 V c 0 t) (iblk2 V c 1 t) j
    = scale (V c (Pipeline.arrRef spec2 0)) (V c (Pipeline.arrRef spec2 1)) (((cfg2.win 2).blk t).view.emb j)
  refine (pay_at (iblk2 V c 0 t) (iblk2 V c 1 t) j).trans ?_
  have h0 : (((cfg2.win 0).blk t).view.emb j : S851968x128.Idx) = ((cfg2.win 2).blk t).view.emb j := by
    funext a; apply Fin.ext
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 128 + 1 * (j 1).val = win2_2.index t (1 : Fin 2) * 128 + 1 * (j 1).val; omega
  refine scale_at (V c (Pipeline.arrRef spec2 0)) (V c (Pipeline.arrRef spec2 1)) _ _ _ h0 ?_ ?_
  · show win2_1.index t (0 : Fin 2) * 2048 + 1 * (j 0).val = win2_2.index t (0 : Fin 2) * 2048 + 1 * (j 0).val; omega
  · show win2_1.index t (1 : Fin 2) * 1 + 1 * 0 = 0; omega

/-- An index of the array is in point `t`'s block iff each coordinate is in the block's range on its axis. -/
theorem mem_blk (t : Fin cfg2.N) (i : S851968x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v45).slice (win2_2.rect t)).set ↔ _
  rw [View.set_slice_whole, Rect.mem_set_unit]
  exact Iff.rfl

/-- Every index of the array is in the block of the point its row divided by the block's rows names. -/
theorem cover (i : S851968x128.Idx) :
    ∃ t : Fin cfg2.N, (cfg2.win 2).flush t = true ∧ i ∈ ((cfg2.win 2).blk t).view.set := by
  have hi0 : (i 0).val < 851968 := (i 0).isLt
  have hi1 : (i 1).val < 128 := (i 1).isLt
  obtain ⟨t, ht⟩ : ∃ t : Fin cfg2.N, t.val = (i 0).val / 2048 := ⟨⟨(i 0).val / 2048, by rw [show cfg2.N = 416 from N_2]; omega⟩, rfl⟩
  obtain ⟨e00, e01, e10, e11, e20, e21⟩ := index_facts t
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

/-- The region's output array at its exit: the matrix found at entry, each row scaled by the column's entry of that row. -/
theorem arr (c : Dev nD) :
    (dat2 (F := Ideal) V c).arrAt 2 cfg2.N
      = scale (V c (Pipeline.arrRef spec2 0)) (V c (Pipeline.arrRef spec2 1)) :=
  (dat2 V c).arrAt_eq_of_cover 2 _ (fun t _ => flushed_eq V c t) cover

end Cert.KernelIdeal.Region2

end
-- ==== Proof.Region3.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- A row vector added to every row of a matrix, then the maximum with the zero word's value, entry by entry:
    what the region's output array ends holding. -/
def biasRelu (a : S50000x128.Idx → Ideal .f32) (b : S1x128.Idx → Ideal .f32) : S50000x128.Idx → Ideal .f32 :=
  fun i => max (a i + b (ix2 0 (i 1))) (Ideal.ofBits .f32 0x00000000#32)

/-- A matrix entry plus a row-vector entry, capped below, is the array's entry when the matrix indices coincide and
    the row-vector index is row 0, the same lane. -/
theorem biasRelu_at (a : S50000x128.Idx → Ideal .f32) (b : S1x128.Idx → Ideal .f32)
    (k0 k2 : S50000x128.Idx) (k1 : S1x128.Idx) (h0 : k0 = k2)
    (h1r : (k1 0).val = 0) (h1l : (k1 1).val = (k2 1).val) :
    max (a k0 + b k1) (Ideal.ofBits .f32 0x00000000#32) = biasRelu a b k2 := by
  subst h0
  have e : k1 = ix2 0 (k0 1) := by
    funext d; apply Fin.ext
    match d with
    | ⟨0, _⟩ => exact h1r
    | ⟨1, _⟩ => exact h1l
  rw [e]; rfl

/-- The row block broadcast along the rows reads, at any row and lane `q`, the row vector's entry of lane `q`. -/
theorem bcast_at (x1 : Vec Ideal S1x128 .f32) (j : S5000x128.Idx) :
    broadcastTo S5000x128 x1 broadcasts_S1x128_S5000x128 j = x1 (ix2 0 (j 1)) :=
  broadcastTo_apply x1 _ j (ix2 0 (j 1)) (fun a => by match a with | ⟨0, _⟩ => rfl | ⟨1, _⟩ => rfl)

/-- The body's payload at an index: the matrix block's entry plus the row vector's entry of the same lane, capped
    below by the zero word's value. -/
theorem pay_at (x0 : Vec Ideal S5000x128 .f32) (x1 : Vec Ideal S1x128 .f32) (j : S5000x128.Idx) :
    k3_pay1 x0 x1 j = max (x0 j + x1 (ix2 0 (j 1))) (Ideal.ofBits .f32 0x00000000#32) := by
  unfold k3_pay1
  simp only [shapeCast_self]
  rw [maximumf_apply, addf_apply, bcast_at]
  rfl

/-- The printed index maps over the grid: the matrix windows' block index at point `t` is `(t, 0)`, the row
    vector's `(0, 0)`. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased, capped array of the two input arrays. -/
theorem flushed_eq (c : Dev nD) (t : Fin cfg3.N) :
    (dat3 V c).flushed 2 t = ((cfg3.win 2).blk t).view.read (Elt Ideal)
      (biasRelu (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e00, e01, e10, e11, e20, e21⟩ := index_facts t
  funext j
  show k3_pay1 (iblk3 V c 0 t) (iblk3 V c 1 t) j
    = biasRelu (V c (Pipeline.arrRef spec3 0)) (V c (Pipeline.arrRef spec3 1)) (((cfg3.win 2).blk t).view.emb j)
  refine (pay_at (iblk3 V c 0 t) (iblk3 V c 1 t) j).trans ?_
  have h0 : (((cfg3.win 0).blk t).view.emb j : S50000x128.Idx) = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  refine biasRelu_at (V c (Pipeline.arrRef spec3 0)) (V c (Pipeline.arrRef spec3 1)) _ _ _ h0 ?_ ?_
  · show win3_1.index t (0 : Fin 2) * 1 + 1 * 0 = 0; omega
  · show win3_1.index t (1 : Fin 2) * 128 + 1 * (j 1).val = win3_2.index t (1 : Fin 2) * 128 + 1 * (j 1).val; omega

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v50).slice (win3_2.rect t)).set ↔ _
  rw [View.set_slice_whole, Rect.mem_set_unit]
  exact Iff.rfl

/-- Every index of the array is in the block of the point its row divided by the block's rows names. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨e00, e01, e10, e11, e20, e21⟩ := index_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array at its exit: the matrix found at entry plus the row vector on every row, capped below
    by the zero word's value. -/
theorem arr (c : Dev nD) :
    (dat3 (F := Ideal) V c).arrAt 2 cfg3.N
      = biasRelu (V c (Pipeline.arrRef spec3 0)) (V c (Pipeline.arrRef spec3 1)) :=
  (dat3 V c).arrAt_eq_of_cover 2 _ (fun t _ => flushed_eq V c t) cover

end Cert.KernelIdeal.Region3

end
-- ==== Proof.Region4.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region4

open Cert.KernelIdeal Cert.KernelIdeal.Gen

/-- The zero offsets of a whole-buffer access. -/
theorem zeroOffsets : (![0, 0] : Fin 2 → Nat) = fun _ => 0 := funext fun a => by fin_cases a <;> rfl

/-- Rows of `x` times the matrix `w`: entry `(r, q)` is `∑ k, x (r, k) * w (k, q)`. -/
def rowsTimes (x : S50000x128.Idx → EReal) (w : S128x64.Idx → EReal) : S50000x64.Idx → EReal :=
  fun i => ∑ k : Fin 128, x (ix2 (i 0) k) * w (ix2 k (i 1))

/-- Left operand index, row axis: the output index's row. -/
theorem lhs_row (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Left operand index, column axis: the contraction coordinate. -/
theorem lhs_col (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c
/-- Right operand index, row axis: the contraction coordinate. -/
theorem rhs_row (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c
/-- Right operand index, column axis: the output index's column. -/
theorem rhs_col (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The contraction's left operand index: row of the output index, the contraction coordinate as column. -/
theorem lhsIdx_eq (p : Fin 5000) (q : Fin 64) (k : Fin 128) :
    dot_S5000x128_S128x64_S5000x64_1_0_0_1_n_n.lhsIdx (ix2 p q) ((contrEquiv1 dot_S5000x128_S128x64_S5000x64_1_0_0_1_n_n 128 rfl rfl).symm k) = ix2 p k := by
  have hk := contrEquiv1_symm_val dot_S5000x128_S128x64_S5000x64_1_0_0_1_n_n 128 rfl rfl k
  exact funext fun a => Fin.ext (by
    match a with
    | ⟨0, _⟩ => exact lhs_row _ _
    | ⟨1, _⟩ => exact (lhs_col _ _).trans hk)

/-- The contraction's right operand index: the contraction coordinate as row, column of the output index. -/
theorem rhsIdx_eq (p : Fin 5000) (q : Fin 64) (k : Fin 128) :
    dot_S5000x128_S128x64_S5000x64_1_0_0_1_n_n.rhsIdx (ix2 p q) ((contrEquiv1 dot_S5000x128_S128x64_S5000x64_1_0_0_1_n_n 128 rfl rfl).symm k) = ix2 k q := by
  have hk := contrEquiv1_symm_val dot_S5000x128_S128x64_S5000x64_1_0_0_1_n_n 128 rfl rfl k
  exact funext fun a => Fin.ext (by
    match a with
    | ⟨0, _⟩ => exact (rhs_row _ _).trans hk
    | ⟨1, _⟩ => exact rhs_col _ _)

/-- The body's payload at an index of the block: the row of the left block times the column of the right one
    (the cast to the same shape and the narrowing to bf16 are the identity on extended reals; the accumulator is the
    zero splat). -/
theorem pay_apply (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  rw [lhsIdx_eq, rhsIdx_eq]
  rfl

variable (V : (c : Dev nD) → (b : Ref sig .tc) → Buf (Elt Ideal) ((c : Thread nD τ).loc b))

/-- The printed index maps, decided once over the grid: the left operand's block and the output's block are row block
    `t`, column block 0; the matrix is taken whole at every point. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The payload of a row block: if the left block is rows `b * 5000 …` of `X` and the right block is `W`, the payload
    at `j` is `rowsTimes X W` at row `b * 5000 + j 0`, column `j 1`. -/
theorem pay_block (X : S50000x128.Idx → EReal) (W : S128x64.Idx → EReal)
    (x0 : Vec Ideal S5000x128 .f32) (x1 : Vec Ideal S128x64 .f32) (b : Nat)
    (h0 : ∀ (y : S5000x128.Idx) (i : S50000x128.Idx), (i 0).val = b * 5000 + (y 0).val → (i 1).val = (y 1).val → x0 y = X i)
    (h1 : ∀ y : S128x64.Idx, x1 y = W y)
    (j : S5000x64.Idx) (i : S50000x64.Idx) (hi0 : (i 0).val = b * 5000 + (j 0).val) (hi1 : (i 1).val = (j 1).val) :
    k4_pay1 (F := Ideal) x0 x1 j = rowsTimes X W i := by
  obtain ⟨p, q, rfl⟩ : ∃ (p : Fin 5000) (q : Fin 64), j = ix2 p q := ⟨j 0, j 1, eq_ix2 j⟩
  rw [pay_apply]
  unfold rowsTimes
  refine Finset.sum_congr rfl fun k _ => ?_
  rw [h0 (ix2 p k) (ix2 (i 0) k) hi0 rfl, h1]
  have hq : q = i 1 := Fin.ext hi1.symm
  rw [hq]

/-- WHAT POINT `t` WRITES BACK is block `t` of `rowsTimes` of the two arrays as the region finds them. -/
theorem flushed_eq (c : Dev nD) (t : Fin cfg4.N) :
    (dat4 (F := Ideal) V c).flushed 2 t
      = ((cfg4.win 2).blk t).view.read (Elt Ideal) (rowsTimes (V c (Pipeline.arrRef spec4 0)) (V c (Pipeline.arrRef spec4 1))) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S128x64) zeroOffsets]
  obtain ⟨e0, e1, e2, e3, e4, e5⟩ := idx_facts t
  funext j
  refine pay_block (V c (Pipeline.arrRef spec4 0)) (V c (Pipeline.arrRef spec4 1)) (iblk4 V c 0 t) (iblk4 V c 1 t) t.val ?_ ?_ j (((cfg4.win 2).blk t).view.emb j) ?_ ?_
  · intro y i hy0 hy1
    show V c (Pipeline.arrRef spec4 0) (((cfg4.win 0).blk t).view.emb y) = V c (Pipeline.arrRef spec4 0) i
    refine congrArg _ (funext fun a => Fin.ext ?_)
    match a with
    | ⟨0, _⟩ => show win4_0.index t (0 : Fin 2) * 5000 + 1 * (y 0).val = (i 0).val; omega
    | ⟨1, _⟩ => show win4_0.index t (1 : Fin 2) * 128 + 1 * (y 1).val = (i 1).val; omega
  · intro y
    show V c (Pipeline.arrRef spec4 1) (((cfg4.win 1).blk t).view.emb y) = V c (Pipeline.arrRef spec4 1) y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 64 + 1 * (y 1).val = (y 1).val; omega
  · show win4_2.index t (0 : Fin 2) * 5000 + 1 * (j 0).val = t.val * 5000 + (j 0).val; omega
  · show win4_2.index t (1 : Fin 2) * 64 + 1 * (j 1).val = (j 1).val; omega

/-- An index of the output array is in point `t`'s block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v51).slice (win4_2.rect t)).set ↔ _
  rw [View.set_slice_whole, Rect.mem_set_unit]
  exact Iff.rfl

/-- The ten row blocks cover the output array: row `r` is in the block of point `r / 5000`. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨e0, e1, e2, e3, e4, e5⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [e5]; omega

/-- THE OUTPUT ARRAY after the region: `rowsTimes` of the two arrays the region found. -/
theorem arr (c : Dev nD) :
    (dat4 (F := Ideal) V c).arrAt 2 cfg4.N = rowsTimes (V c (Pipeline.arrRef spec4 0)) (V c (Pipeline.arrRef spec4 1)) :=
  (dat4 V c).arrAt_eq_of_cover 2 _ (fun t _ => flushed_eq V c t) (fun i => cover i)

end Cert.KernelIdeal.Region4

end
-- ==== Proof.Region5.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- Each row of a matrix scaled by that row's entry of a column: what the region's output array ends holding. -/
def scale (g : S851968x64.Idx → Ideal .f32) (n : S851968x1.Idx → Ideal .f32) : S851968x64.Idx → Ideal .f32 :=
  fun i => g i * n (ix2 (i 0) 0)

/-- A matrix entry times a column entry is the scaled array's entry when the matrix indices coincide and the column
    index is the same row, lane 0. -/
theorem scale_at (g : S851968x64.Idx → Ideal .f32) (n : S851968x1.Idx → Ideal .f32)
    (k0 k2 : S851968x64.Idx) (k1 : S851968x1.Idx) (h0 : k0 = k2)
    (h1r : (k1 0).val = (k2 0).val) (h1l : (k1 1).val = 0) :
    g k0 * n k1 = scale g n k2 := by
  subst h0
  have e : k1 = ix2 (k0 0) 0 := by
    funext a; apply Fin.ext
    match a with
    | ⟨0, _⟩ => exact h1r
    | ⟨1, _⟩ => exact h1l
  rw [e]; rfl

/-- The column block broadcast along the lanes reads, at row `p` and any lane, the column's entry of row `p`. -/
theorem bcast_at (x1 : Vec Ideal S2048x1 .f32) (j : S2048x64.Idx) :
    broadcastTo S2048x64 x1 broadcasts_S2048x1_S2048x64 j = x1 (ix2 (j 0) 0) :=
  broadcastTo_apply x1 _ j (ix2 (j 0) 0) (fun a => by match a with | ⟨0, _⟩ => rfl | ⟨1, _⟩ => rfl)

/-- The body's payload at an index: the matrix block's entry times the column block's entry of the same row. -/
theorem pay_at (x0 : Vec Ideal S2048x64 .f32) (x1 : Vec Ideal S2048x1 .f32) (j : S2048x64.Idx) :
    k5_pay1 x0 x1 j = x0 j * x1 (ix2 (j 0) 0) := by
  unfold k5_pay1
  simp only [shapeCast_self]
  rw [mulf_apply, bcast_at]

/-- The printed index maps over the grid: every window's block index at point `t` is `(t, 0)`. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the scaled array of the two input arrays. -/
theorem flushed_eq (c : Dev nD) (t : Fin cfg5.N) :
    (dat5 V c).flushed 2 t = ((cfg5.win 2).blk t).view.read (Elt Ideal)
      (scale (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S2048x64) zero_offsets, View.ld_unit_zero (S := S2048x1) zero_offsets]
  obtain ⟨e00, e01, e10, e11, e20, e21⟩ := index_facts t
  funext j
  show k5_pay1 (iblk5 V c 0 t) (iblk5 V c 1 t) j
    = scale (V c (Pipeline.arrRef spec5 0)) (V c (Pipeline.arrRef spec5 1)) (((cfg5.win 2).blk t).view.emb j)
  refine (pay_at (iblk5 V c 0 t) (iblk5 V c 1 t) j).trans ?_
  have h0 : (((cfg5.win 0).blk t).view.emb j : S851968x64.Idx) = ((cfg5.win 2).blk t).view.emb j := by
    funext a; apply Fin.ext
    match a with
    | ⟨0, _⟩ => show win5_0.index t (0 : Fin 2) * 2048 + 1 * (j 0).val = win5_2.index t (0 : Fin 2) * 2048 + 1 * (j 0).val; omega
    | ⟨1, _⟩ => show win5_0.index t (1 : Fin 2) * 64 + 1 * (j 1).val = win5_2.index t (1 : Fin 2) * 64 + 1 * (j 1).val; omega
  refine scale_at (V c (Pipeline.arrRef spec5 0)) (V c (Pipeline.arrRef spec5 1)) _ _ _ h0 ?_ ?_
  · show win5_1.index t (0 : Fin 2) * 2048 + 1 * (j 0).val = win5_2.index t (0 : Fin 2) * 2048 + 1 * (j 0).val; omega
  · show win5_1.index t (1 : Fin 2) * 1 + 1 * 0 = 0; omega

/-- An index of the array is in point `t`'s block iff each coordinate is in the block's range on its axis. -/
theorem mem_blk (t : Fin cfg5.N) (i : S851968x64.Idx) :
    i ∈ ((cfg5.win 2).blk t).view.set ↔ ∀ a : Fin 2, win5_2.index t a * S2048x64.size a ≤ (i a).val ∧ (i a).val < win5_2.index t a * S2048x64.size a + S2048x64.size a := by
  show i ∈ ((View.whole main_v59).slice (win5_2.rect t)).set ↔ _
  rw [View.set_slice_whole, Rect.mem_set_unit]
  exact Iff.rfl

/-- Every index of the array is in the block of the point its row divided by the block's rows names. -/
theorem cover (i : S851968x64.Idx) :
    ∃ t : Fin cfg5.N, (cfg5.win 2).flush t = true ∧ i ∈ ((cfg5.win 2).blk t).view.set := by
  have hi0 : (i 0).val < 851968 := (i 0).isLt
  have hi1 : (i 1).val < 64 := (i 1).isLt
  obtain ⟨t, ht⟩ : ∃ t : Fin cfg5.N, t.val = (i 0).val / 2048 := ⟨⟨(i 0).val / 2048, by rw [show cfg5.N = 416 from N_5]; omega⟩, rfl⟩
  obtain ⟨e00, e01, e10, e11, e20, e21⟩ := index_facts t
  refine ⟨t, flush5_2 t, ?_⟩
  rw [mem_blk]
  intro a
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 64 ≤ (i 1).val ∧ (i 1).val < win5_2.index t (1 : Fin 2) * 64 + 64; omega

/-- The region's output array at its exit: the matrix found at entry, each row scaled by the column's entry of that row. -/
theorem arr (c : Dev nD) :
    (dat5 (F := Ideal) V c).arrAt 2 cfg5.N
      = scale (V c (Pipeline.arrRef spec5 0)) (V c (Pipeline.arrRef spec5 1)) :=
  (dat5 V c).arrAt_eq_of_cover 2 _ (fun t _ => flushed_eq V c t) cover

end Cert.KernelIdeal.Region5

end
-- ==== Proof.Region6.lean ====
import proofs.«168910_j58506044506599_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Region6

open Cert.KernelIdeal Cert.KernelIdeal.Gen

/-- The zero offsets of a whole-buffer access. -/
theorem zeroOffsets : (![0, 0] : Fin 2 → Nat) = fun _ => 0 := funext fun a => by fin_cases a <;> rfl

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` cast to a column `[a, 1]` reads, at `(p, 0)`, its entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the lanes of a `[5000, 64]` block, read at row `p`. -/
theorem rowSum_apply (v : FVec Ideal S5000x64 .f32) (p : Fin 5000) :
    multiReduction .add [1] S5000 v 0x00000000#32 reduces_S5000x64_S5000 (.inl rfl) rfl (ix1 p) = ∑ k : Fin 64, v (ix2 p k) := by
  refine (Ideal.multiReduction_add_single v 0x00000000#32 reduces_S5000x64_S5000 (.inl rfl) rfl (ix1 p)).trans ?_
  refine Finset.sum_congr rfl fun k _ => congrArg v ?_
  funext c; apply Fin.ext
  match c with
  | ⟨0, _⟩ => rfl
  | ⟨1, _⟩ => rfl

/-- The square root of a block, read at an index. -/
theorem sqrt_apply {s : Shape} {φ : FTy} (a : FVec Ideal s φ) (i : s.Idx) : sqrt a i = Ideal.sqrt (a i) := rfl

/-- The bias row `b` added to every row of `a`. -/
def biased (a : S50000x64.Idx → EReal) (b : S1x64.Idx → EReal) : S50000x64.Idx → EReal :=
  fun j => a j + b (ix2 (0 : Fin 1) (j 1))

/-- Bias, then each row divided by its Euclidean norm (bounded below by the printed constant): with `v = biased a b`,
    entry `(r, q)` is `v (r, q) / max (√(∑ k, v (r, k) * v (r, k))) ε`. -/
def biasNormalize (a : S50000x64.Idx → EReal) (b : S1x64.Idx → EReal) : S50000x64.Idx → EReal :=
  fun i => Ideal.div (biased a b i)
    (max (Ideal.sqrt (∑ k : Fin 64, biased a b (ix2 (i 0) k) * biased a b (ix2 (i 0) k))) (Ideal.ofBits .f32 0x2B8CBCCC#32))

/-- The body's payload at an index of the block: the biased entry over the larger of its biased row's norm and the
    printed constant (the casts to the same shape are the identity; the lane sum, its cast to a column, the two
    broadcasts each read at the index). -/
theorem pay_apply (x0 : Vec Ideal S5000x64 .f32) (x1 : Vec Ideal S1x64 .f32) (p : Fin 5000) (q : Fin 64) :
    k6_pay1 (F := Ideal) x0 x1 (ix2 p q)
      = Ideal.div (x0 (ix2 p q) + x1 (ix2 (0 : Fin 1) q))
          (max (Ideal.sqrt (∑ k : Fin 64, (x0 (ix2 p k) + x1 (ix2 (0 : Fin 1) k)) * (x0 (ix2 p k) + x1 (ix2 (0 : Fin 1) k))))
            (Ideal.ofBits .f32 0x2B8CBCCC#32)) := by
  unfold k6_pay1
  simp only [shapeCast_self]
  rw [divf_apply, addf_apply, broadcastTo_1b_ab_apply, broadcastTo_a1_ab_apply, maximumf_apply, broadcast_apply]
  refine congrArg (fun s => Ideal.div (x0 (ix2 p q) + x1 (ix2 (0 : Fin 1) q)) (max (Ideal.sqrt s) (Ideal.ofBits .f32 0x2B8CBCCC#32))) ?_
  refine (shapeCast_a_a1_apply _ _ p 0).trans ?_
  refine (rowSum_apply _ p).trans ?_
  refine Finset.sum_congr rfl fun k _ => ?_
  rw [mulf_apply, addf_apply, broadcastTo_1b_ab_apply]

/-- The payload of a row block: if the left block is rows `b * 5000 …` of `A` and the right block is the bias row `B`,
    the payload at `j` is `biasNormalize A B` at row `b * 5000 + j 0`, column `j 1`. -/
theorem pay_block (A : S50000x64.Idx → EReal) (B : S1x64.Idx → EReal)
    (x0 : Vec Ideal S5000x64 .f32) (x1 : Vec Ideal S1x64 .f32) (b : Nat)
    (h0 : ∀ (y : S5000x64.Idx) (i : S50000x64.Idx), (i 0).val = b * 5000 + (y 0).val → (i 1).val = (y 1).val → x0 y = A i)
    (h1 : ∀ y : S1x64.Idx, x1 y = B y)
    (j : S5000x64.Idx) (i : S50000x64.Idx) (hi0 : (i 0).val = b * 5000 + (j 0).val) (hi1 : (i 1).val = (j 1).val) :
    k6_pay1 (F := Ideal) x0 x1 j = biasNormalize A B i := by
  obtain ⟨p, q, rfl⟩ : ∃ (p : Fin 5000) (q : Fin 64), j = ix2 p q := ⟨j 0, j 1, eq_ix2 j⟩
  have hrow : ∀ k : Fin 64, x0 (ix2 p k) + x1 (ix2 (0 : Fin 1) k) = biased A B (ix2 (i 0) k) := fun k => by
    rw [h0 (ix2 p k) (ix2 (i 0) k) hi0 rfl, h1]
    rfl
  have hq : q = i 1 := Fin.ext hi1.symm
  have hnum : x0 (ix2 p q) + x1 (ix2 (0 : Fin 1) q) = biased A B i := by
    rw [hrow q, hq]
    exact congrArg (biased A B) (eq_ix2 i).symm
  rw [pay_apply, hnum]
  exact congrArg (fun s => Ideal.div (biased A B i) (max (Ideal.sqrt s) (Ideal.ofBits .f32 0x2B8CBCCC#32)))
    (Finset.sum_congr rfl fun k _ => by rw [hrow k])

variable (V : (c : Dev nD) → (b : Ref sig .tc) → Buf (Elt Ideal) ((c : Thread nD τ).loc b))

/-- The printed index maps, decided once over the grid: the input's block and the output's block are row block
    `t`, column block 0; the bias row is taken whole at every point. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- WHAT POINT `t` WRITES BACK is block `t` of `biasNormalize` of the two arrays as the region finds them. -/
theorem flushed_eq (c : Dev nD) (t : Fin cfg6.N) :
    (dat6 (F := Ideal) V c).flushed 2 t
      = ((cfg6.win 2).blk t).view.read (Elt Ideal) (biasNormalize (V c (Pipeline.arrRef spec6 0)) (V c (Pipeline.arrRef spec6 1))) := by
  show (cfg6.win 2).cut (grid6.coords t) ((dat6 V c).after 2 t) = _
  rw [after6_2]
  unfold out6_2
  rw [View.canon_unit_zero zeroOffsets]
  simp only [View.ld_unit_zero (S := S5000x64) zeroOffsets, View.ld_unit_zero (S := S1x64) zeroOffsets]
  obtain ⟨e0, e1, e2, e3, e4, e5⟩ := idx_facts t
  funext j
  refine pay_block (V c (Pipeline.arrRef spec6 0)) (V c (Pipeline.arrRef spec6 1)) (iblk6 V c 0 t) (iblk6 V c 1 t) t.val ?_ ?_ j (((cfg6.win 2).blk t).view.emb j) ?_ ?_
  · intro y i hy0 hy1
    show V c (Pipeline.arrRef spec6 0) (((cfg6.win 0).blk t).view.emb y) = V c (Pipeline.arrRef spec6 0) i
    refine congrArg _ (funext fun a => Fin.ext ?_)
    match a with
    | ⟨0, _⟩ => show win6_0.index t (0 : Fin 2) * 5000 + 1 * (y 0).val = (i 0).val; omega
    | ⟨1, _⟩ => show win6_0.index t (1 : Fin 2) * 64 + 1 * (y 1).val = (i 1).val; omega
  · intro y
    show V c (Pipeline.arrRef spec6 1) (((cfg6.win 1).blk t).view.emb y) = V c (Pipeline.arrRef spec6 1) y
    refine congrArg _ (funext fun a => Fin.ext ?_)
    match a with
    | ⟨0, _⟩ => show win6_1.index t (0 : Fin 2) * 1 + 1 * (y 0).val = (y 0).val; omega
    | ⟨1, _⟩ => show win6_1.index t (1 : Fin 2) * 64 + 1 * (y 1).val = (y 1).val; omega
  · show win6_2.index t (0 : Fin 2) * 5000 + 1 * (j 0).val = t.val * 5000 + (j 0).val; omega
  · show win6_2.index t (1 : Fin 2) * 64 + 1 * (j 1).val = (j 1).val; omega

/-- An index of the output array is in point `t`'s block iff each coordinate is in the block's range on its axis. -/
theorem mem_blk (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v64).slice (win6_2.rect t)).set ↔ _
  rw [View.set_slice_whole, Rect.mem_set_unit]
  exact Iff.rfl

/-- The ten row blocks cover the output array: row `r` is in the block of point `r / 5000`. -/
theorem cover (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 10 := N_6
  have ht : (i 0).val / 5000 < cfg6.N := by rw [hN]; omega
  obtain ⟨e0, e1, e2, e3, e4, e5⟩ := idx_facts ⟨(i 0).val / 5000, ht⟩
  refine ⟨⟨(i 0).val / 5000, ht⟩, flush6_2 _, ?_⟩
  rw [mem_blk]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 64 ≤ (i 1).val ∧ (i 1).val < win6_2.index ⟨(i 0).val / 5000, ht⟩ (1 : Fin 2) * 64 + 64
    rw [e5]; omega

/-- THE OUTPUT ARRAY after the region: `biasNormalize` of the two arrays the region found. -/
theorem arr (c : Dev nD) :
    (dat6 (F := Ideal) V c).arrAt 2 cfg6.N = biasNormalize (V c (Pipeline.arrRef spec6 0)) (V c (Pipeline.arrRef spec6 1)) :=
  (dat6 V c).arrAt_eq_of_cover 2 _ (fun t _ => flushed_eq V c t) (fun i => cover i)

end Cert.KernelIdeal.Region6

end
-- ==== Proof.KernelValue.lean ====
/-
  The idealized kernel's buffers at the boundaries of its twenty segments, each as a function of the buffers one
  boundary earlier. A buffer no segment in between writes is carried unchanged (a region carries its inputs through
  its write-back fold unchanged as well); a host stretch's result is the composed operations of what the stretch
  found; a region's output array is the region's whole-array function of the arrays it found.
-/
import proofs.«168910_j58506044506599_1_alg».proof.Proof.Gen.KernelIdeal.Frame
import proofs.«168910_j58506044506599_1_alg».proof.Proof.KeepEdges
import proofs.«168910_j58506044506599_1_alg».proof.Proof.KeepArgs
import proofs.«168910_j58506044506599_1_alg».proof.Proof.HostStages
import proofs.«168910_j58506044506599_1_alg».proof.Proof.Region0
import proofs.«168910_j58506044506599_1_alg».proof.Proof.Region1
import proofs.«168910_j58506044506599_1_alg».proof.Proof.Region2
import proofs.«168910_j58506044506599_1_alg».proof.Proof.Region3
import proofs.«168910_j58506044506599_1_alg».proof.Proof.Region4
import proofs.«168910_j58506044506599_1_alg».proof.Proof.Region5
import proofs.«168910_j58506044506599_1_alg».proof.Proof.Region6

set_option maxRecDepth 65536
set_option maxHeartbeats 1000000

noncomputable section

namespace Cert.KernelIdeal.Boundary

open Cert.KernelIdeal Cert.KernelIdeal.Gen
open Idealize.ShloMosaic Idealize.ShloMosaic.TcCoe Idealize.SL.Sem Idealize.ShloMosaic.StableHlo
open Cert.KernelIdeal.HostStages

variable (m : (ℓ : Loc nD τ sig) → Buf (Elt Ideal) ℓ) (ρ : Dev nD → PrngReg) (c : Dev nD)

/-! ## Buffers carried unchanged -/

theorem keep_main_v9_6_8 : W8 (F := Ideal) m ρ c (Proc.devRef .tc main_v9) = W6 (F := Ideal) m ρ c (Proc.devRef .tc main_v9) :=
  calc W8 (F := Ideal) m ρ c (Proc.devRef .tc main_v9)
    _ = W7 (F := Ideal) m ρ c (Proc.devRef .tc main_v9) := (KeepEdges.keep_0_7_main_v9 (W7 (F := Ideal) m ρ c))
    _ = W6 (F := Ideal) m ρ c (Proc.devRef .tc main_v9) := (KeepEdges.keep_0_6_main_v9 (W6 (F := Ideal) m ρ c))

theorem keep_main_v9_8_11 : W11 (F := Ideal) m ρ c (Proc.devRef .tc main_v9) = W8 (F := Ideal) m ρ c (Proc.devRef .tc main_v9) :=
  calc W11 (F := Ideal) m ρ c (Proc.devRef .tc main_v9)
    _ = W10 (F := Ideal) m ρ c (Proc.devRef .tc main_v9) := (W11_of_ne (F := Ideal) m ρ c main_v9 (by decide))
    _ = W9 (F := Ideal) m ρ c (Proc.devRef .tc main_v9) := (W10_of_ne (F := Ideal) m ρ c main_v9 (by decide))
    _ = W8 (F := Ideal) m ρ c (Proc.devRef .tc main_v9) := (KeepEdges.keep_0_8_main_v9 (W8 (F := Ideal) m ρ c))

theorem keep_main_v9_11_16 : W16 (F := Ideal) m ρ c (Proc.devRef .tc main_v9) = W11 (F := Ideal) m ρ c (Proc.devRef .tc main_v9) :=
  calc W16 (F := Ideal) m ρ c (Proc.devRef .tc main_v9)
    _ = W15 (F := Ideal) m ρ c (Proc.devRef .tc main_v9) := (W16_of_ne (F := Ideal) m ρ c main_v9 (by decide))
    _ = W14 (F := Ideal) m ρ c (Proc.devRef .tc main_v9) := (W15_of_ne (F := Ideal) m ρ c main_v9 (by decide))
    _ = W13 (F := Ideal) m ρ c (Proc.devRef .tc main_v9) := (KeepEdges.keep_3_main_v9 (W13 (F := Ideal) m ρ c))
    _ = W12 (F := Ideal) m ρ c (Proc.devRef .tc main_v9) := (W13_of_ne (F := Ideal) m ρ c main_v9 (by decide))
    _ = W11 (F := Ideal) m ρ c (Proc.devRef .tc main_v9) := (KeepEdges.keep_2_main_v9 (W11 (F := Ideal) m ρ c))

theorem keep_main_v10_6_8 : W8 (F := Ideal) m ρ c (Proc.devRef .tc main_v10) = W6 (F := Ideal) m ρ c (Proc.devRef .tc main_v10) :=
  calc W8 (F := Ideal) m ρ c (Proc.devRef .tc main_v10)
    _ = W7 (F := Ideal) m ρ c (Proc.devRef .tc main_v10) := (KeepEdges.keep_0_7_main_v10 (W7 (F := Ideal) m ρ c))
    _ = W6 (F := Ideal) m ρ c (Proc.devRef .tc main_v10) := (KeepEdges.keep_0_6_main_v10 (W6 (F := Ideal) m ρ c))

theorem keep_main_v10_8_13 : W13 (F := Ideal) m ρ c (Proc.devRef .tc main_v10) = W8 (F := Ideal) m ρ c (Proc.devRef .tc main_v10) :=
  calc W13 (F := Ideal) m ρ c (Proc.devRef .tc main_v10)
    _ = W12 (F := Ideal) m ρ c (Proc.devRef .tc main_v10) := (W13_of_ne (F := Ideal) m ρ c main_v10 (by decide))
    _ = W11 (F := Ideal) m ρ c (Proc.devRef .tc main_v10) := (KeepEdges.keep_2_main_v10 (W11 (F := Ideal) m ρ c))
    _ = W10 (F := Ideal) m ρ c (Proc.devRef .tc main_v10) := (W11_of_ne (F := Ideal) m ρ c main_v10 (by decide))
    _ = W9 (F := Ideal) m ρ c (Proc.devRef .tc main_v10) := (W10_of_ne (F := Ideal) m ρ c main_v10 (by decide))
    _ = W8 (F := Ideal) m ρ c (Proc.devRef .tc main_v10) := (KeepEdges.keep_0_8_main_v10 (W8 (F := Ideal) m ρ c))

theorem keep_main_v10_13_18 : W18 (F := Ideal) m ρ c (Proc.devRef .tc main_v10) = W13 (F := Ideal) m ρ c (Proc.devRef .tc main_v10) :=
  calc W18 (F := Ideal) m ρ c (Proc.devRef .tc main_v10)
    _ = W17 (F := Ideal) m ρ c (Proc.devRef .tc main_v10) := (W18_of_ne (F := Ideal) m ρ c main_v10 (by decide))
    _ = W16 (F := Ideal) m ρ c (Proc.devRef .tc main_v10) := (KeepEdges.keep_5_main_v10 (W16 (F := Ideal) m ρ c))
    _ = W15 (F := Ideal) m ρ c (Proc.devRef .tc main_v10) := (W16_of_ne (F := Ideal) m ρ c main_v10 (by decide))
    _ = W14 (F := Ideal) m ρ c (Proc.devRef .tc main_v10) := (W15_of_ne (F := Ideal) m ρ c main_v10 (by decide))
    _ = W13 (F := Ideal) m ρ c (Proc.devRef .tc main_v10) := (KeepEdges.keep_3_main_v10 (W13 (F := Ideal) m ρ c))

theorem keep_main_v11_6_8 : W8 (F := Ideal) m ρ c (Proc.devRef .tc main_v11) = W6 (F := Ideal) m ρ c (Proc.devRef .tc main_v11) :=
  calc W8 (F := Ideal) m ρ c (Proc.devRef .tc main_v11)
    _ = W7 (F := Ideal) m ρ c (Proc.devRef .tc main_v11) := (KeepEdges.keep_0_7_main_v11 (W7 (F := Ideal) m ρ c))
    _ = W6 (F := Ideal) m ρ c (Proc.devRef .tc main_v11) := (KeepEdges.keep_0_6_main_v11 (W6 (F := Ideal) m ρ c))

theorem keep_main_v36_10_12 : W12 (F := Ideal) m ρ c (Proc.devRef .tc main_v36) = W10 (F := Ideal) m ρ c (Proc.devRef .tc main_v36) :=
  calc W12 (F := Ideal) m ρ c (Proc.devRef .tc main_v36)
    _ = W11 (F := Ideal) m ρ c (Proc.devRef .tc main_v36) := (KeepEdges.keep_2_main_v36 (W11 (F := Ideal) m ρ c))
    _ = W10 (F := Ideal) m ρ c (Proc.devRef .tc main_v36) := (W11_of_ne (F := Ideal) m ρ c main_v36 (by decide))

theorem keep_main_v36_12_17 : W17 (F := Ideal) m ρ c (Proc.devRef .tc main_v36) = W12 (F := Ideal) m ρ c (Proc.devRef .tc main_v36) :=
  calc W17 (F := Ideal) m ρ c (Proc.devRef .tc main_v36)
    _ = W16 (F := Ideal) m ρ c (Proc.devRef .tc main_v36) := (KeepEdges.keep_5_main_v36 (W16 (F := Ideal) m ρ c))
    _ = W15 (F := Ideal) m ρ c (Proc.devRef .tc main_v36) := (W16_of_ne (F := Ideal) m ρ c main_v36 (by decide))
    _ = W14 (F := Ideal) m ρ c (Proc.devRef .tc main_v36) := (W15_of_ne (F := Ideal) m ρ c main_v36 (by decide))
    _ = W13 (F := Ideal) m ρ c (Proc.devRef .tc main_v36) := (KeepEdges.keep_3_main_v36 (W13 (F := Ideal) m ρ c))
    _ = W12 (F := Ideal) m ρ c (Proc.devRef .tc main_v36) := ((W13_arr (F := Ideal) m ρ c 1).trans (((dat2 (F := Ideal) (V12 m ρ) c).arrAt_in 1 rfl _).trans (A_eq2 (V12 m ρ) c 1)))

theorem keep_main_arg0_0_10 : W10 (F := Ideal) m ρ c (Proc.devRef .tc main_arg0) = W0 (F := Ideal) m ρ c (Proc.devRef .tc main_arg0) :=
  calc W10 (F := Ideal) m ρ c (Proc.devRef .tc main_arg0)
    _ = W9 (F := Ideal) m ρ c (Proc.devRef .tc main_arg0) := (W10_of_ne (F := Ideal) m ρ c main_arg0 (by decide))
    _ = W8 (F := Ideal) m ρ c (Proc.devRef .tc main_arg0) := (KeepArgs.keep_0_8_main_arg0 (W8 (F := Ideal) m ρ c))
    _ = W7 (F := Ideal) m ρ c (Proc.devRef .tc main_arg0) := (KeepArgs.keep_0_7_main_arg0 (W7 (F := Ideal) m ρ c))
    _ = W6 (F := Ideal) m ρ c (Proc.devRef .tc main_arg0) := (KeepArgs.keep_0_6_main_arg0 (W6 (F := Ideal) m ρ c))
    _ = W5 (F := Ideal) m ρ c (Proc.devRef .tc main_arg0) := (KeepArgs.keep_0_5_main_arg0 (W5 (F := Ideal) m ρ c))
    _ = W4 (F := Ideal) m ρ c (Proc.devRef .tc main_arg0) := (KeepArgs.keep_0_4_main_arg0 (W4 (F := Ideal) m ρ c))
    _ = W3 (F := Ideal) m ρ c (Proc.devRef .tc main_arg0) := (KeepArgs.keep_0_3_main_arg0 (W3 (F := Ideal) m ρ c))
    _ = W2 (F := Ideal) m ρ c (Proc.devRef .tc main_arg0) := (KeepArgs.keep_0_2_main_arg0 (W2 (F := Ideal) m ρ c))
    _ = W1 (F := Ideal) m ρ c (Proc.devRef .tc main_arg0) := (KeepArgs.keep_0_1_main_arg0 (W1 (F := Ideal) m ρ c))
    _ = W0 (F := Ideal) m ρ c (Proc.devRef .tc main_arg0) := (KeepArgs.keep_0_main_arg0 (W0 (F := Ideal) m ρ c))

theorem keep_main_arg3_0_10 : W10 (F := Ideal) m ρ c (Proc.devRef .tc main_arg3) = W0 (F := Ideal) m ρ c (Proc.devRef .tc main_arg3) :=
  calc W10 (F := Ideal) m ρ c (Proc.devRef .tc main_arg3)
    _ = W9 (F := Ideal) m ρ c (Proc.devRef .tc main_arg3) := (W10_of_ne (F := Ideal) m ρ c main_arg3 (by decide))
    _ = W8 (F := Ideal) m ρ c (Proc.devRef .tc main_arg3) := (KeepArgs.keep_0_8_main_arg3 (W8 (F := Ideal) m ρ c))
    _ = W7 (F := Ideal) m ρ c (Proc.devRef .tc main_arg3) := (KeepArgs.keep_0_7_main_arg3 (W7 (F := Ideal) m ρ c))
    _ = W6 (F := Ideal) m ρ c (Proc.devRef .tc main_arg3) := (KeepArgs.keep_0_6_main_arg3 (W6 (F := Ideal) m ρ c))
    _ = W5 (F := Ideal) m ρ c (Proc.devRef .tc main_arg3) := (KeepArgs.keep_0_5_main_arg3 (W5 (F := Ideal) m ρ c))
    _ = W4 (F := Ideal) m ρ c (Proc.devRef .tc main_arg3) := (KeepArgs.keep_0_4_main_arg3 (W4 (F := Ideal) m ρ c))
    _ = W3 (F := Ideal) m ρ c (Proc.devRef .tc main_arg3) := (KeepArgs.keep_0_3_main_arg3 (W3 (F := Ideal) m ρ c))
    _ = W2 (F := Ideal) m ρ c (Proc.devRef .tc main_arg3) := (KeepArgs.keep_0_2_main_arg3 (W2 (F := Ideal) m ρ c))
    _ = W1 (F := Ideal) m ρ c (Proc.devRef .tc main_arg3) := (KeepArgs.keep_0_1_main_arg3 (W1 (F := Ideal) m ρ c))
    _ = W0 (F := Ideal) m ρ c (Proc.devRef .tc main_arg3) := (KeepArgs.keep_0_main_arg3 (W0 (F := Ideal) m ρ c))

theorem keep_main_arg4_0_13 : W13 (F := Ideal) m ρ c (Proc.devRef .tc main_arg4) = W0 (F := Ideal) m ρ c (Proc.devRef .tc main_arg4) :=
  calc W13 (F := Ideal) m ρ c (Proc.devRef .tc main_arg4)
    _ = W12 (F := Ideal) m ρ c (Proc.devRef .tc main_arg4) := (W13_of_ne (F := Ideal) m ρ c main_arg4 (by decide))
    _ = W11 (F := Ideal) m ρ c (Proc.devRef .tc main_arg4) := (KeepArgs.keep_2_main_arg4 (W11 (F := Ideal) m ρ c))
    _ = W10 (F := Ideal) m ρ c (Proc.devRef .tc main_arg4) := (W11_of_ne (F := Ideal) m ρ c main_arg4 (by decide))
    _ = W9 (F := Ideal) m ρ c (Proc.devRef .tc main_arg4) := (W10_of_ne (F := Ideal) m ρ c main_arg4 (by decide))
    _ = W8 (F := Ideal) m ρ c (Proc.devRef .tc main_arg4) := (KeepArgs.keep_0_8_main_arg4 (W8 (F := Ideal) m ρ c))
    _ = W7 (F := Ideal) m ρ c (Proc.devRef .tc main_arg4) := (KeepArgs.keep_0_7_main_arg4 (W7 (F := Ideal) m ρ c))
    _ = W6 (F := Ideal) m ρ c (Proc.devRef .tc main_arg4) := (KeepArgs.keep_0_6_main_arg4 (W6 (F := Ideal) m ρ c))
    _ = W5 (F := Ideal) m ρ c (Proc.devRef .tc main_arg4) := (KeepArgs.keep_0_5_main_arg4 (W5 (F := Ideal) m ρ c))
    _ = W4 (F := Ideal) m ρ c (Proc.devRef .tc main_arg4) := (KeepArgs.keep_0_4_main_arg4 (W4 (F := Ideal) m ρ c))
    _ = W3 (F := Ideal) m ρ c (Proc.devRef .tc main_arg4) := (KeepArgs.keep_0_3_main_arg4 (W3 (F := Ideal) m ρ c))
    _ = W2 (F := Ideal) m ρ c (Proc.devRef .tc main_arg4) := (KeepArgs.keep_0_2_main_arg4 (W2 (F := Ideal) m ρ c))
    _ = W1 (F := Ideal) m ρ c (Proc.devRef .tc main_arg4) := (KeepArgs.keep_0_1_main_arg4 (W1 (F := Ideal) m ρ c))
    _ = W0 (F := Ideal) m ρ c (Proc.devRef .tc main_arg4) := (KeepArgs.keep_0_main_arg4 (W0 (F := Ideal) m ρ c))

theorem keep_main_arg5_0_15 : W15 (F := Ideal) m ρ c (Proc.devRef .tc main_arg5) = W0 (F := Ideal) m ρ c (Proc.devRef .tc main_arg5) :=
  calc W15 (F := Ideal) m ρ c (Proc.devRef .tc main_arg5)
    _ = W14 (F := Ideal) m ρ c (Proc.devRef .tc main_arg5) := (W15_of_ne (F := Ideal) m ρ c main_arg5 (by decide))
    _ = W13 (F := Ideal) m ρ c (Proc.devRef .tc main_arg5) := (KeepArgs.keep_3_main_arg5 (W13 (F := Ideal) m ρ c))
    _ = W12 (F := Ideal) m ρ c (Proc.devRef .tc main_arg5) := (W13_of_ne (F := Ideal) m ρ c main_arg5 (by decide))
    _ = W11 (F := Ideal) m ρ c (Proc.devRef .tc main_arg5) := (KeepArgs.keep_2_main_arg5 (W11 (F := Ideal) m ρ c))
    _ = W10 (F := Ideal) m ρ c (Proc.devRef .tc main_arg5) := (W11_of_ne (F := Ideal) m ρ c main_arg5 (by decide))
    _ = W9 (F := Ideal) m ρ c (Proc.devRef .tc main_arg5) := (W10_of_ne (F := Ideal) m ρ c main_arg5 (by decide))
    _ = W8 (F := Ideal) m ρ c (Proc.devRef .tc main_arg5) := (KeepArgs.keep_0_8_main_arg5 (W8 (F := Ideal) m ρ c))
    _ = W7 (F := Ideal) m ρ c (Proc.devRef .tc main_arg5) := (KeepArgs.keep_0_7_main_arg5 (W7 (F := Ideal) m ρ c))
    _ = W6 (F := Ideal) m ρ c (Proc.devRef .tc main_arg5) := (KeepArgs.keep_0_6_main_arg5 (W6 (F := Ideal) m ρ c))
    _ = W5 (F := Ideal) m ρ c (Proc.devRef .tc main_arg5) := (KeepArgs.keep_0_5_main_arg5 (W5 (F := Ideal) m ρ c))
    _ = W4 (F := Ideal) m ρ c (Proc.devRef .tc main_arg5) := (KeepArgs.keep_0_4_main_arg5 (W4 (F := Ideal) m ρ c))
    _ = W3 (F := Ideal) m ρ c (Proc.devRef .tc main_arg5) := (KeepArgs.keep_0_3_main_arg5 (W3 (F := Ideal) m ρ c))
    _ = W2 (F := Ideal) m ρ c (Proc.devRef .tc main_arg5) := (KeepArgs.keep_0_2_main_arg5 (W2 (F := Ideal) m ρ c))
    _ = W1 (F := Ideal) m ρ c (Proc.devRef .tc main_arg5) := (KeepArgs.keep_0_1_main_arg5 (W1 (F := Ideal) m ρ c))
    _ = W0 (F := Ideal) m ρ c (Proc.devRef .tc main_arg5) := (KeepArgs.keep_0_main_arg5 (W0 (F := Ideal) m ρ c))

theorem keep_main_arg6_0_18 : W18 (F := Ideal) m ρ c (Proc.devRef .tc main_arg6) = W0 (F := Ideal) m ρ c (Proc.devRef .tc main_arg6) :=
  calc W18 (F := Ideal) m ρ c (Proc.devRef .tc main_arg6)
    _ = W17 (F := Ideal) m ρ c (Proc.devRef .tc main_arg6) := (W18_of_ne (F := Ideal) m ρ c main_arg6 (by decide))
    _ = W16 (F := Ideal) m ρ c (Proc.devRef .tc main_arg6) := (KeepArgs.keep_5_main_arg6 (W16 (F := Ideal) m ρ c))
    _ = W15 (F := Ideal) m ρ c (Proc.devRef .tc main_arg6) := (W16_of_ne (F := Ideal) m ρ c main_arg6 (by decide))
    _ = W14 (F := Ideal) m ρ c (Proc.devRef .tc main_arg6) := (W15_of_ne (F := Ideal) m ρ c main_arg6 (by decide))
    _ = W13 (F := Ideal) m ρ c (Proc.devRef .tc main_arg6) := (KeepArgs.keep_3_main_arg6 (W13 (F := Ideal) m ρ c))
    _ = W12 (F := Ideal) m ρ c (Proc.devRef .tc main_arg6) := (W13_of_ne (F := Ideal) m ρ c main_arg6 (by decide))
    _ = W11 (F := Ideal) m ρ c (Proc.devRef .tc main_arg6) := (KeepArgs.keep_2_main_arg6 (W11 (F := Ideal) m ρ c))
    _ = W10 (F := Ideal) m ρ c (Proc.devRef .tc main_arg6) := (W11_of_ne (F := Ideal) m ρ c main_arg6 (by decide))
    _ = W9 (F := Ideal) m ρ c (Proc.devRef .tc main_arg6) := (W10_of_ne (F := Ideal) m ρ c main_arg6 (by decide))
    _ = W8 (F := Ideal) m ρ c (Proc.devRef .tc main_arg6) := (KeepArgs.keep_0_8_main_arg6 (W8 (F := Ideal) m ρ c))
    _ = W7 (F := Ideal) m ρ c (Proc.devRef .tc main_arg6) := (KeepArgs.keep_0_7_main_arg6 (W7 (F := Ideal) m ρ c))
    _ = W6 (F := Ideal) m ρ c (Proc.devRef .tc main_arg6) := (KeepArgs.keep_0_6_main_arg6 (W6 (F := Ideal) m ρ c))
    _ = W5 (F := Ideal) m ρ c (Proc.devRef .tc main_arg6) := (KeepArgs.keep_0_5_main_arg6 (W5 (F := Ideal) m ρ c))
    _ = W4 (F := Ideal) m ρ c (Proc.devRef .tc main_arg6) := (KeepArgs.keep_0_4_main_arg6 (W4 (F := Ideal) m ρ c))
    _ = W3 (F := Ideal) m ρ c (Proc.devRef .tc main_arg6) := (KeepArgs.keep_0_3_main_arg6 (W3 (F := Ideal) m ρ c))
    _ = W2 (F := Ideal) m ρ c (Proc.devRef .tc main_arg6) := (KeepArgs.keep_0_2_main_arg6 (W2 (F := Ideal) m ρ c))
    _ = W1 (F := Ideal) m ρ c (Proc.devRef .tc main_arg6) := (KeepArgs.keep_0_1_main_arg6 (W1 (F := Ideal) m ρ c))
    _ = W0 (F := Ideal) m ρ c (Proc.devRef .tc main_arg6) := (KeepArgs.keep_0_main_arg6 (W0 (F := Ideal) m ρ c))

/-! ## Results of the stretches and of the regions -/

theorem val8_v18 : W8 (F := Ideal) m ρ c (Proc.devRef .tc main_v18) = dinvOf (degOf (W6 (F := Ideal) m ρ c (Proc.devRef .tc main_v10)) (W6 (F := Ideal) m ρ c (Proc.devRef .tc main_v11))) :=
  (s7_v18 (W7 (F := Ideal) m ρ c)).trans (by
    rw [show W7 (F := Ideal) m ρ c (Proc.devRef .tc main_v16) = _ from s6_v16 (W6 (F := Ideal) m ρ c),
      show W7 (F := Ideal) m ρ c (Proc.devRef .tc main_v17) = _ from s6_v17 (W6 (F := Ideal) m ρ c),
      show W7 (F := Ideal) m ρ c (Proc.devRef .tc main_cst_4) = _ from s6_cst4 (W6 (F := Ideal) m ρ c)]
    rfl)

theorem val9_v26 : W9 (F := Ideal) m ρ c (Proc.devRef .tc main_v26)
    = colK (Host.gather gather_S50000_S851968x1_S851968_n_0_n_n_0_1_1 (W8 (F := Ideal) m ρ c (Proc.devRef .tc main_v18)) (idxColK (wrapK (W8 (F := Ideal) m ρ c (Proc.devRef .tc main_v9))))) :=
  s8_v26 (W8 (F := Ideal) m ρ c)

theorem val9_v34 : W9 (F := Ideal) m ρ c (Proc.devRef .tc main_v34)
    = colK (Host.gather gather_S50000_S851968x1_S851968_n_0_n_n_0_1_1 (W8 (F := Ideal) m ρ c (Proc.devRef .tc main_v18)) (idxColK (wrapK (W8 (F := Ideal) m ρ c (Proc.devRef .tc main_v10))))) :=
  s8_v34 (W8 (F := Ideal) m ρ c)

theorem val9_v35 : W9 (F := Ideal) m ρ c (Proc.devRef .tc main_v35) = colK (W8 (F := Ideal) m ρ c (Proc.devRef .tc main_v11)) :=
  s8_v35 (W8 (F := Ideal) m ρ c)

theorem val10_v36 : W10 (F := Ideal) m ρ c (Proc.devRef .tc main_v36)
    = Region0.prod3 (W9 (F := Ideal) m ρ c (Proc.devRef .tc main_v26)) (W9 (F := Ideal) m ρ c (Proc.devRef .tc main_v35)) (W9 (F := Ideal) m ρ c (Proc.devRef .tc main_v34)) :=
  (W10_arr (F := Ideal) m ρ c 3).trans (Region0.arr (V9 m ρ) c)

theorem val11_v37 : W11 (F := Ideal) m ρ c (Proc.devRef .tc main_v37)
    = Region1.rowsTimes (W10 (F := Ideal) m ρ c (Proc.devRef .tc main_arg0)) (W10 (F := Ideal) m ρ c (Proc.devRef .tc main_arg3)) :=
  (W11_arr (F := Ideal) m ρ c 2).trans (Region1.arr (V10 m ρ) c)

theorem val12_v44 : W12 (F := Ideal) m ρ c (Proc.devRef .tc main_v44)
    = Host.gather gather_S50000x128_S851968x1_S851968x128_1_0_n_n_0_1_1128 (W11 (F := Ideal) m ρ c (Proc.devRef .tc main_v37)) (idxColK (wrapK (W11 (F := Ideal) m ρ c (Proc.devRef .tc main_v9)))) :=
  h2_v44 (W11 (F := Ideal) m ρ c)

theorem val13_v45 : W13 (F := Ideal) m ρ c (Proc.devRef .tc main_v45)
    = Region2.scale (W12 (F := Ideal) m ρ c (Proc.devRef .tc main_v44)) (W12 (F := Ideal) m ρ c (Proc.devRef .tc main_v36)) :=
  (W13_arr (F := Ideal) m ρ c 2).trans (Region2.arr (V12 m ρ) c)

theorem val14_v48 : W14 (F := Ideal) m ρ c (Proc.devRef .tc main_v48)
    = Host.scatterAdd (F := Ideal) (φ := .f32) scatter_S50000x128_S851968x1_S851968x128_1_0_0_1
        (broadcastInDim S50000x128 ![] bcast_S_S50000x128 (constant (F := Ideal) S_ .f32 0x00000000#32))
        (idxColK (W13 (F := Ideal) m ρ c (Proc.devRef .tc main_v10))) (W13 (F := Ideal) m ρ c (Proc.devRef .tc main_v45)) :=
  h3_v48 (W13 (F := Ideal) m ρ c)

theorem val14_v49 : W14 (F := Ideal) m ρ c (Proc.devRef .tc main_v49) = shapeCast S1x128 (W13 (F := Ideal) m ρ c (Proc.devRef .tc main_arg4)) shapeCasts_S128_S1x128 :=
  h3_v49 (W13 (F := Ideal) m ρ c)

theorem val15_v50 : W15 (F := Ideal) m ρ c (Proc.devRef .tc main_v50)
    = Region3.biasRelu (W14 (F := Ideal) m ρ c (Proc.devRef .tc main_v48)) (W14 (F := Ideal) m ρ c (Proc.devRef .tc main_v49)) :=
  (W15_arr (F := Ideal) m ρ c 2).trans (Region3.arr (V14 m ρ) c)

theorem val16_v51 : W16 (F := Ideal) m ρ c (Proc.devRef .tc main_v51)
    = Region4.rowsTimes (W15 (F := Ideal) m ρ c (Proc.devRef .tc main_v50)) (W15 (F := Ideal) m ρ c (Proc.devRef .tc main_arg5)) :=
  (W16_arr (F := Ideal) m ρ c 2).trans (Region4.arr (V15 m ρ) c)

theorem val17_v58 : W17 (F := Ideal) m ρ c (Proc.devRef .tc main_v58)
    = Host.gather gather_S50000x64_S851968x1_S851968x64_1_0_n_n_0_1_164 (W16 (F := Ideal) m ρ c (Proc.devRef .tc main_v51)) (idxColK (wrapK (W16 (F := Ideal) m ρ c (Proc.devRef .tc main_v9)))) :=
  h5_v58 (W16 (F := Ideal) m ρ c)

theorem val18_v59 : W18 (F := Ideal) m ρ c (Proc.devRef .tc main_v59)
    = Region5.scale (W17 (F := Ideal) m ρ c (Proc.devRef .tc main_v58)) (W17 (F := Ideal) m ρ c (Proc.devRef .tc main_v36)) :=
  (W18_arr (F := Ideal) m ρ c 2).trans (Region5.arr (V17 m ρ) c)

theorem val19_v62 : W19 (F := Ideal) m ρ c (Proc.devRef .tc main_v62)
    = Host.scatterAdd (F := Ideal) (φ := .f32) scatter_S50000x64_S851968x1_S851968x64_1_0_0_1
        (broadcastInDim S50000x64 ![] bcast_S_S50000x64 (constant (F := Ideal) S_ .f32 0x00000000#32))
        (idxColK (W18 (F := Ideal) m ρ c (Proc.devRef .tc main_v10))) (W18 (F := Ideal) m ρ c (Proc.devRef .tc main_v59)) :=
  h6_v62 (W18 (F := Ideal) m ρ c)

theorem val19_v63 : W19 (F := Ideal) m ρ c (Proc.devRef .tc main_v63) = shapeCast S1x64 (W18 (F := Ideal) m ρ c (Proc.devRef .tc main_arg6)) shapeCasts_S64_S1x64 :=
  h6_v63 (W18 (F := Ideal) m ρ c)

theorem val20_v64 : W20 (F := Ideal) m ρ c (Proc.devRef .tc main_v64)
    = Region6.biasNormalize (W19 (F := Ideal) m ρ c (Proc.devRef .tc main_v62)) (W19 (F := Ideal) m ρ c (Proc.devRef .tc main_v63)) :=
  (W20_arr (F := Ideal) m ρ c 2).trans (Region6.arr (V19 m ρ) c)

end Cert.KernelIdeal.Boundary

end
-- ==== Proof.LibDegreeColumn.lean ====
/-
  Accumulating scatter of a vector and of a column count the same thing.

  Scattering E = 1600000 updates into n = 100000 buckets along a vector, and scattering the same updates arranged as an
  [E, 1] column into an [n, 1] column of buckets, read the same [E, 1] array of scatter indices. Update e of the vector
  and update (e, 0) of the column land on bucket i, respectively (i, 0), under the same condition: the signed scatter
  index at (e, 0) equals i (on the column's unit axis the start and the window coordinate are both 0). Re-indexing the
  sum of landed updates through the bijection e ↦ (e, 0) gives equal accumulated values.
-/
import Idealize.ShloMosaic.PureOps.Ideal
import Idealize.ShloMosaic.PureOps.Dims
import Idealize.ShloMosaic.Lib.ValueIdx
import Mathlib.Algebra.BigOperators.Fin
import Mathlib.Tactic

open scoped BigOperators
open Idealize.ShloMosaic

namespace Cert.DegreeColumn

/-- The vector of n = 100000 buckets. -/
abbrev Sn  : Shape := ⟨1, ![100000]⟩
/-- The column of n = 100000 buckets: one trailing unit axis. -/
abbrev Sn1 : Shape := ⟨2, ![100000, 1]⟩
/-- The vector of E = 1600000 updates. -/
abbrev Se  : Shape := ⟨1, ![1600000]⟩
/-- The column of E = 1600000 updates (and of the scatter indices): one trailing unit axis. -/
abbrev Se1 : Shape := ⟨2, ![1600000, 1]⟩

/-- An update index j lands on the operand index i exactly when, on every operand axis, the window's start plus
    the window coordinate is i's coordinate (in range because i's coordinate is). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      subst hi
      have := h a
      simp only
      omega
    · intro hi
      funext a
      apply Fin.ext
      have := hi a
      simp only
      omega
  · rename_i h
    constructor
    · intro hi; cases hi
    · intro hi
      exact absurd (fun a => by have := hi a; have := (i a).isLt; omega) h

/-- The index (e, 0) of the column of updates over the index e of the vector. -/
def col (e : Se.Idx) : Se1.Idx := ValueIdx.ix2 (e 0 : Fin 1600000) (0 : Fin 1)

/-- The bucket vector keeps no axis once axis 0 is inserted. -/
theorem kept_Sn : Sn.kept [(0 : Fin 1)] = [] := by decide
/-- The update column's scatter axis is axis 0 once axis 1 is a window axis. -/
theorem kept_Se1 : Se1.kept [(1 : Fin 2)] = [0] := by decide

/-- Every entry of a one-element list is that element. -/
theorem getElem_of_eq_singleton {α : Type} (l : List α) (x : α) (hl : l = [x]) (k : Nat) (h : k < l.length) :
    l[k]'h = x := by
  subst hl; simp

/-- On the index vector's axis the scatter-indices index of an update carries the component number. -/
theorem siIdx_val_of_eq {s si u : Shape} (d : ScatterDims s si u) (j : u.Idx)
    (c : Fin d.scatterDimsToOperandDims.length) (b : Fin si.rank) (hb : b.val = d.indexVectorDim) :
    (d.siIdx j c b).val = c.val := by
  unfold ScatterDims.siIdx; rw [dif_pos hb]

/-- Off the index vector's axis the scatter-indices index of an update carries the update's coordinate on the
    scatter axis in that position. -/
theorem siIdx_val_of_ne {s si u : Shape} (d : ScatterDims s si u) (j : u.Idx)
    (c : Fin d.scatterDimsToOperandDims.length) (b : Fin si.rank) (hb : b.val ≠ d.indexVectorDim) :
    ∃ h, (d.siIdx j c b).val = (j (d.uScatter[d.siKept.idxOf b]'h)).val := by
  unfold ScatterDims.siIdx; rw [dif_neg hb]
  exact ⟨_, rfl⟩

section D1
variable (wf : ScatterDims.WF Sn Se1 Se [] [0] [0] 1)

/-- Vector scatter: no window axis, so the window coordinate is 0. -/
theorem d1_window (j : Se.Idx) (a : Fin 1) :
    (⟨[], [0], [0], 1, wf⟩ : ScatterDims Sn Se1 Se).window j a = 0 := by
  unfold ScatterDims.window
  split
  · rename_i ha
    have h2 : a ∈ Sn.kept [(0 : Fin 1)] := ha
    rw [kept_Sn] at h2
    exact absurd h2 (by simp)
  · rfl

/-- Vector scatter: update e reads its start index at (e, 0). -/
theorem d1_siIdx (j : Se.Idx) (c : Fin 1) :
    (⟨[], [0], [0], 1, wf⟩ : ScatterDims Sn Se1 Se).siIdx j c = col j := by
  funext b
  apply Fin.ext
  match b with
  | ⟨0, _⟩ =>
    obtain ⟨h, e⟩ := siIdx_val_of_ne (⟨[], [0], [0], 1, wf⟩ : ScatterDims Sn Se1 Se) j c ⟨0, by decide⟩ Nat.zero_ne_one
    rw [e]
    exact congrArg (fun a => (j a).val) (Subsingleton.elim _ _)
  | ⟨1, _⟩ =>
    rw [siIdx_val_of_eq _ _ _ _ rfl]
    have := c.isLt
    show c.val = 0
    omega

/-- Vector scatter: the window of update e starts at the signed value of the scatter index at (e, 0). -/
theorem d1_start (j : Se.Idx) (idx : IVec Se1 32) (a : Fin 1) :
    (⟨[], [0], [0], 1, wf⟩ : ScatterDims Sn Se1 Se).start j idx a = (idx (col j)).toInt := by
  unfold ScatterDims.start
  split
  · rw [d1_siIdx]
  · rename_i ha
    exact absurd (show a ∈ [(0 : Fin 1)] by simp [Subsingleton.elim a 0]) ha

end D1

section D2
variable (wf : ScatterDims.WF Sn1 Se1 Se1 [1] [0] [0] 1)

/-- Column scatter: the only window axis is the unit axis, so the window coordinate is 0 on both operand axes. -/
theorem d2_window (j : Se1.Idx) (a : Fin 2) :
    (⟨[1], [0], [0], 1, wf⟩ : ScatterDims Sn1 Se1 Se1).window j a = 0 := by
  unfold ScatterDims.window
  split
  · have key : ∀ x : Fin 2, x = 1 → (j x).val = 0 := by
      intro x hx
      subst hx
      have h : (j 1).val < 1 := (j 1).isLt
      omega
    exact key _ (getElem_of_eq_singleton _ _ rfl _ _)
  · rfl

/-- Column scatter: update (e, 0) reads its start index at (e, 0). -/
theorem d2_siIdx (j : Se1.Idx) (c : Fin 1) :
    (⟨[1], [0], [0], 1, wf⟩ : ScatterDims Sn1 Se1 Se1).siIdx j c = j := by
  funext b
  apply Fin.ext
  match b with
  | ⟨0, _⟩ =>
    obtain ⟨h, e⟩ := siIdx_val_of_ne (⟨[1], [0], [0], 1, wf⟩ : ScatterDims Sn1 Se1 Se1) j c ⟨0, by decide⟩
      Nat.zero_ne_one
    rw [e]
    exact congrArg (fun a => (j a).val) (getElem_of_eq_singleton _ 0 kept_Se1 _ _)
  | ⟨1, _⟩ =>
    rw [siIdx_val_of_eq _ _ _ _ rfl]
    have h1 : c.val < 1 := c.isLt
    have h2 : (j ⟨1, by decide⟩).val < 1 := (j _).isLt
    show c.val = (j ⟨1, _⟩).val
    omega

/-- Column scatter, bucket axis: the window of update j starts at the signed value of the scatter index at j. -/
theorem d2_start_zero (j : Se1.Idx) (idx : IVec Se1 32) :
    (⟨[1], [0], [0], 1, wf⟩ : ScatterDims Sn1 Se1 Se1).start j idx 0 = (idx j).toInt := by
  unfold ScatterDims.start
  split
  · rw [d2_siIdx]
  · rename_i ha
    exact absurd (show (0 : Fin 2) ∈ [(0 : Fin 2)] by simp) ha

/-- Column scatter, unit axis: the scatter indices do not address it, the window starts at 0. -/
theorem d2_start_one (j : Se1.Idx) (idx : IVec Se1 32) :
    (⟨[1], [0], [0], 1, wf⟩ : ScatterDims Sn1 Se1 Se1).start j idx 1 = 0 := by
  unfold ScatterDims.start
  split
  · rename_i ha
    exact absurd (show (1 : Fin 2) ∈ [(0 : Fin 2)] from ha) (by decide)
  · rfl

end D2

/-- The vector's indices and the column's indices correspond through e ↦ (e, 0): the unit axis has one coordinate. -/
def colEquiv : Se.Idx ≃ Se1.Idx where
  toFun := col
  invFun f := ValueIdx.ix1 (f 0 : Fin 1600000)
  left_inv e := (ValueIdx.eq_ix1 e).symm
  right_inv f := by
    funext b
    match b with
    | ⟨0, _⟩ => rfl
    | ⟨1, _⟩ =>
      apply Fin.ext
      have h : (f ⟨1, by decide⟩).val < 1 := (f _).isLt
      show 0 = (f ⟨1, _⟩).val
      omega

/-- Update e of the vector scatter lands on bucket i exactly when update (e, 0) of the column scatter lands on
    bucket (i, 0): both say that the signed scatter index at (e, 0) is i. -/
theorem landing_iff (wf1 : ScatterDims.WF Sn Se1 Se [] [0] [0] 1) (wf2 : ScatterDims.WF Sn1 Se1 Se1 [1] [0] [0] 1)
    (idx : IVec Se1 32) (e : Se.Idx) (i : Fin 100000) :
    (⟨[], [0], [0], 1, wf1⟩ : ScatterDims Sn Se1 Se).resultIdx? e idx = some (ValueIdx.ix1 i) ↔
      (⟨[1], [0], [0], 1, wf2⟩ : ScatterDims Sn1 Se1 Se1).resultIdx? (col e) idx
        = some (ValueIdx.ix2 i (0 : Fin 1)) := by
  rw [resultIdx?_eq_some_iff, resultIdx?_eq_some_iff, Fin.forall_fin_one, Fin.forall_fin_two]
  rw [d1_start, d1_window, d2_start_zero, d2_window, d2_start_one, d2_window]
  constructor
  · intro h
    exact ⟨h, rfl⟩
  · exact fun h => h.1

/-- Scattering a vector of E updates into n buckets and scattering the column of the same E updates into the column
    of the same n buckets, both at the same scatter indices, accumulate the same value in bucket i and in bucket
    (i, 0): the updates correspond through e ↦ (e, 0) and land on corresponding buckets. -/
theorem scatterAdd_column
    (d1 : ScatterDims Sn Se1 Se) (d2 : ScatterDims Sn1 Se1 Se1)
    (h1u : d1.updateWindowDims = []) (h1i : d1.insertedWindowDims = [0])
    (h1s : d1.scatterDimsToOperandDims = [0]) (h1v : d1.indexVectorDim = 1)
    (h2u : d2.updateWindowDims = [1]) (h2i : d2.insertedWindowDims = [0])
    (h2s : d2.scatterDimsToOperandDims = [0]) (h2v : d2.indexVectorDim = 1)
    (idx : IVec Se1 32) (x1 : Sn.Idx → EReal) (x2 : Sn1.Idx → EReal) (u1 : Se.Idx → EReal) (u2 : Se1.Idx → EReal)
    (hx : ∀ i : Fin 100000, x2 (ValueIdx.ix2 i (0 : Fin 1)) = x1 (ValueIdx.ix1 i))
    (hu : ∀ e : Fin 1600000, u2 (ValueIdx.ix2 e (0 : Fin 1)) = u1 (ValueIdx.ix1 e))
    (i : Fin 100000) :
    Ideal.hostScatterAdd d1 x1 idx u1 (ValueIdx.ix1 i)
      = Ideal.hostScatterAdd d2 x2 idx u2 (ValueIdx.ix2 i (0 : Fin 1)) := by
  obtain ⟨uw1, iw1, sd1, iv1, wf1⟩ := d1
  obtain ⟨uw2, iw2, sd2, iv2, wf2⟩ := d2
  simp only at h1u h1i h1s h1v h2u h2i h2s h2v
  subst h1u h1i h1s h1v h2u h2i h2s h2v
  unfold Ideal.hostScatterAdd
  rw [hx i]
  refine congrArg (fun t => x1 (ValueIdx.ix1 i) + t) (Finset.sum_equiv colEquiv ?_ ?_)
  · intro e
    simp only [Finset.mem_filter, Finset.mem_univ, true_and]
    exact landing_iff wf1 wf2 idx e i
  · intro e _
    rw [ValueIdx.eq_ix1 e]
    exact (hu (e 0)).symm

/-- The same with zero operands and every update the constant c: counting, with weight c, the scatter indices equal
    to i gives the same total in bucket i of the vector and in bucket (i, 0) of the column. -/
theorem scatterAdd_column_const
    (d1 : ScatterDims Sn Se1 Se) (d2 : ScatterDims Sn1 Se1 Se1)
    (h1u : d1.updateWindowDims = []) (h1i : d1.insertedWindowDims = [0])
    (h1s : d1.scatterDimsToOperandDims = [0]) (h1v : d1.indexVectorDim = 1)
    (h2u : d2.updateWindowDims = [1]) (h2i : d2.insertedWindowDims = [0])
    (h2s : d2.scatterDimsToOperandDims = [0]) (h2v : d2.indexVectorDim = 1)
    (idx : IVec Se1 32) (c : EReal) (i : Fin 100000) :
    Ideal.hostScatterAdd d1 (fun _ => 0) idx (fun _ => c) (ValueIdx.ix1 i)
      = Ideal.hostScatterAdd d2 (fun _ => 0) idx (fun _ => c) (ValueIdx.ix2 i (0 : Fin 1)) :=
  scatterAdd_column d1 d2 h1u h1i h1s h1v h2u h2i h2s h2v idx _ _ _ _ (fun _ => rfl) (fun _ => rfl) i

end Cert.DegreeColumn
-- ==== Proof.LibEdgePad.lean ====
/-
  Scatters and gathers along an edge list padded with idle edges (program-independent; imports only the library
  and the landing criterion of an accumulating scatter).

  An edge list of E edges is padded to E' ≥ E edges. Edge e < E keeps its scatter index and its update; every padded
  edge carries the update 0. An accumulating scatter sums, into each bucket, the updates whose signed scatter index
  is that bucket, so the padded edges add 0 wherever they land and the padded scatter equals the unpadded one: the
  landed updates of the short list correspond one to one, through e ↦ e, to the landed updates of the long list that
  can be nonzero. This is stated for a vector of updates into a vector of n buckets and for F-lane rows of updates into
  n rows of buckets (update (e, f) lands on bucket (i, f) when edge e's index is i).

  A gather of single entries (or of whole F-lane rows) through an [E, 1] column of start indices reads entry e at the
  start index of edge e, taken as a signed integer and clamped into [0, n − 1].
-/
import Idealize.ShloMosaic.PureOps.Ideal
import Idealize.ShloMosaic.PureOps.Dims
import Idealize.ShloMosaic.PureOps.ShapeOps
import Idealize.ShloMosaic.Lib.ValueIdx
import Mathlib.Algebra.BigOperators.Fin
import Mathlib.Tactic
import proofs.«168910_j58506044506599_1_alg».proof.Proof.LibDegreeColumn

open scoped BigOperators
open Idealize.ShloMosaic Idealize.ShloMosaic.ValueIdx

namespace Cert.EdgePad

open Cert.DegreeColumn (resultIdx?_eq_some_iff siIdx_val_of_eq siIdx_val_of_ne getElem_of_eq_singleton)

/-- A vector of n entries. -/
abbrev Vec1 (n : Nat) : Shape := ⟨1, ![n]⟩
/-- A column of E entries: one trailing unit axis. -/
abbrev Col (E : Nat) : Shape := ⟨2, ![E, 1]⟩
/-- n rows of F lanes. -/
abbrev Rows (n F : Nat) : Shape := ⟨2, ![n, F]⟩

theorem kept_vec0 (n : Nat) : (Vec1 n).kept [(0 : Fin 1)] = [] := rfl
theorem kept_rows0 (n F : Nat) : (Rows n F).kept [(0 : Fin 2)] = [1] := rfl
theorem kept_rows1 (n F : Nat) : (Rows n F).kept [(1 : Fin 2)] = [0] := rfl

/-! ## The vector scatter: E updates into n buckets -/

section VecScatter
variable {n E : Nat} (wf : ScatterDims.WF (Vec1 n) (Col E) (Vec1 E) [] [0] [0] 1)

/-- No window axis: the window coordinate is 0. -/
theorem vec_window (j : (Vec1 E).Idx) (a : Fin 1) :
    (⟨[], [0], [0], 1, wf⟩ : ScatterDims (Vec1 n) (Col E) (Vec1 E)).window j a = 0 := by
  unfold ScatterDims.window
  split
  · rename_i ha
    have h2 : a ∈ (Vec1 n).kept [(0 : Fin 1)] := ha
    rw [kept_vec0] at h2
    exact absurd h2 (by simp)
  · rfl

/-- Update e reads its start index at (e, 0). -/
theorem vec_siIdx (j : (Vec1 E).Idx) (c : Fin 1) :
    (⟨[], [0], [0], 1, wf⟩ : ScatterDims (Vec1 n) (Col E) (Vec1 E)).siIdx j c = ix2 (j 0 : Fin E) (0 : Fin 1) := by
  funext b
  apply Fin.ext
  match b with
  | ⟨0, _⟩ =>
    obtain ⟨h, e⟩ := siIdx_val_of_ne (⟨[], [0], [0], 1, wf⟩ : ScatterDims (Vec1 n) (Col E) (Vec1 E)) j c ⟨0, Nat.zero_lt_two⟩ Nat.zero_ne_one
    rw [e]
    exact congrArg (fun a => (j a).val) (Subsingleton.elim _ _)
  | ⟨1, _⟩ =>
    rw [siIdx_val_of_eq _ _ _ _ rfl]
    have := c.isLt
    show c.val = 0
    omega

/-- The window of update e starts at the signed scatter index at (e, 0). -/
theorem vec_start (j : (Vec1 E).Idx) (idx : IVec (Col E) 32) (a : Fin 1) :
    (⟨[], [0], [0], 1, wf⟩ : ScatterDims (Vec1 n) (Col E) (Vec1 E)).start j idx a
      = (idx (ix2 (j 0 : Fin E) (0 : Fin 1))).toInt := by
  unfold ScatterDims.start
  split
  · rw [vec_siIdx]
    rfl
  · rename_i ha
    exact absurd (show a ∈ [(0 : Fin 1)] by simp [Subsingleton.elim a 0]) ha

/-- Update e lands on bucket i exactly when its signed scatter index is i. -/
theorem vec_landing (idx : IVec (Col E) 32) (j : (Vec1 E).Idx) (i : (Vec1 n).Idx) :
    (⟨[], [0], [0], 1, wf⟩ : ScatterDims (Vec1 n) (Col E) (Vec1 E)).resultIdx? j idx = some i
      ↔ (idx (ix2 (j 0 : Fin E) (0 : Fin 1))).toInt = ((i 0).val : Int) := by
  rw [resultIdx?_eq_some_iff, Fin.forall_fin_one, vec_start, vec_window]
  rw [Nat.cast_zero, add_zero]

end VecScatter

/-- The padded vector scatter: padded edges carry the update 0, so the accumulated buckets are those of the
    unpadded list. -/
theorem scatterAdd_pad_vec {n E E' : Nat} (hE : E ≤ E')
    (dR : ScatterDims (Vec1 n) (Col E) (Vec1 E)) (dK : ScatterDims (Vec1 n) (Col E') (Vec1 E'))
    (hRu : dR.updateWindowDims = []) (hRi : dR.insertedWindowDims = [0])
    (hRs : dR.scatterDimsToOperandDims = [0]) (hRv : dR.indexVectorDim = 1)
    (hKu : dK.updateWindowDims = []) (hKi : dK.insertedWindowDims = [0])
    (hKs : dK.scatterDimsToOperandDims = [0]) (hKv : dK.indexVectorDim = 1)
    (idxR : IVec (Col E) 32) (idxK : IVec (Col E') 32) (x : (Vec1 n).Idx → EReal)
    (uR : (Vec1 E).Idx → EReal) (uK : (Vec1 E').Idx → EReal)
    (hidx : ∀ e : Fin E, idxK (ix2 (Fin.castLE hE e) (0 : Fin 1)) = idxR (ix2 e (0 : Fin 1)))
    (hu : ∀ e : Fin E, uK (ix1 (Fin.castLE hE e)) = uR (ix1 e))
    (hz : ∀ e : Fin E', E ≤ e.val → uK (ix1 e) = 0) :
    Ideal.hostScatterAdd dK x idxK uK = Ideal.hostScatterAdd dR x idxR uR := by
  obtain ⟨uwR, iwR, sdR, ivR, wfR⟩ := dR
  obtain ⟨uwK, iwK, sdK, ivK, wfK⟩ := dK
  simp only at hRu hRi hRs hRv hKu hKi hKs hKv
  subst hRu hRi hRs hRv hKu hKi hKs hKv
  funext i
  unfold Ideal.hostScatterAdd
  refine congrArg (fun t => x i + t) ?_
  let φ : (Vec1 E).Idx → (Vec1 E').Idx := fun j => ix1 (Fin.castLE hE (j 0))
  have hφ : Function.Injective φ := by
    intro a b hab
    have h0 : ((φ a) 0).val = ((φ b) 0).val := by rw [hab]
    funext d
    match d with
    | ⟨0, _⟩ => exact Fin.ext h0
  have hland : ∀ j : (Vec1 E).Idx,
      (⟨[], [0], [0], 1, wfK⟩ : ScatterDims (Vec1 n) (Col E') (Vec1 E')).resultIdx? (φ j) idxK = some i
        ↔ (⟨[], [0], [0], 1, wfR⟩ : ScatterDims (Vec1 n) (Col E) (Vec1 E)).resultIdx? j idxR = some i := by
    intro j
    rw [vec_landing, vec_landing]
    exact ⟨fun hh => (congrArg BitVec.toInt (hidx (j 0))).symm.trans hh,
      fun hh => (congrArg BitVec.toInt (hidx (j 0))).trans hh⟩
  have hback : ∀ (k : (Vec1 E').Idx) (hlt : (k 0).val < E), φ (ix1 ⟨(k 0).val, hlt⟩) = k := by
    intro k hlt
    funext d
    match d with
    | ⟨0, _⟩ => exact Fin.ext rfl
  symm
  calc ∑ j ∈ Finset.univ.filter (fun j => (⟨[], [0], [0], 1, wfR⟩ : ScatterDims (Vec1 n) (Col E) (Vec1 E)).resultIdx? j idxR = some i), uR j
      = ∑ j ∈ Finset.univ.filter (fun j => (⟨[], [0], [0], 1, wfR⟩ : ScatterDims (Vec1 n) (Col E) (Vec1 E)).resultIdx? j idxR = some i), uK (φ j) :=
        Finset.sum_congr rfl (fun j _ => (congrArg uR (eq_ix1 j)).trans (hu (j 0)).symm)
    _ = ∑ k ∈ (Finset.univ.filter (fun j => (⟨[], [0], [0], 1, wfR⟩ : ScatterDims (Vec1 n) (Col E) (Vec1 E)).resultIdx? j idxR = some i)).image φ, uK k :=
        (Finset.sum_image (fun a _ b _ h => hφ h)).symm
    _ = ∑ k ∈ Finset.univ.filter (fun k => (⟨[], [0], [0], 1, wfK⟩ : ScatterDims (Vec1 n) (Col E') (Vec1 E')).resultIdx? k idxK = some i), uK k := by
        refine Finset.sum_subset ?_ ?_
        · intro k hk
          obtain ⟨j, hj, rfl⟩ := Finset.mem_image.1 hk
          simp only [Finset.mem_filter, Finset.mem_univ, true_and] at hj ⊢
          exact (hland j).2 hj
        · intro k hk hnot
          simp only [Finset.mem_filter, Finset.mem_univ, true_and] at hk
          by_cases hlt : (k 0).val < E
          · exfalso
            apply hnot
            refine Finset.mem_image.2 ⟨ix1 ⟨(k 0).val, hlt⟩, ?_, hback k hlt⟩
            simp only [Finset.mem_filter, Finset.mem_univ, true_and]
            refine (hland _).1 ?_
            rw [hback k hlt]
            exact hk
          · rw [eq_ix1 k]
            exact hz (k 0) (by omega)

/-! ## The row scatter: E rows of F lanes into n rows of buckets -/

section RowScatter
variable {n E F : Nat} (wf : ScatterDims.WF (Rows n F) (Col E) (Rows E F) [1] [0] [0] 1)

/-- The bucket axis is inserted: its window coordinate is 0. -/
theorem rows_window_zero (j : (Rows E F).Idx) :
    (⟨[1], [0], [0], 1, wf⟩ : ScatterDims (Rows n F) (Col E) (Rows E F)).window j 0 = 0 := by
  unfold ScatterDims.window
  split
  · rename_i ha
    have h2 : (0 : Fin 2) ∈ (Rows n F).kept [(0 : Fin 2)] := ha
    rw [kept_rows0] at h2
    exact absurd h2 (by decide : (0 : Fin 2) ∉ [(1 : Fin 2)])
  · rfl

/-- The lane axis is the window axis: its window coordinate is the update's lane. -/
theorem rows_window_one (j : (Rows E F).Idx) :
    (⟨[1], [0], [0], 1, wf⟩ : ScatterDims (Rows n F) (Col E) (Rows E F)).window j 1 = (j 1).val := by
  unfold ScatterDims.window
  split
  · exact congrArg (fun a => (j a).val) (getElem_of_eq_singleton _ (1 : Fin 2) rfl _ _)
  · rename_i ha
    exact absurd (show (1 : Fin 2) ∈ (Rows n F).kept [(0 : Fin 2)] by rw [kept_rows0]; exact (by decide : (1 : Fin 2) ∈ [(1 : Fin 2)])) ha

/-- Update (e, f) reads its start index at (e, 0). -/
theorem rows_siIdx (j : (Rows E F).Idx) (c : Fin 1) :
    (⟨[1], [0], [0], 1, wf⟩ : ScatterDims (Rows n F) (Col E) (Rows E F)).siIdx j c = ix2 (j 0 : Fin E) (0 : Fin 1) := by
  funext b
  apply Fin.ext
  match b with
  | ⟨0, _⟩ =>
    obtain ⟨h, e⟩ := siIdx_val_of_ne (⟨[1], [0], [0], 1, wf⟩ : ScatterDims (Rows n F) (Col E) (Rows E F)) j c ⟨0, Nat.zero_lt_two⟩
      Nat.zero_ne_one
    rw [e]
    exact congrArg (fun a => (j a).val) (getElem_of_eq_singleton _ (0 : Fin 2) (kept_rows1 E F) _ _)
  | ⟨1, _⟩ =>
    rw [siIdx_val_of_eq _ _ _ _ rfl]
    have h1 : c.val < 1 := c.isLt
    show c.val = 0
    omega

/-- Bucket axis: the window of update (e, f) starts at the signed scatter index at (e, 0). -/
theorem rows_start_zero (j : (Rows E F).Idx) (idx : IVec (Col E) 32) :
    (⟨[1], [0], [0], 1, wf⟩ : ScatterDims (Rows n F) (Col E) (Rows E F)).start j idx 0
      = (idx (ix2 (j 0 : Fin E) (0 : Fin 1))).toInt := by
  unfold ScatterDims.start
  split
  · rw [rows_siIdx]
    rfl
  · rename_i ha
    exact absurd (show (0 : Fin 2) ∈ [(0 : Fin 2)] by simp) ha

/-- Lane axis: the scatter indices do not address it, the window starts at 0. -/
theorem rows_start_one (j : (Rows E F).Idx) (idx : IVec (Col E) 32) :
    (⟨[1], [0], [0], 1, wf⟩ : ScatterDims (Rows n F) (Col E) (Rows E F)).start j idx 1 = 0 := by
  unfold ScatterDims.start
  split
  · rename_i ha
    exact absurd (show (1 : Fin 2) ∈ [(0 : Fin 2)] from ha) (by decide : (1 : Fin 2) ∉ [(0 : Fin 2)])
  · rfl

/-- Update (e, f) lands on bucket (i, f') exactly when edge e's signed scatter index is i and f = f'. -/
theorem rows_landing (idx : IVec (Col E) 32) (j : (Rows E F).Idx) (i : (Rows n F).Idx) :
    (⟨[1], [0], [0], 1, wf⟩ : ScatterDims (Rows n F) (Col E) (Rows E F)).resultIdx? j idx = some i
      ↔ (idx (ix2 (j 0 : Fin E) (0 : Fin 1))).toInt = ((i 0).val : Int) ∧ ((j 1).val : Int) = ((i 1).val : Int) := by
  rw [resultIdx?_eq_some_iff, Fin.forall_fin_two, rows_start_zero, rows_window_zero, rows_start_one, rows_window_one]
  rw [Nat.cast_zero, add_zero, zero_add]

end RowScatter

/-- The padded row scatter: padded edges carry zero rows, so the accumulated buckets are those of the unpadded
    list. -/
theorem scatterAdd_pad_rows {n E E' F : Nat} (hE : E ≤ E')
    (dR : ScatterDims (Rows n F) (Col E) (Rows E F)) (dK : ScatterDims (Rows n F) (Col E') (Rows E' F))
    (hRu : dR.updateWindowDims = [1]) (hRi : dR.insertedWindowDims = [0])
    (hRs : dR.scatterDimsToOperandDims = [0]) (hRv : dR.indexVectorDim = 1)
    (hKu : dK.updateWindowDims = [1]) (hKi : dK.insertedWindowDims = [0])
    (hKs : dK.scatterDimsToOperandDims = [0]) (hKv : dK.indexVectorDim = 1)
    (idxR : IVec (Col E) 32) (idxK : IVec (Col E') 32) (x : (Rows n F).Idx → EReal)
    (uR : (Rows E F).Idx → EReal) (uK : (Rows E' F).Idx → EReal)
    (hidx : ∀ e : Fin E, idxK (ix2 (Fin.castLE hE e) (0 : Fin 1)) = idxR (ix2 e (0 : Fin 1)))
    (hu : ∀ (e : Fin E) (f : Fin F), uK (ix2 (Fin.castLE hE e) f) = uR (ix2 e f))
    (hz : ∀ (e : Fin E') (f : Fin F), E ≤ e.val → uK (ix2 e f) = 0) :
    Ideal.hostScatterAdd dK x idxK uK = Ideal.hostScatterAdd dR x idxR uR := by
  obtain ⟨uwR, iwR, sdR, ivR, wfR⟩ := dR
  obtain ⟨uwK, iwK, sdK, ivK, wfK⟩ := dK
  simp only at hRu hRi hRs hRv hKu hKi hKs hKv
  subst hRu hRi hRs hRv hKu hKi hKs hKv
  funext i
  unfold Ideal.hostScatterAdd
  refine congrArg (fun t => x i + t) ?_
  let φ : (Rows E F).Idx → (Rows E' F).Idx := fun j => ix2 (Fin.castLE hE (j 0)) (j 1 : Fin F)
  have hφ : Function.Injective φ := by
    intro a b hab
    have h0 : ((φ a) 0).val = ((φ b) 0).val := by rw [hab]
    have h1 : ((φ a) 1).val = ((φ b) 1).val := by rw [hab]
    funext d
    match d with
    | ⟨0, _⟩ => exact Fin.ext h0
    | ⟨1, _⟩ => exact Fin.ext h1
  have hland : ∀ j : (Rows E F).Idx,
      (⟨[1], [0], [0], 1, wfK⟩ : ScatterDims (Rows n F) (Col E') (Rows E' F)).resultIdx? (φ j) idxK = some i
        ↔ (⟨[1], [0], [0], 1, wfR⟩ : ScatterDims (Rows n F) (Col E) (Rows E F)).resultIdx? j idxR = some i := by
    intro j
    rw [rows_landing, rows_landing]
    exact ⟨fun hh => ⟨(congrArg BitVec.toInt (hidx (j 0))).symm.trans hh.1, hh.2⟩,
      fun hh => ⟨(congrArg BitVec.toInt (hidx (j 0))).trans hh.1, hh.2⟩⟩
  have hback : ∀ (k : (Rows E' F).Idx) (hlt : (k 0).val < E), φ (ix2 ⟨(k 0).val, hlt⟩ (k 1 : Fin F)) = k := by
    intro k hlt
    funext d
    match d with
    | ⟨0, _⟩ => exact Fin.ext rfl
    | ⟨1, _⟩ => exact Fin.ext rfl
  symm
  calc ∑ j ∈ Finset.univ.filter (fun j => (⟨[1], [0], [0], 1, wfR⟩ : ScatterDims (Rows n F) (Col E) (Rows E F)).resultIdx? j idxR = some i), uR j
      = ∑ j ∈ Finset.univ.filter (fun j => (⟨[1], [0], [0], 1, wfR⟩ : ScatterDims (Rows n F) (Col E) (Rows E F)).resultIdx? j idxR = some i), uK (φ j) :=
        Finset.sum_congr rfl (fun j _ => (congrArg uR (eq_ix2 j)).trans (hu (j 0) (j 1)).symm)
    _ = ∑ k ∈ (Finset.univ.filter (fun j => (⟨[1], [0], [0], 1, wfR⟩ : ScatterDims (Rows n F) (Col E) (Rows E F)).resultIdx? j idxR = some i)).image φ, uK k :=
        (Finset.sum_image (fun a _ b _ h => hφ h)).symm
    _ = ∑ k ∈ Finset.univ.filter (fun k => (⟨[1], [0], [0], 1, wfK⟩ : ScatterDims (Rows n F) (Col E') (Rows E' F)).resultIdx? k idxK = some i), uK k := by
        refine Finset.sum_subset ?_ ?_
        · intro k hk
          obtain ⟨j, hj, rfl⟩ := Finset.mem_image.1 hk
          simp only [Finset.mem_filter, Finset.mem_univ, true_and] at hj ⊢
          exact (hland j).2 hj
        · intro k hk hnot
          simp only [Finset.mem_filter, Finset.mem_univ, true_and] at hk
          by_cases hlt : (k 0).val < E
          · exfalso
            apply hnot
            refine Finset.mem_image.2 ⟨ix2 ⟨(k 0).val, hlt⟩ (k 1 : Fin F), ?_, hback k hlt⟩
            simp only [Finset.mem_filter, Finset.mem_univ, true_and]
            refine (hland _).1 ?_
            rw [hback k hlt]
            exact hk
          · rw [eq_ix2 k]
            exact hz (k 0) (k 1) (by omega)

end Cert.EdgePad
-- ==== Proof.LibEdgeGather.lean ====
/-
  A gather through a column of start indices, read at an index (program-independent; imports only the library and the
  shape names of the padded-edge scatters).

  Entry e of a gather of single entries of an n-vector through an [E, 1] column of start indices is the vector's
  entry at the start index of edge e, read as a signed integer and clamped into [0, n − 1]; row e of a gather of whole
  F-lane rows of an [n, F] matrix is the matrix's row at that clamped index, lane by lane. Neither depends on how many
  edges follow edge e.
-/
import Idealize.ShloMosaic.PureOps.Dims
import Idealize.ShloMosaic.PureOps.ShapeOps
import Idealize.ShloMosaic.Lib.ValueIdx
import Mathlib.Tactic
import proofs.«168910_j58506044506599_1_alg».proof.Proof.LibEdgePad

open Idealize.ShloMosaic Idealize.ShloMosaic.ValueIdx

namespace Cert.EdgeGather

open Cert.EdgePad (Vec1 Col Rows kept_rows0 kept_rows1)
open Cert.DegreeColumn (getElem_of_eq_singleton)

/-- A start index read signed and clamped into [0, n − 1]. -/
def clampIdx (n : Nat) (hn : 0 < n) (v : BitVec 32) : Fin n := ⟨min v.toInt.toNat (n - 1), by omega⟩

/-- On the index vector's axis the start-indices index of a result entry carries the component number. -/
theorem siIdx_val_of_eq {s si t : Shape} (d : GatherDims s si t) (j : t.Idx)
    (c : Fin d.startIndexMap.length) (b : Fin si.rank) (hb : b.val = d.indexVectorDim) :
    (d.siIdx j c b).val = c.val := by
  unfold GatherDims.siIdx; rw [dif_pos hb]

/-- Off the index vector's axis the start-indices index of a result entry carries the entry's coordinate on the batch
    axis in that position. -/
theorem siIdx_val_of_ne {s si t : Shape} (d : GatherDims s si t) (j : t.Idx)
    (c : Fin d.startIndexMap.length) (b : Fin si.rank) (hb : b.val ≠ d.indexVectorDim) :
    ∃ h, (d.siIdx j c b).val = (j (d.batchDims[d.siKept.idxOf b]'h)).val := by
  unfold GatherDims.siIdx; rw [dif_neg hb]
  exact ⟨_, rfl⟩

theorem kept_vecE (E : Nat) : (Vec1 E).kept ([] : List (Fin 1)) = [0] := rfl
theorem kept_vec_coll (n : Nat) : (Vec1 n).kept ([(0 : Fin 1)] ++ []) = [] := rfl
theorem kept_rows_coll (n F : Nat) : (Rows n F).kept ([(0 : Fin 2)] ++ []) = [1] := rfl

/-! ## Single entries of a vector -/

section VecGather
variable {n E : Nat} (wf : GatherDims.WF (Vec1 n) (Col E) (Vec1 E) [] [0] [] [0] [] 1 ![1])

/-- Result entry e reads its start index at (e, 0). -/
theorem vec_siIdx (j : (Vec1 E).Idx) (c : Fin 1) :
    (⟨[], [0], [], [], [0], 1, ![1], wf⟩ : GatherDims (Vec1 n) (Col E) (Vec1 E)).siIdx j c = ix2 (j 0 : Fin E) (0 : Fin 1) := by
  funext b
  apply Fin.ext
  match b with
  | ⟨0, _⟩ =>
    obtain ⟨h, e⟩ := siIdx_val_of_ne (⟨[], [0], [], [], [0], 1, ![1], wf⟩ : GatherDims (Vec1 n) (Col E) (Vec1 E)) j c ⟨0, Nat.zero_lt_two⟩ Nat.zero_ne_one
    rw [e]
    exact congrArg (fun a => (j a).val) (Subsingleton.elim _ _)
  | ⟨1, _⟩ =>
    rw [siIdx_val_of_eq _ _ _ _ rfl]
    have := c.isLt
    show c.val = 0
    omega

/-- The slice of result entry e starts at edge e's start index, signed and clamped. -/
theorem vec_start (j : (Vec1 E).Idx) (idx : IVec (Col E) 32) (a : Fin 1) :
    (⟨[], [0], [], [], [0], 1, ![1], wf⟩ : GatherDims (Vec1 n) (Col E) (Vec1 E)).start j idx a
      = min (idx (ix2 (j 0 : Fin E) (0 : Fin 1))).toInt.toNat (n - 1) := by
  unfold GatherDims.start
  split
  · rw [vec_siIdx]
    have ha : a = 0 := Subsingleton.elim _ _
    subst ha
    rfl
  · rename_i ha
    exact absurd (show a ∈ [(0 : Fin 1)] by simp [Subsingleton.elim a 0]) ha

/-- A gather of single entries, at entry e: the vector at edge e's clamped start index. -/
theorem gather_vec_apply {α : Type} (hn : 0 < n) (x : (Vec1 n).Idx → α) (idx : IVec (Col E) 32) (j : (Vec1 E).Idx) :
    Host.gather (⟨[], [0], [], [], [0], 1, ![1], wf⟩ : GatherDims (Vec1 n) (Col E) (Vec1 E)) x idx j
      = x (ix1 (clampIdx n hn (idx (ix2 (j 0 : Fin E) (0 : Fin 1))))) := by
  unfold Host.gather
  refine congrArg x (funext fun a => Fin.ext ?_)
  have ha : a = 0 := Subsingleton.elim _ _
  subst ha
  show (⟨[], [0], [], [], [0], 1, ![1], wf⟩ : GatherDims (Vec1 n) (Col E) (Vec1 E)).start j idx 0
      + (⟨[], [0], [], [], [0], 1, ![1], wf⟩ : GatherDims (Vec1 n) (Col E) (Vec1 E)).batchCoord j 0
      + (⟨[], [0], [], [], [0], 1, ![1], wf⟩ : GatherDims (Vec1 n) (Col E) (Vec1 E)).offCoord j 0
      = min (idx (ix2 (j 0 : Fin E) (0 : Fin 1))).toInt.toNat (n - 1)
  rw [vec_start, GatherDims.batchCoord_eq_zero _ _ _ (by simp),
    GatherDims.offCoord_eq_zero _ _ _ (by
      show (0 : Fin 1) ∉ (Vec1 n).kept ([(0 : Fin 1)] ++ [])
      rw [kept_vec_coll]; simp)]
  rfl

end VecGather

/-! ## Whole rows of a matrix -/

section RowGather
variable {n E F : Nat} (wf : GatherDims.WF (Rows n F) (Col E) (Rows E F) [1] [0] [] [0] [] 1 ![1, F])

/-- Result entry (e, f) reads its start index at (e, 0). -/
theorem rows_siIdx (j : (Rows E F).Idx) (c : Fin 1) :
    (⟨[1], [0], [], [], [0], 1, ![1, F], wf⟩ : GatherDims (Rows n F) (Col E) (Rows E F)).siIdx j c = ix2 (j 0 : Fin E) (0 : Fin 1) := by
  funext b
  apply Fin.ext
  match b with
  | ⟨0, _⟩ =>
    obtain ⟨h, e⟩ := siIdx_val_of_ne (⟨[1], [0], [], [], [0], 1, ![1, F], wf⟩ : GatherDims (Rows n F) (Col E) (Rows E F)) j c ⟨0, Nat.zero_lt_two⟩ Nat.zero_ne_one
    rw [e]
    exact congrArg (fun a => (j a).val) (getElem_of_eq_singleton _ (0 : Fin 2) (kept_rows1 E F) _ _)
  | ⟨1, _⟩ =>
    rw [siIdx_val_of_eq _ _ _ _ rfl]
    have := c.isLt
    show c.val = 0
    omega

/-- Row axis: the slice starts at edge e's start index, signed and clamped. -/
theorem rows_start_zero (j : (Rows E F).Idx) (idx : IVec (Col E) 32) :
    (⟨[1], [0], [], [], [0], 1, ![1, F], wf⟩ : GatherDims (Rows n F) (Col E) (Rows E F)).start j idx 0
      = min (idx (ix2 (j 0 : Fin E) (0 : Fin 1))).toInt.toNat (n - 1) := by
  unfold GatherDims.start
  split
  · rw [rows_siIdx]
    rfl
  · rename_i ha
    exact absurd (show (0 : Fin 2) ∈ [(0 : Fin 2)] by simp) ha

/-- Lane axis: the start indices do not address it, the slice starts at 0. -/
theorem rows_start_one (j : (Rows E F).Idx) (idx : IVec (Col E) 32) :
    (⟨[1], [0], [], [], [0], 1, ![1, F], wf⟩ : GatherDims (Rows n F) (Col E) (Rows E F)).start j idx 1 = 0 := by
  unfold GatherDims.start
  split
  · rename_i ha
    exact absurd (show (1 : Fin 2) ∈ [(0 : Fin 2)] from ha) (by decide)
  · rfl

/-- Lane axis: the offset coordinate is the result entry's lane. -/
theorem rows_off_one (j : (Rows E F).Idx) :
    (⟨[1], [0], [], [], [0], 1, ![1, F], wf⟩ : GatherDims (Rows n F) (Col E) (Rows E F)).offCoord j 1 = (j 1).val := by
  unfold GatherDims.offCoord
  split
  · exact congrArg (fun a => (j a).val) (getElem_of_eq_singleton _ (1 : Fin 2) rfl _ _)
  · rename_i ha
    exact absurd (show (1 : Fin 2) ∈ (Rows n F).kept ([(0 : Fin 2)] ++ []) by rw [kept_rows_coll]; exact (by decide : (1 : Fin 2) ∈ [(1 : Fin 2)])) ha

/-- A gather of whole rows, at entry (e, f): the matrix at edge e's clamped start index, lane f. -/
theorem gather_rows_apply {α : Type} (hn : 0 < n) (x : (Rows n F).Idx → α) (idx : IVec (Col E) 32) (j : (Rows E F).Idx) :
    Host.gather (⟨[1], [0], [], [], [0], 1, ![1, F], wf⟩ : GatherDims (Rows n F) (Col E) (Rows E F)) x idx j
      = x (ix2 (clampIdx n hn (idx (ix2 (j 0 : Fin E) (0 : Fin 1)))) (j 1 : Fin F)) := by
  unfold Host.gather
  refine congrArg x (funext fun a => Fin.ext ?_)
  match a with
  | ⟨0, _⟩ =>
    show (⟨[1], [0], [], [], [0], 1, ![1, F], wf⟩ : GatherDims (Rows n F) (Col E) (Rows E F)).start j idx 0
        + (⟨[1], [0], [], [], [0], 1, ![1, F], wf⟩ : GatherDims (Rows n F) (Col E) (Rows E F)).batchCoord j 0
        + (⟨[1], [0], [], [], [0], 1, ![1, F], wf⟩ : GatherDims (Rows n F) (Col E) (Rows E F)).offCoord j 0
        = min (idx (ix2 (j 0 : Fin E) (0 : Fin 1))).toInt.toNat (n - 1)
    rw [rows_start_zero, GatherDims.batchCoord_eq_zero _ _ _ (by simp),
      GatherDims.offCoord_eq_zero _ _ _ (by
        show (0 : Fin 2) ∉ (Rows n F).kept ([(0 : Fin 2)] ++ [])
        rw [kept_rows_coll]; exact (by decide : (0 : Fin 2) ∉ [(1 : Fin 2)]))]
    rfl
  | ⟨1, _⟩ =>
    show (⟨[1], [0], [], [], [0], 1, ![1, F], wf⟩ : GatherDims (Rows n F) (Col E) (Rows E F)).start j idx 1
        + (⟨[1], [0], [], [], [0], 1, ![1, F], wf⟩ : GatherDims (Rows n F) (Col E) (Rows E F)).batchCoord j 1
        + (⟨[1], [0], [], [], [0], 1, ![1, F], wf⟩ : GatherDims (Rows n F) (Col E) (Rows E F)).offCoord j 1
        = (j 1).val
    rw [rows_start_one, GatherDims.batchCoord_eq_zero _ _ _ (by simp), rows_off_one]
    simp

end RowGather

end Cert.EdgeGather
-- ==== Proof.EdgeCore.lean ====
/-
  The edge-wise stages of a graph layer over an edge list padded with idle edges.

  A vector of E edge words becomes an [E, 1] column of scatter or start indices by a broadcast (or by a reshape); a
  column becomes F-lane rows by a broadcast along the lanes. A start index below zero is wrapped once around the node
  count before the gather clamps it. With these readings the stages over the padded list (E' edges) and over the
  plain list (E edges) are compared edge by edge: gathers agree at edge e < E when the index words agree there, and
  accumulating scatters agree outright when the padded updates are 0.
-/
import Idealize.ShloMosaic.PureOps.Ideal
import Idealize.ShloMosaic.PureOps.Ideal.Laws
import Idealize.ShloMosaic.PureOps.Contract
import Idealize.ShloMosaic.Lib.Pipeline.Value
import Idealize.ShloMosaic.Lib.ValueIdx
import proofs.«168910_j58506044506599_1_alg».proof.Proof.LibEdgePad
import proofs.«168910_j58506044506599_1_alg».proof.Proof.LibEdgeGather

open Idealize.ShloMosaic Idealize.ShloMosaic.ValueIdx

namespace Cert.EdgeCore

open Cert.EdgePad Cert.EdgeGather

/-- The scalar shape. -/
abbrev S0 : Shape := ⟨0, ![]⟩

/-! ## Layout readings -/

section Layout
variable {α : Type} {E F : Nat}

/-- The column made of a vector by a broadcast along a new unit axis holds the vector's entry e at (e, 0). -/
theorem col_of_bcast (a : (Vec1 E).Idx → α) (h : (Vec1 E).BroadcastsInDim (Col E) ![0]) (e : Fin E) :
    broadcastInDim (Col E) ![0] h a (ix2 e (0 : Fin 1)) = a (ix1 e) :=
  broadcastInDim_apply _ h a _ _ (fun a' => by
    have ha : a' = 0 := Subsingleton.elim _ _
    subst ha
    show e.val = if E = 1 then 0 else e.val
    split
    · have := e.isLt; omega
    · rfl)

/-- The column made of a vector by a reshape holds the vector's entry e at (e, 0). -/
theorem col_of_reshape (a : (Vec1 E).Idx → α) (h : (Vec1 E).ShapeCasts (Col E)) (e : Fin E) :
    shapeCast (Col E) a h (ix2 e (0 : Fin 1)) = a (ix1 e) :=
  shapeCast_apply a h _ _ (by
    rw [Shape.rowMajor_val_one, Shape.rowMajor_val_two]
    show e.val = e.val * 1 + 0
    omega)

/-- The rows made of a column by a broadcast along the lanes hold the column's entry (e, 0) at every lane. -/
theorem rows_of_col (c : (Col E).Idx → α) (h : (Col E).BroadcastsInDim (Rows E F) ![0, 1]) (e : Fin E) (f : Fin F) :
    broadcastInDim (Rows E F) ![0, 1] h c (ix2 e f) = c (ix2 e (0 : Fin 1)) :=
  broadcastInDim_apply _ h c _ _ (fun a' => by
    match a' with
    | ⟨0, _⟩ =>
      show e.val = if E = 1 then 0 else e.val
      split
      · have := e.isLt; omega
      · rfl
    | ⟨1, _⟩ =>
      show (0 : Nat) = if (1 : Nat) = 1 then 0 else f.val
      rw [if_pos rfl])

end Layout

/-! ## The wrapped start index -/

/-- An index word read as a signed integer, wrapped once around nn when it is negative. -/
def wrapWord (nn : BitVec 32) (v : BitVec 32) : BitVec 32 :=
  Scalar.select (IntOp.cmpi .slt v 0#32) (IntOp.addi v nn) v

/-- The vector of wrapped index words, as the programs spell it: compare with 0, add the node count, select. -/
def wrapVec (nn : BitVec 32) {E : Nat} (v : (Vec1 E).Idx → BitVec 32) (h0 hn : S0.BroadcastsInDim (Vec1 E) ![]) :
    (Vec1 E).Idx → BitVec 32 :=
  select (cmpi .slt v (broadcastInDim (Vec1 E) ![] h0 (constantI S0 32 0#32)))
    (addi v (broadcastInDim (Vec1 E) ![] hn (constantI S0 32 nn))) v

theorem wrapVec_apply (nn : BitVec 32) {E : Nat} (v : (Vec1 E).Idx → BitVec 32) (h0 hn : S0.BroadcastsInDim (Vec1 E) ![])
    (i : (Vec1 E).Idx) : wrapVec nn v h0 hn i = wrapWord nn (v i) := rfl

/-! ## Gathers through the column of wrapped words -/

section Gathers
variable {α : Type} {n E F : Nat}

/-- Single entries: with the dimension numbers of `x[idx]` on a vector, entry e is the vector at edge e's clamped
    start index. -/
theorem gather_vec (d : GatherDims (Vec1 n) (Col E) (Vec1 E))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (hn : 0 < n) (x : (Vec1 n).Idx → α) (idx : IVec (Col E) 32) (e : Fin E) :
    Host.gather d x idx (ix1 e) = x (ix1 (clampIdx n hn (idx (ix2 e (0 : Fin 1))))) := by
  obtain ⟨a1, a2, a3, a4, a5, a6, a7, wf⟩ := d
  simp only at h1 h2 h3 h4 h5 h6 h7
  subst h1 h2 h3 h4 h5 h6 h7
  exact gather_vec_apply wf hn x idx (ix1 e)

/-- Whole rows: with the dimension numbers of `x[idx]` on a matrix, entry (e, f) is the matrix at edge e's clamped
    start index, lane f. -/
theorem gather_rows (d : GatherDims (Rows n F) (Col E) (Rows E F))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, F]) (hn : 0 < n) (x : (Rows n F).Idx → α) (idx : IVec (Col E) 32) (e : Fin E) (f : Fin F) :
    Host.gather d x idx (ix2 e f) = x (ix2 (clampIdx n hn (idx (ix2 e (0 : Fin 1)))) f) := by
  obtain ⟨a1, a2, a3, a4, a5, a6, a7, wf⟩ := d
  simp only at h1 h2 h3 h4 h5 h6 h7
  subst h1 h2 h3 h4 h5 h6 h7
  exact gather_rows_apply wf hn x idx (ix2 e f)

end Gathers

/-! ## Padded accumulating scatters, as the programs spell them -/

section Scatters
variable {n E E' F : Nat}

/-- The degree-like scatter: a vector of updates through the column of scatter words. -/
theorem scatterAdd_vec_pad (hE : E ≤ E')
    (dR : ScatterDims (Vec1 n) (Col E) (Vec1 E)) (dK : ScatterDims (Vec1 n) (Col E') (Vec1 E'))
    (hRu : dR.updateWindowDims = []) (hRi : dR.insertedWindowDims = [0])
    (hRs : dR.scatterDimsToOperandDims = [0]) (hRv : dR.indexVectorDim = 1)
    (hKu : dK.updateWindowDims = []) (hKi : dK.insertedWindowDims = [0])
    (hKs : dK.scatterDimsToOperandDims = [0]) (hKv : dK.indexVectorDim = 1)
    (bR : (Vec1 E).BroadcastsInDim (Col E) ![0]) (bK : (Vec1 E').BroadcastsInDim (Col E') ![0])
    (wR : (Vec1 E).Idx → BitVec 32) (wK : (Vec1 E').Idx → BitVec 32) (x : (Vec1 n).Idx → EReal)
    (uR : (Vec1 E).Idx → EReal) (uK : (Vec1 E').Idx → EReal)
    (hw : ∀ e : Fin E, wK (ix1 (Fin.castLE hE e)) = wR (ix1 e))
    (hu : ∀ e : Fin E, uK (ix1 (Fin.castLE hE e)) = uR (ix1 e))
    (hz : ∀ e : Fin E', E ≤ e.val → uK (ix1 e) = 0) :
    Host.scatterAdd (F := Ideal) (φ := .f32) dK x (broadcastInDim (Col E') ![0] bK wK) uK
      = Host.scatterAdd (F := Ideal) (φ := .f32) dR x (broadcastInDim (Col E) ![0] bR wR) uR :=
  scatterAdd_pad_vec hE dR dK hRu hRi hRs hRv hKu hKi hKs hKv _ _ x uR uK
    (fun e => (col_of_bcast wK bK _).trans ((hw e).trans (col_of_bcast wR bR e).symm)) hu hz

/-- The aggregation scatter: F-lane rows of updates through the column of scatter words. -/
theorem scatterAdd_rows_pad (hE : E ≤ E')
    (dR : ScatterDims (Rows n F) (Col E) (Rows E F)) (dK : ScatterDims (Rows n F) (Col E') (Rows E' F))
    (hRu : dR.updateWindowDims = [1]) (hRi : dR.insertedWindowDims = [0])
    (hRs : dR.scatterDimsToOperandDims = [0]) (hRv : dR.indexVectorDim = 1)
    (hKu : dK.updateWindowDims = [1]) (hKi : dK.insertedWindowDims = [0])
    (hKs : dK.scatterDimsToOperandDims = [0]) (hKv : dK.indexVectorDim = 1)
    (bR : (Vec1 E).BroadcastsInDim (Col E) ![0]) (bK : (Vec1 E').BroadcastsInDim (Col E') ![0])
    (wR : (Vec1 E).Idx → BitVec 32) (wK : (Vec1 E').Idx → BitVec 32) (x : (Rows n F).Idx → EReal)
    (uR : (Rows E F).Idx → EReal) (uK : (Rows E' F).Idx → EReal)
    (hw : ∀ e : Fin E, wK (ix1 (Fin.castLE hE e)) = wR (ix1 e))
    (hu : ∀ (e : Fin E) (f : Fin F), uK (ix2 (Fin.castLE hE e) f) = uR (ix2 e f))
    (hz : ∀ (e : Fin E') (f : Fin F), E ≤ e.val → uK (ix2 e f) = 0) :
    Host.scatterAdd (F := Ideal) (φ := .f32) dK x (broadcastInDim (Col E') ![0] bK wK) uK
      = Host.scatterAdd (F := Ideal) (φ := .f32) dR x (broadcastInDim (Col E) ![0] bR wR) uR :=
  scatterAdd_pad_rows hE dR dK hRu hRi hRs hRv hKu hKi hKs hKv _ _ x uR uK
    (fun e => (col_of_bcast wK bK _).trans ((hw e).trans (col_of_bcast wR bR e).symm)) hu hz

end Scatters

end Cert.EdgeCore
-- ==== Proof.EdgeBridge.lean ====
/-
  The padded edge list against the plain one, stage by stage.

  The kernel works on 851968 edges: the 850000 edges of the reference and 1968 idle ones whose weight is 0. Where the
  two lists' row words, col words and weights agree on the first 850000 edges and the idle weights are 0:
  the degrees are equal (the idle edges add 0 to whatever node they name), so are their inverse square roots; an edge's
  normalisation coefficient, dinv[row] · weight · dinv[col], is the reference's on the first 850000 edges and 0 on
  the idle ones; a layer's message rows, coefficient times the gathered feature row, are the reference's on the
  first 850000 edges (the product commuted) and zero rows on the idle ones; and the aggregated rows are equal.
-/
import proofs.«168910_j58506044506599_1_alg».proof.Proof.EdgeCore
import proofs.«168910_j58506044506599_1_alg».proof.Proof.HostStages
import proofs.«168910_j58506044506599_1_alg».proof.Proof.Region0
import proofs.«168910_j58506044506599_1_alg».proof.Proof.Region2
import proofs.«168910_j58506044506599_1_alg».proof.Proof.Region5
import proofs.«168910_j58506044506599_1_alg».proof.Proof.Gen.ReferenceIdeal.Read

set_option maxRecDepth 16384
set_option maxHeartbeats 1000000

noncomputable section

namespace Cert.EdgeBridge

open Idealize.ShloMosaic Idealize.ShloMosaic.ValueIdx
open Cert.EdgePad Cert.EdgeGather Cert.EdgeCore
open Cert.KernelIdeal.HostStages

theorem hE : 850000 ≤ 851968 := by decide
theorem hN : 0 < 50000 := by decide

/-- The node count as an index word. -/
abbrev nn : BitVec 32 := 50000#32

/-! ## Gathers through wrapped words, in both programs' spelling -/

section GatherReads
variable {α : Type}

theorem kGatherVec (x : Cert.KernelIdeal.S50000.Idx → α) (w : Cert.KernelIdeal.S851968.Idx → BitVec 32) (e : Fin 851968) :
    Host.gather Cert.KernelIdeal.gather_S50000_S851968x1_S851968_n_0_n_n_0_1_1 x (idxColK (wrapK w)) (ix1 e)
      = x (ix1 (clampIdx 50000 hN (wrapWord nn (w (ix1 e))))) :=
  (gather_vec (n := 50000) (E := 851968) Cert.KernelIdeal.gather_S50000_S851968x1_S851968_n_0_n_n_0_1_1 rfl rfl rfl rfl rfl rfl rfl hN x
    (idxColK (wrapK w)) e).trans
    (congrArg (fun v => x (ix1 (clampIdx 50000 hN v)))
      (col_of_bcast (E := 851968) (wrapK w) Cert.KernelIdeal.Facts₀.bcast_S851968_S851968x1_0 e))

theorem kGather128 (x : Cert.KernelIdeal.S50000x128.Idx → α) (w : Cert.KernelIdeal.S851968.Idx → BitVec 32) (e : Fin 851968) (f : Fin 128) :
    Host.gather Cert.KernelIdeal.gather_S50000x128_S851968x1_S851968x128_1_0_n_n_0_1_1128 x (idxColK (wrapK w)) (ix2 e f)
      = x (ix2 (clampIdx 50000 hN (wrapWord nn (w (ix1 e)))) f) :=
  (gather_rows (n := 50000) (E := 851968) (F := 128) Cert.KernelIdeal.gather_S50000x128_S851968x1_S851968x128_1_0_n_n_0_1_1128 rfl rfl rfl rfl rfl rfl rfl hN x
    (idxColK (wrapK w)) e f).trans
    (congrArg (fun v => x (ix2 (clampIdx 50000 hN v) f))
      (col_of_bcast (E := 851968) (wrapK w) Cert.KernelIdeal.Facts₀.bcast_S851968_S851968x1_0 e))

theorem kGather64 (x : Cert.KernelIdeal.S50000x64.Idx → α) (w : Cert.KernelIdeal.S851968.Idx → BitVec 32) (e : Fin 851968) (f : Fin 64) :
    Host.gather Cert.KernelIdeal.gather_S50000x64_S851968x1_S851968x64_1_0_n_n_0_1_164 x (idxColK (wrapK w)) (ix2 e f)
      = x (ix2 (clampIdx 50000 hN (wrapWord nn (w (ix1 e)))) f) :=
  (gather_rows (n := 50000) (E := 851968) (F := 64) Cert.KernelIdeal.gather_S50000x64_S851968x1_S851968x64_1_0_n_n_0_1_164 rfl rfl rfl rfl rfl rfl rfl hN x
    (idxColK (wrapK w)) e f).trans
    (congrArg (fun v => x (ix2 (clampIdx 50000 hN v) f))
      (col_of_bcast (E := 851968) (wrapK w) Cert.KernelIdeal.Facts₀.bcast_S851968_S851968x1_0 e))

/-- The reference's wrapped words and their column. -/
def wrapR (v : Cert.ReferenceIdeal.S850000.Idx → BitVec 32) : Cert.ReferenceIdeal.S850000.Idx → BitVec 32 :=
  select (cmpi .slt v (broadcastInDim Cert.ReferenceIdeal.S850000 ![] Cert.ReferenceIdeal.Facts₀.bcast_S_S850000 (constantI Cert.ReferenceIdeal.S_ 32 0#32)))
    (addi v (broadcastInDim Cert.ReferenceIdeal.S850000 ![] Cert.ReferenceIdeal.Facts₀.bcast_S_S850000 (constantI Cert.ReferenceIdeal.S_ 32 50000#32))) v

def idxColR (v : Cert.ReferenceIdeal.S850000.Idx → BitVec 32) : Cert.ReferenceIdeal.S850000x1.Idx → BitVec 32 :=
  broadcastInDim Cert.ReferenceIdeal.S850000x1 ![0] Cert.ReferenceIdeal.Facts₀.bcast_S850000_S850000x1_0 v

theorem rGatherVec (x : Cert.ReferenceIdeal.S50000.Idx → α) (w : Cert.ReferenceIdeal.S850000.Idx → BitVec 32) (e : Fin 850000) :
    Host.gather Cert.ReferenceIdeal.gather_S50000_S850000x1_S850000_n_0_n_n_0_1_1 x (idxColR (wrapR w)) (ix1 e)
      = x (ix1 (clampIdx 50000 hN (wrapWord nn (w (ix1 e))))) :=
  (gather_vec (n := 50000) (E := 850000) Cert.ReferenceIdeal.gather_S50000_S850000x1_S850000_n_0_n_n_0_1_1 rfl rfl rfl rfl rfl rfl rfl hN x
    (idxColR (wrapR w)) e).trans
    (congrArg (fun v => x (ix1 (clampIdx 50000 hN v)))
      (col_of_bcast (E := 850000) (wrapR w) Cert.ReferenceIdeal.Facts₀.bcast_S850000_S850000x1_0 e))

theorem rGather128 (x : Cert.ReferenceIdeal.S50000x128.Idx → α) (w : Cert.ReferenceIdeal.S850000.Idx → BitVec 32) (e : Fin 850000) (f : Fin 128) :
    Host.gather Cert.ReferenceIdeal.gather_S50000x128_S850000x1_S850000x128_1_0_n_n_0_1_1128 x (idxColR (wrapR w)) (ix2 e f)
      = x (ix2 (clampIdx 50000 hN (wrapWord nn (w (ix1 e)))) f) :=
  (gather_rows (n := 50000) (E := 850000) (F := 128) Cert.ReferenceIdeal.gather_S50000x128_S850000x1_S850000x128_1_0_n_n_0_1_1128 rfl rfl rfl rfl rfl rfl rfl hN x
    (idxColR (wrapR w)) e f).trans
    (congrArg (fun v => x (ix2 (clampIdx 50000 hN v) f))
      (col_of_bcast (E := 850000) (wrapR w) Cert.ReferenceIdeal.Facts₀.bcast_S850000_S850000x1_0 e))

theorem rGather64 (x : Cert.ReferenceIdeal.S50000x64.Idx → α) (w : Cert.ReferenceIdeal.S850000.Idx → BitVec 32) (e : Fin 850000) (f : Fin 64) :
    Host.gather Cert.ReferenceIdeal.gather_S50000x64_S850000x1_S850000x64_1_0_n_n_0_1_164 x (idxColR (wrapR w)) (ix2 e f)
      = x (ix2 (clampIdx 50000 hN (wrapWord nn (w (ix1 e)))) f) :=
  (gather_rows (n := 50000) (E := 850000) (F := 64) Cert.ReferenceIdeal.gather_S50000x64_S850000x1_S850000x64_1_0_n_n_0_1_164 rfl rfl rfl rfl rfl rfl rfl hN x
    (idxColR (wrapR w)) e f).trans
    (congrArg (fun v => x (ix2 (clampIdx 50000 hN v) f))
      (col_of_bcast (E := 850000) (wrapR w) Cert.ReferenceIdeal.Facts₀.bcast_S850000_S850000x1_0 e))

end GatherReads

/-! ## The two edge lists -/

/-- What the comparison assumes of the padded list (row, col, weight) against the reference's of the arguments x1, x2:
    equal words and weights on the first 850000 edges, weight 0 on the idle ones. -/
structure Agrees (rw cw : Cert.KernelIdeal.S851968.Idx → BitVec 32) (ww : Cert.KernelIdeal.S851968.Idx → EReal)
    (x1 : Cert.ReferenceIdeal.S2x800000.Idx → BitVec 32) (x2 : Cert.ReferenceIdeal.S800000.Idx → EReal) : Prop where
  row : ∀ e : Fin 850000, rw (ix1 (Fin.castLE hE e)) = Cert.ReferenceIdeal.Read.val_main_v8 (F := Ideal) x1 (ix1 e)
  col : ∀ e : Fin 850000, cw (ix1 (Fin.castLE hE e)) = Cert.ReferenceIdeal.Read.val_main_v10 (F := Ideal) x1 (ix1 e)
  ew : ∀ e : Fin 850000, ww (ix1 (Fin.castLE hE e)) = Cert.ReferenceIdeal.Read.val_main_v6 (F := Ideal) x2 (ix1 e)
  idle : ∀ e : Fin 851968, 850000 ≤ e.val → ww (ix1 e) = 0

section Stages
variable {rw cw : Cert.KernelIdeal.S851968.Idx → BitVec 32} {ww : Cert.KernelIdeal.S851968.Idx → EReal}
  {x1 : Cert.ReferenceIdeal.S2x800000.Idx → BitVec 32} {x2 : Cert.ReferenceIdeal.S800000.Idx → EReal}

/-- The degrees are equal: an idle edge adds 0 to the node it names. -/
theorem deg_eq (H : Agrees rw cw ww x1 x2) : degOf cw ww = Cert.ReferenceIdeal.Read.val_main_v13 (F := Ideal) x1 x2 :=
  scatterAdd_vec_pad (n := 50000) hE Cert.ReferenceIdeal.scatter_S50000_S850000x1_S850000_n_0_0_1
    Cert.KernelIdeal.scatter_S50000_S851968x1_S851968_n_0_0_1 rfl rfl rfl rfl rfl rfl rfl rfl
    Cert.ReferenceIdeal.Facts₀.bcast_S850000_S850000x1_0 Cert.KernelIdeal.Facts₀.bcast_S851968_S851968x1_0
    (Cert.ReferenceIdeal.Read.val_main_v10 (F := Ideal) x1) cw zeroNodes (Cert.ReferenceIdeal.Read.val_main_v6 (F := Ideal) x2) ww H.col H.ew H.idle

/-- So are their inverse square roots. -/
theorem dinv_eq (H : Agrees rw cw ww x1 x2) : dinvOf (degOf cw ww) = Cert.ReferenceIdeal.Read.val_main_v17 (F := Ideal) x1 x2 := by
  rw [deg_eq H]
  rfl

end Stages

end Cert.EdgeBridge

end
-- ==== Proof.EdgeCoeff.lean ====
/-
  The normalisation coefficient of an edge, dinv[row] · weight · dinv[col], over the padded edge list and over the
  plain one: equal on the first 850000 edges, 0 on the idle ones (their weight is 0).
-/
import proofs.«168910_j58506044506599_1_alg».proof.Proof.EdgeBridge
import proofs.«168910_j58506044506599_1_alg».proof.Proof.Region0

set_option maxRecDepth 16384
set_option maxHeartbeats 1000000

noncomputable section

namespace Cert.EdgeBridge

open Idealize.ShloMosaic Idealize.ShloMosaic.ValueIdx
open Cert.EdgePad Cert.EdgeGather Cert.EdgeCore
open Cert.KernelIdeal.HostStages

section Stages
variable {rw cw : Cert.KernelIdeal.S851968.Idx → BitVec 32} {ww : Cert.KernelIdeal.S851968.Idx → EReal}
  {x1 : Cert.ReferenceIdeal.S2x800000.Idx → BitVec 32} {x2 : Cert.ReferenceIdeal.S800000.Idx → EReal}

/-! ### The normalisation coefficients -/

theorem colK_apply {α : Type} (v : Cert.KernelIdeal.S851968.Idx → α) (e : Fin 851968) :
    colK v (ix2 e (0 : Fin 1)) = v (ix1 e) :=
  col_of_reshape (E := 851968) v Cert.KernelIdeal.Facts₀.shapeCasts_S851968_S851968x1 e

/-- The kernel's coefficient column: dinv at the wrapped row word, times the weight, times dinv at the wrapped col
    word, as the first region leaves it of the three columns it is given. -/
def coeffK (dinv : Cert.KernelIdeal.S50000.Idx → EReal) (rw cw : Cert.KernelIdeal.S851968.Idx → BitVec 32)
    (ww : Cert.KernelIdeal.S851968.Idx → EReal) : Cert.KernelIdeal.S851968x1.Idx → EReal :=
  Cert.KernelIdeal.Region0.prod3
    (colK (Host.gather Cert.KernelIdeal.gather_S50000_S851968x1_S851968_n_0_n_n_0_1_1 dinv (idxColK (wrapK rw))))
    (colK ww)
    (colK (Host.gather Cert.KernelIdeal.gather_S50000_S851968x1_S851968_n_0_n_n_0_1_1 dinv (idxColK (wrapK cw))))

theorem coeffK_apply (dinv : Cert.KernelIdeal.S50000.Idx → EReal) (rw cw : Cert.KernelIdeal.S851968.Idx → BitVec 32)
    (ww : Cert.KernelIdeal.S851968.Idx → EReal) (e : Fin 851968) :
    coeffK dinv rw cw ww (ix2 e (0 : Fin 1))
      = dinv (ix1 (clampIdx 50000 hN (wrapWord nn (rw (ix1 e))))) * ww (ix1 e)
          * dinv (ix1 (clampIdx 50000 hN (wrapWord nn (cw (ix1 e))))) := by
  show colK _ (ix2 e (0 : Fin 1)) * colK _ (ix2 e (0 : Fin 1)) * colK _ (ix2 e (0 : Fin 1)) = _
  rw [colK_apply, colK_apply, colK_apply, kGatherVec, kGatherVec]

theorem wrapR_row (x1 : Cert.ReferenceIdeal.S2x800000.Idx → BitVec 32) :
    Cert.ReferenceIdeal.Read.val_main_v23 (F := Ideal) x1 = idxColR (wrapR (Cert.ReferenceIdeal.Read.val_main_v8 (F := Ideal) x1)) := rfl

theorem wrapR_col (x1 : Cert.ReferenceIdeal.S2x800000.Idx → BitVec 32) :
    Cert.ReferenceIdeal.Read.val_main_v31 (F := Ideal) x1 = idxColR (wrapR (Cert.ReferenceIdeal.Read.val_main_v10 (F := Ideal) x1)) := rfl

theorem coeffR_apply (x1 : Cert.ReferenceIdeal.S2x800000.Idx → BitVec 32) (x2 : Cert.ReferenceIdeal.S800000.Idx → EReal) (e : Fin 850000) :
    Cert.ReferenceIdeal.Read.val_main_v33 (F := Ideal) x1 x2 (ix1 e)
      = Cert.ReferenceIdeal.Read.val_main_v17 (F := Ideal) x1 x2 (ix1 (clampIdx 50000 hN (wrapWord nn (Cert.ReferenceIdeal.Read.val_main_v8 (F := Ideal) x1 (ix1 e)))))
          * Cert.ReferenceIdeal.Read.val_main_v6 (F := Ideal) x2 (ix1 e)
          * Cert.ReferenceIdeal.Read.val_main_v17 (F := Ideal) x1 x2 (ix1 (clampIdx 50000 hN (wrapWord nn (Cert.ReferenceIdeal.Read.val_main_v10 (F := Ideal) x1 (ix1 e))))) := by
  have h24 : Cert.ReferenceIdeal.Read.val_main_v24 (F := Ideal) x1 x2 (ix1 e)
      = Host.gather Cert.ReferenceIdeal.gather_S50000_S850000x1_S850000_n_0_n_n_0_1_1 (Cert.ReferenceIdeal.Read.val_main_v17 (F := Ideal) x1 x2) (idxColR (wrapR (Cert.ReferenceIdeal.Read.val_main_v8 (F := Ideal) x1))) (ix1 e) :=
    congrArg (fun ix => Host.gather Cert.ReferenceIdeal.gather_S50000_S850000x1_S850000_n_0_n_n_0_1_1 (Cert.ReferenceIdeal.Read.val_main_v17 (F := Ideal) x1 x2) ix (ix1 e)) (wrapR_row x1)
  have h32 : Cert.ReferenceIdeal.Read.val_main_v32 (F := Ideal) x1 x2 (ix1 e)
      = Host.gather Cert.ReferenceIdeal.gather_S50000_S850000x1_S850000_n_0_n_n_0_1_1 (Cert.ReferenceIdeal.Read.val_main_v17 (F := Ideal) x1 x2) (idxColR (wrapR (Cert.ReferenceIdeal.Read.val_main_v10 (F := Ideal) x1))) (ix1 e) :=
    congrArg (fun ix => Host.gather Cert.ReferenceIdeal.gather_S50000_S850000x1_S850000_n_0_n_n_0_1_1 (Cert.ReferenceIdeal.Read.val_main_v17 (F := Ideal) x1 x2) ix (ix1 e)) (wrapR_col x1)
  rw [Cert.ReferenceIdeal.Read.val_main_v33_apply, Cert.ReferenceIdeal.Read.val_main_v25_apply, h24, h32, rGatherVec, rGatherVec]
  rfl

/-- On the first 850000 edges the kernel's coefficient is the reference's. -/
theorem coeff_agree (H : Agrees rw cw ww x1 x2) (e : Fin 850000) :
    coeffK (Cert.ReferenceIdeal.Read.val_main_v17 (F := Ideal) x1 x2) rw cw ww (ix2 (Fin.castLE hE e) (0 : Fin 1))
      = Cert.ReferenceIdeal.Read.val_main_v33 (F := Ideal) x1 x2 (ix1 e) := by
  rw [coeffK_apply, coeffR_apply, H.row e, H.col e, H.ew e]

/-- On the idle edges it is 0: the weight is. -/
theorem coeff_idle (H : Agrees rw cw ww x1 x2) (dinv : Cert.KernelIdeal.S50000.Idx → EReal) (e : Fin 851968) (h : 850000 ≤ e.val) :
    coeffK dinv rw cw ww (ix2 e (0 : Fin 1)) = 0 := by
  rw [coeffK_apply, H.idle e h, mul_zero, zero_mul]

end Stages

end Cert.EdgeBridge

end
-- ==== Proof.EdgeLayer1.lean ====
/-
  The first layer's message rows and aggregate over the padded edge list and over the plain one: a message row is the
  gathered feature row times the edge's coefficient (the reference multiplies in the other order); idle edges carry
  zero rows, so the aggregates are equal.
-/
import proofs.«168910_j58506044506599_1_alg».proof.Proof.EdgeCoeff
import proofs.«168910_j58506044506599_1_alg».proof.Proof.Region2

set_option maxRecDepth 16384
set_option maxHeartbeats 1000000

noncomputable section

namespace Cert.EdgeBridge

open Idealize.ShloMosaic Idealize.ShloMosaic.ValueIdx
open Cert.EdgePad Cert.EdgeGather Cert.EdgeCore
open Cert.KernelIdeal.HostStages

section Stages
variable {rw cw : Cert.KernelIdeal.S851968.Idx → BitVec 32} {ww : Cert.KernelIdeal.S851968.Idx → EReal}
  {x1 : Cert.ReferenceIdeal.S2x800000.Idx → BitVec 32} {x2 : Cert.ReferenceIdeal.S800000.Idx → EReal}

/-! ### The first layer's messages and aggregate -/

/-- The kernel's message rows: the gathered feature row times the edge's coefficient. -/
def msgK128 (lin : Cert.KernelIdeal.S50000x128.Idx → EReal) (coeff : Cert.KernelIdeal.S851968x1.Idx → EReal)
    (rw : Cert.KernelIdeal.S851968.Idx → BitVec 32) : Cert.KernelIdeal.S851968x128.Idx → EReal :=
  Cert.KernelIdeal.Region2.scale
    (Host.gather Cert.KernelIdeal.gather_S50000x128_S851968x1_S851968x128_1_0_n_n_0_1_1128 lin (idxColK (wrapK rw))) coeff

theorem msgK128_apply (lin : Cert.KernelIdeal.S50000x128.Idx → EReal) (coeff : Cert.KernelIdeal.S851968x1.Idx → EReal)
    (rw : Cert.KernelIdeal.S851968.Idx → BitVec 32) (e : Fin 851968) (f : Fin 128) :
    msgK128 lin coeff rw (ix2 e f)
      = lin (ix2 (clampIdx 50000 hN (wrapWord nn (rw (ix1 e)))) f) * coeff (ix2 e (0 : Fin 1)) := by
  show Host.gather Cert.KernelIdeal.gather_S50000x128_S851968x1_S851968x128_1_0_n_n_0_1_1128 lin (idxColK (wrapK rw)) (ix2 e f)
      * coeff (ix2 e (0 : Fin 1)) = _
  rw [kGather128]

theorem wrapR_row128 (x1 : Cert.ReferenceIdeal.S2x800000.Idx → BitVec 32) :
    Cert.ReferenceIdeal.Read.val_main_v41 (F := Ideal) x1 = idxColR (wrapR (Cert.ReferenceIdeal.Read.val_main_v8 (F := Ideal) x1)) := rfl

theorem coeffRows128 (x1 : Cert.ReferenceIdeal.S2x800000.Idx → BitVec 32) (x2 : Cert.ReferenceIdeal.S800000.Idx → EReal) :
    Cert.ReferenceIdeal.Read.val_main_v43 (F := Ideal) x1 x2
      = broadcastInDim Cert.ReferenceIdeal.S850000x128 ![0, 1] Cert.ReferenceIdeal.Facts₀.bcast_S850000x1_S850000x128_0_1
          (broadcastInDim Cert.ReferenceIdeal.S850000x1 ![0] Cert.ReferenceIdeal.Facts₀.bcast_S850000_S850000x1_0 (Cert.ReferenceIdeal.Read.val_main_v33 (F := Ideal) x1 x2)) := rfl

theorem msgR128_apply (x0 : Cert.ReferenceIdeal.S50000x128.Idx → EReal) (x1 : Cert.ReferenceIdeal.S2x800000.Idx → BitVec 32)
    (x2 : Cert.ReferenceIdeal.S800000.Idx → EReal) (x3 : Cert.ReferenceIdeal.S128x128.Idx → EReal) (e : Fin 850000) (f : Fin 128) :
    Cert.ReferenceIdeal.Read.val_main_v44 (F := Ideal) x0 x1 x2 x3 (ix2 e f)
      = Cert.ReferenceIdeal.Read.val_main_v33 (F := Ideal) x1 x2 (ix1 e)
          * Cert.ReferenceIdeal.Read.val_main_v34 (F := Ideal) x0 x3 (ix2 (clampIdx 50000 hN (wrapWord nn (Cert.ReferenceIdeal.Read.val_main_v8 (F := Ideal) x1 (ix1 e)))) f) := by
  have h42 : Cert.ReferenceIdeal.Read.val_main_v42 (F := Ideal) x0 x1 x3 (ix2 e f)
      = Host.gather Cert.ReferenceIdeal.gather_S50000x128_S850000x1_S850000x128_1_0_n_n_0_1_1128 (Cert.ReferenceIdeal.Read.val_main_v34 (F := Ideal) x0 x3) (idxColR (wrapR (Cert.ReferenceIdeal.Read.val_main_v8 (F := Ideal) x1))) (ix2 e f) :=
    congrArg (fun ix => Host.gather Cert.ReferenceIdeal.gather_S50000x128_S850000x1_S850000x128_1_0_n_n_0_1_1128 (Cert.ReferenceIdeal.Read.val_main_v34 (F := Ideal) x0 x3) ix (ix2 e f)) (wrapR_row128 x1)
  rw [Cert.ReferenceIdeal.Read.val_main_v44_apply, h42, coeffRows128, rows_of_col (E := 850000) (F := 128), col_of_bcast (E := 850000), rGather128]
  rfl

theorem msg128_agree (H : Agrees rw cw ww x1 x2) (x0 : Cert.ReferenceIdeal.S50000x128.Idx → EReal) (x3 : Cert.ReferenceIdeal.S128x128.Idx → EReal)
    (e : Fin 850000) (f : Fin 128) :
    msgK128 (Cert.ReferenceIdeal.Read.val_main_v34 (F := Ideal) x0 x3) (coeffK (Cert.ReferenceIdeal.Read.val_main_v17 (F := Ideal) x1 x2) rw cw ww) rw (ix2 (Fin.castLE hE e) f)
      = Cert.ReferenceIdeal.Read.val_main_v44 (F := Ideal) x0 x1 x2 x3 (ix2 e f) := by
  rw [msgK128_apply, msgR128_apply, coeff_agree H e, H.row e, mul_comm]

theorem msg128_idle (H : Agrees rw cw ww x1 x2) (lin : Cert.KernelIdeal.S50000x128.Idx → EReal) (dinv : Cert.KernelIdeal.S50000.Idx → EReal)
    (e : Fin 851968) (f : Fin 128) (h : 850000 ≤ e.val) :
    msgK128 lin (coeffK dinv rw cw ww) rw (ix2 e f) = 0 := by
  rw [msgK128_apply, coeff_idle H dinv e h, mul_zero]

theorem aggR128 (x0 : Cert.ReferenceIdeal.S50000x128.Idx → EReal) (x1 : Cert.ReferenceIdeal.S2x800000.Idx → BitVec 32)
    (x2 : Cert.ReferenceIdeal.S800000.Idx → EReal) (x3 : Cert.ReferenceIdeal.S128x128.Idx → EReal) :
    Cert.ReferenceIdeal.Read.val_main_v47 (F := Ideal) x0 x1 x2 x3
      = Host.scatterAdd (F := Ideal) (φ := .f32) Cert.ReferenceIdeal.scatter_S50000x128_S850000x1_S850000x128_1_0_0_1
          (broadcastInDim Cert.KernelIdeal.S50000x128 ![] Cert.KernelIdeal.Facts₀.bcast_S_S50000x128 (constant (F := Ideal) Cert.KernelIdeal.S_ .f32 0x00000000#32))
          (broadcastInDim Cert.ReferenceIdeal.S850000x1 ![0] Cert.ReferenceIdeal.Facts₀.bcast_S850000_S850000x1_0 (Cert.ReferenceIdeal.Read.val_main_v10 (F := Ideal) x1))
          (Cert.ReferenceIdeal.Read.val_main_v44 (F := Ideal) x0 x1 x2 x3) := rfl

/-- The first layer's aggregates are equal: the idle edges scatter zero rows. -/
theorem agg128_eq (H : Agrees rw cw ww x1 x2) (x0 : Cert.ReferenceIdeal.S50000x128.Idx → EReal) (x3 : Cert.ReferenceIdeal.S128x128.Idx → EReal) :
    Host.scatterAdd (F := Ideal) (φ := .f32) Cert.KernelIdeal.scatter_S50000x128_S851968x1_S851968x128_1_0_0_1
        (broadcastInDim Cert.KernelIdeal.S50000x128 ![] Cert.KernelIdeal.Facts₀.bcast_S_S50000x128 (constant (F := Ideal) Cert.KernelIdeal.S_ .f32 0x00000000#32))
        (idxColK cw) (msgK128 (Cert.ReferenceIdeal.Read.val_main_v34 (F := Ideal) x0 x3) (coeffK (Cert.ReferenceIdeal.Read.val_main_v17 (F := Ideal) x1 x2) rw cw ww) rw)
      = Cert.ReferenceIdeal.Read.val_main_v47 (F := Ideal) x0 x1 x2 x3 := by
  rw [aggR128]
  exact scatterAdd_rows_pad (n := 50000) (F := 128) hE Cert.ReferenceIdeal.scatter_S50000x128_S850000x1_S850000x128_1_0_0_1
    Cert.KernelIdeal.scatter_S50000x128_S851968x1_S851968x128_1_0_0_1 rfl rfl rfl rfl rfl rfl rfl rfl
    Cert.ReferenceIdeal.Facts₀.bcast_S850000_S850000x1_0 Cert.KernelIdeal.Facts₀.bcast_S851968_S851968x1_0
    (Cert.ReferenceIdeal.Read.val_main_v10 (F := Ideal) x1) cw (broadcastInDim Cert.KernelIdeal.S50000x128 ![] Cert.KernelIdeal.Facts₀.bcast_S_S50000x128 (constant (F := Ideal) Cert.KernelIdeal.S_ .f32 0x00000000#32)) (Cert.ReferenceIdeal.Read.val_main_v44 (F := Ideal) x0 x1 x2 x3)
    (msgK128 (Cert.ReferenceIdeal.Read.val_main_v34 (F := Ideal) x0 x3) (coeffK (Cert.ReferenceIdeal.Read.val_main_v17 (F := Ideal) x1 x2) rw cw ww) rw) H.col
    (msg128_agree H x0 x3) (fun e f h => msg128_idle H _ _ e f h)

end Stages

end Cert.EdgeBridge

end
-- ==== Proof.EdgeLayer2.lean ====
/-
  The second layer's message rows and aggregate over the padded edge list and over the plain one, as the first
  layer's with 64 lanes.
-/
import proofs.«168910_j58506044506599_1_alg».proof.Proof.EdgeCoeff
import proofs.«168910_j58506044506599_1_alg».proof.Proof.Region5

set_option maxRecDepth 16384
set_option maxHeartbeats 1000000

noncomputable section

namespace Cert.EdgeBridge

open Idealize.ShloMosaic Idealize.ShloMosaic.ValueIdx
open Cert.EdgePad Cert.EdgeGather Cert.EdgeCore
open Cert.KernelIdeal.HostStages

section Stages
variable {rw cw : Cert.KernelIdeal.S851968.Idx → BitVec 32} {ww : Cert.KernelIdeal.S851968.Idx → EReal}
  {x1 : Cert.ReferenceIdeal.S2x800000.Idx → BitVec 32} {x2 : Cert.ReferenceIdeal.S800000.Idx → EReal}

/-! ### The second layer's messages and aggregate -/

def msgK64 (lin : Cert.KernelIdeal.S50000x64.Idx → EReal) (coeff : Cert.KernelIdeal.S851968x1.Idx → EReal)
    (rw : Cert.KernelIdeal.S851968.Idx → BitVec 32) : Cert.KernelIdeal.S851968x64.Idx → EReal :=
  Cert.KernelIdeal.Region5.scale
    (Host.gather Cert.KernelIdeal.gather_S50000x64_S851968x1_S851968x64_1_0_n_n_0_1_164 lin (idxColK (wrapK rw))) coeff

theorem msgK64_apply (lin : Cert.KernelIdeal.S50000x64.Idx → EReal) (coeff : Cert.KernelIdeal.S851968x1.Idx → EReal)
    (rw : Cert.KernelIdeal.S851968.Idx → BitVec 32) (e : Fin 851968) (f : Fin 64) :
    msgK64 lin coeff rw (ix2 e f)
      = lin (ix2 (clampIdx 50000 hN (wrapWord nn (rw (ix1 e)))) f) * coeff (ix2 e (0 : Fin 1)) := by
  show Host.gather Cert.KernelIdeal.gather_S50000x64_S851968x1_S851968x64_1_0_n_n_0_1_164 lin (idxColK (wrapK rw)) (ix2 e f)
      * coeff (ix2 e (0 : Fin 1)) = _
  rw [kGather64]

theorem wrapR_row64 (x1 : Cert.ReferenceIdeal.S2x800000.Idx → BitVec 32) :
    Cert.ReferenceIdeal.Read.val_main_v59 (F := Ideal) x1 = idxColR (wrapR (Cert.ReferenceIdeal.Read.val_main_v8 (F := Ideal) x1)) := rfl

theorem coeffRows64 (x1 : Cert.ReferenceIdeal.S2x800000.Idx → BitVec 32) (x2 : Cert.ReferenceIdeal.S800000.Idx → EReal) :
    Cert.ReferenceIdeal.Read.val_main_v61 (F := Ideal) x1 x2
      = broadcastInDim Cert.ReferenceIdeal.S850000x64 ![0, 1] Cert.ReferenceIdeal.Facts₀.bcast_S850000x1_S850000x64_0_1
          (broadcastInDim Cert.ReferenceIdeal.S850000x1 ![0] Cert.ReferenceIdeal.Facts₀.bcast_S850000_S850000x1_0 (Cert.ReferenceIdeal.Read.val_main_v33 (F := Ideal) x1 x2)) := rfl

theorem msgR64_apply (x0 : Cert.ReferenceIdeal.S50000x128.Idx → EReal) (x3 : Cert.ReferenceIdeal.S128x128.Idx → EReal) (x4 : Cert.ReferenceIdeal.S128.Idx → EReal) (x5 : Cert.ReferenceIdeal.S128x64.Idx → EReal) (x1 : Cert.ReferenceIdeal.S2x800000.Idx → BitVec 32) (x2 : Cert.ReferenceIdeal.S800000.Idx → EReal)
    (e : Fin 850000) (f : Fin 64) :
    Cert.ReferenceIdeal.Read.val_main_v62 (F := Ideal) x0 x1 x2 x3 x4 x5 (ix2 e f)
      = Cert.ReferenceIdeal.Read.val_main_v33 (F := Ideal) x1 x2 (ix1 e)
          * Cert.ReferenceIdeal.Read.val_main_v52 (F := Ideal) x0 x1 x2 x3 x4 x5 (ix2 (clampIdx 50000 hN (wrapWord nn (Cert.ReferenceIdeal.Read.val_main_v8 (F := Ideal) x1 (ix1 e)))) f) := by
  have h60 : Cert.ReferenceIdeal.Read.val_main_v60 (F := Ideal) x0 x1 x2 x3 x4 x5 (ix2 e f)
      = Host.gather Cert.ReferenceIdeal.gather_S50000x64_S850000x1_S850000x64_1_0_n_n_0_1_164 (Cert.ReferenceIdeal.Read.val_main_v52 (F := Ideal) x0 x1 x2 x3 x4 x5) (idxColR (wrapR (Cert.ReferenceIdeal.Read.val_main_v8 (F := Ideal) x1))) (ix2 e f) :=
    congrArg (fun ix => Host.gather Cert.ReferenceIdeal.gather_S50000x64_S850000x1_S850000x64_1_0_n_n_0_1_164 (Cert.ReferenceIdeal.Read.val_main_v52 (F := Ideal) x0 x1 x2 x3 x4 x5) ix (ix2 e f)) (wrapR_row64 x1)
  rw [Cert.ReferenceIdeal.Read.val_main_v62_apply, h60, coeffRows64, rows_of_col (E := 850000) (F := 64), col_of_bcast (E := 850000), rGather64]
  rfl

theorem msg64_agree (H : Agrees rw cw ww x1 x2) (x0 : Cert.ReferenceIdeal.S50000x128.Idx → EReal) (x3 : Cert.ReferenceIdeal.S128x128.Idx → EReal) (x4 : Cert.ReferenceIdeal.S128.Idx → EReal) (x5 : Cert.ReferenceIdeal.S128x64.Idx → EReal) (e : Fin 850000) (f : Fin 64) :
    msgK64 (Cert.ReferenceIdeal.Read.val_main_v52 (F := Ideal) x0 x1 x2 x3 x4 x5) (coeffK (Cert.ReferenceIdeal.Read.val_main_v17 (F := Ideal) x1 x2) rw cw ww) rw (ix2 (Fin.castLE hE e) f)
      = Cert.ReferenceIdeal.Read.val_main_v62 (F := Ideal) x0 x1 x2 x3 x4 x5 (ix2 e f) := by
  rw [msgK64_apply, msgR64_apply x0 x3 x4 x5, coeff_agree H e, H.row e, mul_comm]

theorem msg64_idle (H : Agrees rw cw ww x1 x2) (lin : Cert.KernelIdeal.S50000x64.Idx → EReal) (dinv : Cert.KernelIdeal.S50000.Idx → EReal)
    (e : Fin 851968) (f : Fin 64) (h : 850000 ≤ e.val) :
    msgK64 lin (coeffK dinv rw cw ww) rw (ix2 e f) = 0 := by
  rw [msgK64_apply, coeff_idle H dinv e h, mul_zero]

theorem aggR64 (x0 : Cert.ReferenceIdeal.S50000x128.Idx → EReal) (x3 : Cert.ReferenceIdeal.S128x128.Idx → EReal) (x4 : Cert.ReferenceIdeal.S128.Idx → EReal) (x5 : Cert.ReferenceIdeal.S128x64.Idx → EReal) (x1 : Cert.ReferenceIdeal.S2x800000.Idx → BitVec 32) (x2 : Cert.ReferenceIdeal.S800000.Idx → EReal) :
    Cert.ReferenceIdeal.Read.val_main_v65 (F := Ideal) x0 x1 x2 x3 x4 x5
      = Host.scatterAdd (F := Ideal) (φ := .f32) Cert.ReferenceIdeal.scatter_S50000x64_S850000x1_S850000x64_1_0_0_1
          (broadcastInDim Cert.KernelIdeal.S50000x64 ![] Cert.KernelIdeal.Facts₀.bcast_S_S50000x64 (constant (F := Ideal) Cert.KernelIdeal.S_ .f32 0x00000000#32))
          (broadcastInDim Cert.ReferenceIdeal.S850000x1 ![0] Cert.ReferenceIdeal.Facts₀.bcast_S850000_S850000x1_0 (Cert.ReferenceIdeal.Read.val_main_v10 (F := Ideal) x1))
          (Cert.ReferenceIdeal.Read.val_main_v62 (F := Ideal) x0 x1 x2 x3 x4 x5) := rfl

/-- The second layer's aggregates are equal. -/
theorem agg64_eq (H : Agrees rw cw ww x1 x2) (x0 : Cert.ReferenceIdeal.S50000x128.Idx → EReal) (x3 : Cert.ReferenceIdeal.S128x128.Idx → EReal) (x4 : Cert.ReferenceIdeal.S128.Idx → EReal) (x5 : Cert.ReferenceIdeal.S128x64.Idx → EReal) :
    Host.scatterAdd (F := Ideal) (φ := .f32) Cert.KernelIdeal.scatter_S50000x64_S851968x1_S851968x64_1_0_0_1
        (broadcastInDim Cert.KernelIdeal.S50000x64 ![] Cert.KernelIdeal.Facts₀.bcast_S_S50000x64 (constant (F := Ideal) Cert.KernelIdeal.S_ .f32 0x00000000#32))
        (idxColK cw) (msgK64 (Cert.ReferenceIdeal.Read.val_main_v52 (F := Ideal) x0 x1 x2 x3 x4 x5) (coeffK (Cert.ReferenceIdeal.Read.val_main_v17 (F := Ideal) x1 x2) rw cw ww) rw)
      = Cert.ReferenceIdeal.Read.val_main_v65 (F := Ideal) x0 x1 x2 x3 x4 x5 := by
  rw [aggR64]
  exact scatterAdd_rows_pad (n := 50000) (F := 64) hE Cert.ReferenceIdeal.scatter_S50000x64_S850000x1_S850000x64_1_0_0_1
    Cert.KernelIdeal.scatter_S50000x64_S851968x1_S851968x64_1_0_0_1 rfl rfl rfl rfl rfl rfl rfl rfl
    Cert.ReferenceIdeal.Facts₀.bcast_S850000_S850000x1_0 Cert.KernelIdeal.Facts₀.bcast_S851968_S851968x1_0
    (Cert.ReferenceIdeal.Read.val_main_v10 (F := Ideal) x1) cw (broadcastInDim Cert.KernelIdeal.S50000x64 ![] Cert.KernelIdeal.Facts₀.bcast_S_S50000x64 (constant (F := Ideal) Cert.KernelIdeal.S_ .f32 0x00000000#32)) (Cert.ReferenceIdeal.Read.val_main_v62 (F := Ideal) x0 x1 x2 x3 x4 x5)
    (msgK64 (Cert.ReferenceIdeal.Read.val_main_v52 (F := Ideal) x0 x1 x2 x3 x4 x5) (coeffK (Cert.ReferenceIdeal.Read.val_main_v17 (F := Ideal) x1 x2) rw cw ww) rw) H.col
    (msg64_agree H x0 x3 x4 x5) (fun e f h => msg64_idle H _ _ e f h)

end Stages

end Cert.EdgeBridge

end
-- ==== Proof.EdgeLists.lean ====
import proofs.«168910_j58506044506599_1_alg».proof.Proof.Gen.KernelIdeal.Frame
import proofs.«168910_j58506044506599_1_alg».proof.Proof.Gen.ReferenceIdeal.Read
import Idealize.ShloMosaic.Lib.Pipeline.Value
import Idealize.ShloMosaic.Lib.ValueIdx
import Idealize.ShloMosaic.Lib.KernelVsHost
import Idealize.ShloMosaic.Lib.StableHlo.Run

noncomputable section

namespace Cert.EdgeLists

open Idealize.ShloMosaic Idealize.ShloMosaic.TcCoe Idealize.SL.Sem Idealize.ShloMosaic.StableHlo
open Idealize.ShloMosaic.ValueIdx

/-! ## The edge list, entry by entry: the given edges first, then one self loop per node -/

/-- The source word of edge `e`: row 0 of the given edge index for a given edge, the node's own number for a self loop. -/
def rowWord (a1 : (⟨2, ![2, 800000]⟩ : Shape).Idx → BitVec 32) (e : Fin 850000) : BitVec 32 :=
  if h : e.val < 800000 then a1 (ix2 (0 : Fin 2) (⟨e.val, h⟩ : Fin 800000)) else BitVec.ofNat 32 (e.val - 800000)

/-- The target word of edge `e`: row 1 of the given edge index for a given edge, the node's own number for a self loop. -/
def colWord (a1 : (⟨2, ![2, 800000]⟩ : Shape).Idx → BitVec 32) (e : Fin 850000) : BitVec 32 :=
  if h : e.val < 800000 then a1 (ix2 (1 : Fin 2) (⟨e.val, h⟩ : Fin 800000)) else BitVec.ofNat 32 (e.val - 800000)

/-- The weight of edge `e`: the given weight for a given edge, the value of the word of one for a self loop. -/
def edgeWeight (a2 : (⟨1, ![800000]⟩ : Shape).Idx → EReal) (e : Fin 850000) : EReal :=
  if h : e.val < 800000 then a2 (ix1 (⟨e.val, h⟩ : Fin 800000)) else Ideal.ofBits .f32 0x3F800000#32

/-! ## The reference's three arrays -/

section Reference
open Cert.ReferenceIdeal Cert.ReferenceIdeal.Gen Cert.ReferenceIdeal.Read

/-- The self loops' two rows read at lane `k`: node `k`'s number, on either row. -/
theorem ref_loops_at (j : S2x50000.Idx) (k : Fin 50000) (h1 : (j 1).val = k.val) :
    val_main_v3 (F := Ideal) j = BitVec.ofNat 32 k.val := by
  unfold val_main_v3
  have hj := (j 0).isLt
  by_cases h : (j 0).val = 0
  · refine (concatenate_pair_apply_left (t := S2x50000) (s₁ := S1x50000) (s₂ := S1x50000) (0 : Fin 2)
      (val_main_v1 (F := Ideal)) (val_main_v2 (F := Ideal)) concatenates_S1x50000_S1x50000_S2x50000_d0 j rfl
      (ix2 (0 : Fin 1) k) (fun b => match b with | ⟨0, _⟩ => h.symm | ⟨1, _⟩ => h1.symm)).trans ?_
    rw [val_main_v1_apply, val_main_v0_apply]
  · have h' : (j 0).val = 1 := by
      have : (j 0).val < 2 := hj
      omega
    refine (concatenate_pair_apply_right (t := S2x50000) (s₁ := S1x50000) (s₂ := S1x50000) (0 : Fin 2)
      (val_main_v1 (F := Ideal)) (val_main_v2 (F := Ideal)) concatenates_S1x50000_S1x50000_S2x50000_d0 j rfl rfl
      (ix2 (0 : Fin 1) k) (fun b hb => match b, hb with | ⟨0, _⟩, hb => (hb rfl).elim | ⟨1, _⟩, _ => h1.symm)
      (by show 0 + 1 = (j 0).val; omega)).trans ?_
    rw [val_main_v2_apply, val_main_v0_apply]

/-- The joined edge index at `(r, k)`, `k` among the given edges: the given edge index there. -/
theorem ref_index_left (a1 : S2x800000.Idx → BitVec 32) (j : S2x850000.Idx) (r : Fin 2) (k : Fin 800000)
    (h0 : (j 0).val = r.val) (h1 : (j 1).val = k.val) : val_main_v4 (F := Ideal) a1 j = a1 (ix2 r k) := by
  unfold val_main_v4
  exact concatenate_pair_apply_left (t := S2x850000) (s₁ := S2x800000) (s₂ := S2x50000) (1 : Fin 2) a1
    (val_main_v3 (F := Ideal)) concatenates_S2x800000_S2x50000_S2x850000_d1 j rfl (ix2 r k)
    (fun b => match b with | ⟨0, _⟩ => h0.symm | ⟨1, _⟩ => h1.symm)

/-- The joined edge index at lane `800000 + k`: node `k`'s number, on either row. -/
theorem ref_index_right (a1 : S2x800000.Idx → BitVec 32) (j : S2x850000.Idx) (k : Fin 50000)
    (h1 : (j 1).val = k.val + 800000) :
    val_main_v4 (F := Ideal) a1 j = BitVec.ofNat 32 k.val := by
  unfold val_main_v4
  refine (concatenate_pair_apply_right (t := S2x850000) (s₁ := S2x800000) (s₂ := S2x50000) (1 : Fin 2) a1
    (val_main_v3 (F := Ideal)) concatenates_S2x800000_S2x50000_S2x850000_d1 j rfl rfl (ix2 (j 0) k)
    (fun b hb => match b, hb with | ⟨0, _⟩, _ => rfl | ⟨1, _⟩, hb => (hb rfl).elim) h1.symm).trans ?_
  exact ref_loops_at _ k rfl

/-- The reference's source words are the edge list's. -/
theorem ref_row (a1 : S2x800000.Idx → BitVec 32) (e : Fin 850000) :
    val_main_v8 (F := Ideal) a1 (ix1 e) = rowWord a1 e := by
  rw [val_main_v8_apply, val_main_v7_apply]
  unfold rowWord
  have he := e.isLt
  by_cases h : e.val < 800000
  · rw [dif_pos h]
    exact ref_index_left a1 _ 0 ⟨e.val, h⟩ rfl (by show e.val % 850000 = e.val; omega)
  · rw [dif_neg h]
    exact ref_index_right a1 _ ⟨e.val - 800000, by omega⟩ (by show e.val % 850000 = e.val - 800000 + 800000; omega)

/-- The reference's target words are the edge list's. -/
theorem ref_col (a1 : S2x800000.Idx → BitVec 32) (e : Fin 850000) :
    val_main_v10 (F := Ideal) a1 (ix1 e) = colWord a1 e := by
  rw [val_main_v10_apply, val_main_v9_apply]
  unfold colWord
  have he := e.isLt
  by_cases h : e.val < 800000
  · rw [dif_pos h]
    exact ref_index_left a1 _ 1 ⟨e.val, h⟩ rfl (by show e.val % 850000 = e.val; omega)
  · rw [dif_neg h]
    exact ref_index_right a1 _ ⟨e.val - 800000, by omega⟩ (by show e.val % 850000 = e.val - 800000 + 800000; omega)

/-- The reference's weights are the edge list's. -/
theorem ref_ew (a2 : S800000.Idx → EReal) (e : Fin 850000) :
    val_main_v6 (F := Ideal) a2 (ix1 e) = edgeWeight a2 e := by
  unfold val_main_v6 edgeWeight
  have he := e.isLt
  by_cases h : e.val < 800000
  · rw [dif_pos h]
    exact concatenate_pair_apply_left (t := S850000) (s₁ := S800000) (s₂ := S50000) (0 : Fin 1) a2
      (val_main_v5 (F := Ideal)) concatenates_S800000_S50000_S850000_d0 (ix1 e) rfl
      (ix1 (⟨e.val, h⟩ : Fin 800000)) (fun b => match b with | ⟨0, _⟩ => rfl)
  · rw [dif_neg h]
    have hk : e.val - 800000 < 50000 := by omega
    refine (concatenate_pair_apply_right (t := S850000) (s₁ := S800000) (s₂ := S50000) (0 : Fin 1) a2
      (val_main_v5 (F := Ideal)) concatenates_S800000_S50000_S850000_d0 (ix1 e) rfl rfl
      (ix1 (⟨e.val - 800000, hk⟩ : Fin 50000)) (fun b hb => (hb (Fin.ext (by have hb1 : b.val < 1 := b.isLt; show b.val = 0; omega))).elim)
      (by show e.val - 800000 + 800000 = e.val; omega)).trans ?_
    rw [val_main_v5_apply, val_main_cst_apply]
    rfl

end Reference

/-! ## The kernel's three arrays: the same lists, padded with zeros to 851968 entries -/

section Kernel
open Cert.KernelIdeal Cert.KernelIdeal.Gen

/-- The padded length is not below the edge count. -/
theorem len_le : 850000 ≤ 851968 := by decide

/-! ### One array at an index -/

/-- Row 0 of the given edge index flattened, then the node numbers, at entry `e`: the source word. -/
theorem rows_at (x : S2x800000.Idx → BitVec 32) (e : Fin 850000) :
    concatenate S850000 0 [⟨S800000, shapeCast S800000 (extractStridedSlice S1x800000 ![0, 0] x slices_S2x800000_S1x800000_0_0) shapeCasts_S1x800000_S800000⟩, ⟨S50000, iotaInDim S50000 32 0⟩] concatenates_S800000_S50000_S850000_d0 (ix1 e)
      = rowWord x e := by
  unfold rowWord
  have he := e.isLt
  by_cases h : e.val < 800000
  · rw [dif_pos h]
    refine (concatenate_pair_apply_left (t := S850000) (s₁ := S800000) (s₂ := S50000) (0 : Fin 1) _ _
      concatenates_S800000_S50000_S850000_d0 (ix1 e) rfl (ix1 (⟨e.val, h⟩ : Fin 800000))
      (fun b => match b with | ⟨0, _⟩ => rfl)).trans ?_
    refine (shapeCast_apply _ shapeCasts_S1x800000_S800000 (ix1 (⟨e.val, h⟩ : Fin 800000))
      (ix2 (0 : Fin 1) (⟨e.val, h⟩ : Fin 800000))
      (by rewrite [Shape.rowMajor_val_two, Shape.rowMajor_val_one]; show 0 * 800000 + e.val = e.val; omega)).trans ?_
    exact extractStridedSlice_apply ![0, 0] x slices_S2x800000_S1x800000_0_0 (ix2 (0 : Fin 1) (⟨e.val, h⟩ : Fin 800000))
      (ix2 (0 : Fin 2) (⟨e.val, h⟩ : Fin 800000))
      (fun a => match a with | ⟨0, _⟩ => by show 0 = 0 + 0; omega | ⟨1, _⟩ => by show e.val = 0 + e.val; omega)
  · rw [dif_neg h]
    have hk : e.val - 800000 < 50000 := by omega
    exact concatenate_pair_apply_right (t := S850000) (s₁ := S800000) (s₂ := S50000) (0 : Fin 1) _ (iotaInDim S50000 32 0)
      concatenates_S800000_S50000_S850000_d0 (ix1 e) rfl rfl (ix1 (⟨e.val - 800000, hk⟩ : Fin 50000))
      (fun b hb => (hb (Fin.ext (by have hb1 : b.val < 1 := b.isLt; show b.val = 0; omega))).elim)
      (by show e.val - 800000 + 800000 = e.val; omega)

/-- Row 1 of the given edge index flattened, then the node numbers, at entry `e`: the target word. -/
theorem cols_at (x : S2x800000.Idx → BitVec 32) (e : Fin 850000) :
    concatenate S850000 0 [⟨S800000, shapeCast S800000 (extractStridedSlice S1x800000 ![1, 0] x slices_S2x800000_S1x800000_1_0) shapeCasts_S1x800000_S800000⟩, ⟨S50000, iotaInDim S50000 32 0⟩] concatenates_S800000_S50000_S850000_d0 (ix1 e)
      = colWord x e := by
  unfold colWord
  have he := e.isLt
  by_cases h : e.val < 800000
  · rw [dif_pos h]
    refine (concatenate_pair_apply_left (t := S850000) (s₁ := S800000) (s₂ := S50000) (0 : Fin 1) _ _
      concatenates_S800000_S50000_S850000_d0 (ix1 e) rfl (ix1 (⟨e.val, h⟩ : Fin 800000))
      (fun b => match b with | ⟨0, _⟩ => rfl)).trans ?_
    refine (shapeCast_apply _ shapeCasts_S1x800000_S800000 (ix1 (⟨e.val, h⟩ : Fin 800000))
      (ix2 (0 : Fin 1) (⟨e.val, h⟩ : Fin 800000))
      (by rewrite [Shape.rowMajor_val_two, Shape.rowMajor_val_one]; show 0 * 800000 + e.val = e.val; omega)).trans ?_
    exact extractStridedSlice_apply ![1, 0] x slices_S2x800000_S1x800000_1_0 (ix2 (0 : Fin 1) (⟨e.val, h⟩ : Fin 800000))
      (ix2 (1 : Fin 2) (⟨e.val, h⟩ : Fin 800000))
      (fun a => match a with | ⟨0, _⟩ => by show 1 = 1 + 0; omega | ⟨1, _⟩ => by show e.val = 0 + e.val; omega)
  · rw [dif_neg h]
    have hk : e.val - 800000 < 50000 := by omega
    exact concatenate_pair_apply_right (t := S850000) (s₁ := S800000) (s₂ := S50000) (0 : Fin 1) _ (iotaInDim S50000 32 0)
      concatenates_S800000_S50000_S850000_d0 (ix1 e) rfl rfl (ix1 (⟨e.val - 800000, hk⟩ : Fin 50000))
      (fun b hb => (hb (Fin.ext (by have hb1 : b.val < 1 := b.isLt; show b.val = 0; omega))).elim)
      (by show e.val - 800000 + 800000 = e.val; omega)

/-- The given weights, then the value of the word of one per node, at entry `e`: the edge's weight. -/
theorem weights_at (x : S800000.Idx → EReal) (e : Fin 850000) :
    concatenate S850000 0 [⟨S800000, x⟩, ⟨S50000, broadcastInDim S50000 ![] bcast_S_S50000 (constant (F := Ideal) S_ .f32 0x3F800000#32)⟩] concatenates_S800000_S50000_S850000_d0 (ix1 e)
      = edgeWeight x e := by
  unfold edgeWeight
  have he := e.isLt
  by_cases h : e.val < 800000
  · rw [dif_pos h]
    exact concatenate_pair_apply_left (t := S850000) (s₁ := S800000) (s₂ := S50000) (0 : Fin 1) x _
      concatenates_S800000_S50000_S850000_d0 (ix1 e) rfl (ix1 (⟨e.val, h⟩ : Fin 800000))
      (fun b => match b with | ⟨0, _⟩ => rfl)
  · rw [dif_neg h]
    have hk : e.val - 800000 < 50000 := by omega
    refine (concatenate_pair_apply_right (t := S850000) (s₁ := S800000) (s₂ := S50000) (0 : Fin 1) x _
      concatenates_S800000_S50000_S850000_d0 (ix1 e) rfl rfl (ix1 (⟨e.val - 800000, hk⟩ : Fin 50000))
      (fun b hb => (hb (Fin.ext (by have hb1 : b.val < 1 := b.isLt; show b.val = 0; omega))).elim)
      (by show e.val - 800000 + 800000 = e.val; omega)).trans ?_
    exact broadcastInDim_apply ![] bcast_S_S50000 (constant (F := Ideal) S_ .f32 0x3F800000#32)
      (ix1 (⟨e.val - 800000, hk⟩ : Fin 50000)) (fun a => a.elim0 : S_.Idx) (fun a => a.elim0)

/-- A list padded at its end, read below the list's length: the list's entry. -/
theorem pad_head {α : Type} (x : S850000.Idx → α) (v : S_.Idx → α) (e : Fin 850000) :
    pad S851968 ![0] ![1968] ![0] x v pads_S850000_S851968_019680 h_S_ (ix1 (Fin.castLE len_le e)) = x (ix1 e) :=
  pad_apply_of_inside ![0] ![1968] ![0] x v pads_S850000_S851968_019680 h_S_ _ (ix1 e)
    (fun a => by
      have ha : a = 0 := Fin.ext (by have h1 : a.val < 1 := a.isLt; show a.val = 0; omega)
      subst ha
      show e.val = 0 + e.val * (0 + 1); omega)

/-- A list padded at its end, read at or past the list's length: the padding value. -/
theorem pad_tail {α : Type} (x : S850000.Idx → α) (v : S_.Idx → α) (e : Fin 851968) (h : 850000 ≤ e.val) :
    pad S851968 ![0] ![1968] ![0] x v pads_S850000_S851968_019680 h_S_ (ix1 e) = v (Shape.Idx.first h_S_) :=
  pad_apply_of_not_inside ![0] ![1968] ![0] x v pads_S850000_S851968_019680 h_S_ _ (0 : Fin 1)
    (fun hin => by
      have h3 : (e.val - 0) / (0 + 1) < 850000 := hin.2.2
      omega)

/-! ### The host stretches, one at a time, over any contents before them -/

variable (U : Valuation τ sig (Elt Ideal))

theorem join_rows : (StableHlo.after (hostOps0 (F := Ideal)) U (Proc.devRef .tc main_v5) : S850000.Idx → BitVec 32)
    = concatenate S850000 0 [⟨S800000, shapeCast S800000 (extractStridedSlice S1x800000 ![0, 0] (U (Proc.devRef .tc main_arg1) : S2x800000.Idx → BitVec 32) slices_S2x800000_S1x800000_0_0) shapeCasts_S1x800000_S800000⟩, ⟨S50000, iotaInDim S50000 32 0⟩] concatenates_S800000_S50000_S850000_d0 := by
  after_results
  rfl
theorem join_cols : (StableHlo.after (hostOps0 (F := Ideal)) U (Proc.devRef .tc main_v6) : S850000.Idx → BitVec 32)
    = concatenate S850000 0 [⟨S800000, shapeCast S800000 (extractStridedSlice S1x800000 ![1, 0] (U (Proc.devRef .tc main_arg1) : S2x800000.Idx → BitVec 32) slices_S2x800000_S1x800000_1_0) shapeCasts_S1x800000_S800000⟩, ⟨S50000, iotaInDim S50000 32 0⟩] concatenates_S800000_S50000_S850000_d0 := by
  after_results
  rfl
theorem join_weights : (StableHlo.after (hostOps0 (F := Ideal)) U (Proc.devRef .tc main_v8) : S850000.Idx → EReal)
    = concatenate S850000 0 [⟨S800000, (U (Proc.devRef .tc main_arg2) : S800000.Idx → EReal)⟩, ⟨S50000, broadcastInDim S50000 ![] bcast_S_S50000 (constant (F := Ideal) S_ .f32 0x3F800000#32)⟩] concatenates_S800000_S50000_S850000_d0 := by
  after_results
theorem join_zero : (StableHlo.after (hostOps0 (F := Ideal)) U (Proc.devRef .tc main_c) : S_.Idx → BitVec 32)
    = constantI S_ 32 0#32 := by
  after_results

theorem pad_rows : (StableHlo.after (hostOps0_1 (F := Ideal)) U (Proc.devRef .tc main_v9) : S851968.Idx → BitVec 32)
    = pad S851968 ![0] ![1968] ![0] (U (Proc.devRef .tc main_v5) : S850000.Idx → BitVec 32)
        (id (U (Proc.devRef .tc main_c)) : S_.Idx → BitVec 32) pads_S850000_S851968_019680 h_S_ := by
  after_results
  rfl
theorem pad_rows_keeps_cols : StableHlo.after (hostOps0_1 (F := Ideal)) U (Proc.devRef .tc main_v6) = U (Proc.devRef .tc main_v6) := by
  after_results
theorem pad_rows_keeps_weights : StableHlo.after (hostOps0_1 (F := Ideal)) U (Proc.devRef .tc main_v8) = U (Proc.devRef .tc main_v8) := by
  after_results

theorem zero2 : (StableHlo.after (hostOps0_2 (F := Ideal)) U (Proc.devRef .tc main_c_0) : S_.Idx → BitVec 32)
    = constantI S_ 32 0#32 := by
  after_results
theorem zero2_keeps_rows : StableHlo.after (hostOps0_2 (F := Ideal)) U (Proc.devRef .tc main_v9) = U (Proc.devRef .tc main_v9) := by
  after_results
theorem zero2_keeps_cols : StableHlo.after (hostOps0_2 (F := Ideal)) U (Proc.devRef .tc main_v6) = U (Proc.devRef .tc main_v6) := by
  after_results
theorem zero2_keeps_weights : StableHlo.after (hostOps0_2 (F := Ideal)) U (Proc.devRef .tc main_v8) = U (Proc.devRef .tc main_v8) := by
  after_results

theorem pad_cols : (StableHlo.after (hostOps0_3 (F := Ideal)) U (Proc.devRef .tc main_v10) : S851968.Idx → BitVec 32)
    = pad S851968 ![0] ![1968] ![0] (U (Proc.devRef .tc main_v6) : S850000.Idx → BitVec 32)
        (id (U (Proc.devRef .tc main_c_0)) : S_.Idx → BitVec 32) pads_S850000_S851968_019680 h_S_ := by
  after_results
  rfl
theorem pad_cols_keeps_rows : StableHlo.after (hostOps0_3 (F := Ideal)) U (Proc.devRef .tc main_v9) = U (Proc.devRef .tc main_v9) := by
  after_results
theorem pad_cols_keeps_weights : StableHlo.after (hostOps0_3 (F := Ideal)) U (Proc.devRef .tc main_v8) = U (Proc.devRef .tc main_v8) := by
  after_results

theorem zero4 : (StableHlo.after (hostOps0_4 (F := Ideal)) U (Proc.devRef .tc main_cst_1) : S_.Idx → EReal)
    = constant (F := Ideal) S_ .f32 0x00000000#32 := by
  after_results
theorem zero4_keeps_rows : StableHlo.after (hostOps0_4 (F := Ideal)) U (Proc.devRef .tc main_v9) = U (Proc.devRef .tc main_v9) := by
  after_results
theorem zero4_keeps_cols : StableHlo.after (hostOps0_4 (F := Ideal)) U (Proc.devRef .tc main_v10) = U (Proc.devRef .tc main_v10) := by
  after_results
theorem zero4_keeps_weights : StableHlo.after (hostOps0_4 (F := Ideal)) U (Proc.devRef .tc main_v8) = U (Proc.devRef .tc main_v8) := by
  after_results

theorem pad_weights : (StableHlo.after (hostOps0_5 (F := Ideal)) U (Proc.devRef .tc main_v11) : S851968.Idx → EReal)
    = pad S851968 ![0] ![1968] ![0] (U (Proc.devRef .tc main_v8) : S850000.Idx → EReal)
        (id (U (Proc.devRef .tc main_cst_1)) : S_.Idx → EReal) pads_S850000_S851968_019680 h_S_ := by
  after_results
  rfl
theorem pad_weights_keeps_rows : StableHlo.after (hostOps0_5 (F := Ideal)) U (Proc.devRef .tc main_v9) = U (Proc.devRef .tc main_v9) := by
  after_results
theorem pad_weights_keeps_cols : StableHlo.after (hostOps0_5 (F := Ideal)) U (Proc.devRef .tc main_v10) = U (Proc.devRef .tc main_v10) := by
  after_results

/-! ### The six stretches composed -/

/-- The contents after the six host stretches that build and pad the edge list, from any contents before them. -/
abbrev padded (U0 : Valuation τ sig (Elt Ideal)) : Valuation τ sig (Elt Ideal) :=
  StableHlo.after (hostOps0_5 (F := Ideal)) (StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) U0)))))

variable (U0 : Valuation τ sig (Elt Ideal))

/-- The padded source words: the joined source words padded with the zero word. -/
theorem padded_rows : (padded U0 (Proc.devRef .tc main_v9) : S851968.Idx → BitVec 32)
    = pad S851968 ![0] ![1968] ![0]
        (concatenate S850000 0 [⟨S800000, shapeCast S800000 (extractStridedSlice S1x800000 ![0, 0] (U0 (Proc.devRef .tc main_arg1) : S2x800000.Idx → BitVec 32) slices_S2x800000_S1x800000_0_0) shapeCasts_S1x800000_S800000⟩, ⟨S50000, iotaInDim S50000 32 0⟩] concatenates_S800000_S50000_S850000_d0)
        (id (constantI S_ 32 0#32)) pads_S850000_S851968_019680 h_S_ := by
  show StableHlo.after (hostOps0_5 (F := Ideal)) _ (Proc.devRef .tc main_v9) = _
  rw [pad_weights_keeps_rows, zero4_keeps_rows, pad_cols_keeps_rows, zero2_keeps_rows, pad_rows, join_rows, join_zero]

/-- The padded target words: the joined target words padded with the zero word. -/
theorem padded_cols : (padded U0 (Proc.devRef .tc main_v10) : S851968.Idx → BitVec 32)
    = pad S851968 ![0] ![1968] ![0]
        (concatenate S850000 0 [⟨S800000, shapeCast S800000 (extractStridedSlice S1x800000 ![1, 0] (U0 (Proc.devRef .tc main_arg1) : S2x800000.Idx → BitVec 32) slices_S2x800000_S1x800000_1_0) shapeCasts_S1x800000_S800000⟩, ⟨S50000, iotaInDim S50000 32 0⟩] concatenates_S800000_S50000_S850000_d0)
        (id (constantI S_ 32 0#32)) pads_S850000_S851968_019680 h_S_ := by
  show StableHlo.after (hostOps0_5 (F := Ideal)) _ (Proc.devRef .tc main_v10) = _
  rw [pad_weights_keeps_cols, zero4_keeps_cols, pad_cols, zero2, zero2_keeps_cols, pad_rows_keeps_cols, join_cols]

/-- The padded weights: the joined weights padded with the value of the zero word. -/
theorem padded_weights : (padded U0 (Proc.devRef .tc main_v11) : S851968.Idx → EReal)
    = pad S851968 ![0] ![1968] ![0]
        (concatenate S850000 0 [⟨S800000, (U0 (Proc.devRef .tc main_arg2) : S800000.Idx → EReal)⟩, ⟨S50000, broadcastInDim S50000 ![] bcast_S_S50000 (constant (F := Ideal) S_ .f32 0x3F800000#32)⟩] concatenates_S800000_S50000_S850000_d0)
        (id (constant (F := Ideal) S_ .f32 0x00000000#32)) pads_S850000_S851968_019680 h_S_ := by
  show StableHlo.after (hostOps0_5 (F := Ideal)) _ (Proc.devRef .tc main_v11) = _
  rw [pad_weights, zero4, zero4_keeps_weights, pad_cols_keeps_weights, zero2_keeps_weights, pad_rows_keeps_weights, join_weights]

/-- The kernel's padded source words, below the edge count, are the edge list's. -/
theorem ker_row (e : Fin 850000) :
    (padded U0 (Proc.devRef .tc main_v9) : S851968.Idx → BitVec 32) (ix1 (Fin.castLE len_le e))
      = rowWord (U0 (Proc.devRef .tc main_arg1)) e := by
  rw [padded_rows, pad_head, rows_at]

/-- Past the edge count they are the zero word. -/
theorem ker_row_tail (e : Fin 851968) (h : 850000 ≤ e.val) :
    (padded U0 (Proc.devRef .tc main_v9) : S851968.Idx → BitVec 32) (ix1 e) = 0#32 := by
  rw [padded_rows, pad_tail _ _ e h]
  rfl

/-- The kernel's padded target words, below the edge count, are the edge list's. -/
theorem ker_col (e : Fin 850000) :
    (padded U0 (Proc.devRef .tc main_v10) : S851968.Idx → BitVec 32) (ix1 (Fin.castLE len_le e))
      = colWord (U0 (Proc.devRef .tc main_arg1)) e := by
  rw [padded_cols, pad_head, cols_at]

/-- Past the edge count they are the zero word. -/
theorem ker_col_tail (e : Fin 851968) (h : 850000 ≤ e.val) :
    (padded U0 (Proc.devRef .tc main_v10) : S851968.Idx → BitVec 32) (ix1 e) = 0#32 := by
  rw [padded_cols, pad_tail _ _ e h]
  rfl

/-- The kernel's padded weights, below the edge count, are the edge list's. -/
theorem ker_ew (e : Fin 850000) :
    (padded U0 (Proc.devRef .tc main_v11) : S851968.Idx → EReal) (ix1 (Fin.castLE len_le e))
      = edgeWeight (U0 (Proc.devRef .tc main_arg2)) e := by
  rw [padded_weights, pad_head, weights_at]

/-- Past the edge count they are the value of the zero word. -/
theorem ker_ew_tail (e : Fin 851968) (h : 850000 ≤ e.val) :
    (padded U0 (Proc.devRef .tc main_v11) : S851968.Idx → EReal) (ix1 e) = Ideal.ofBits .f32 0x00000000#32 := by
  rw [padded_weights, pad_tail _ _ e h]
  rfl

end Kernel

end Cert.EdgeLists

end
-- ==== Proof.RefStages.lean ====
import proofs.«168910_j58506044506599_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefStages

open Cert.ReferenceIdeal Cert.ReferenceIdeal.Read Idealize.ShloMosaic Idealize.ShloMosaic.ValueIdx

/-- The first linear layer of the reference: rows of the features times the first weight matrix. -/
theorem ref_lin1 (x0 : S50000x128.Idx → EReal) (x3 : S128x128.Idx → EReal) :
    val_main_v34 (F := Ideal) x0 x3 = fun i => ∑ k : Fin 128, x0 (ix2 (i 0) k) * x3 (ix2 k (i 1)) := by
  funext i
  refine (val_main_v34_apply x0 x3 i).trans (Finset.sum_congr rfl fun k _ => ?_)
  have el : lidx_main_v34 i k = ix2 (i 0) k :=
    funext fun a => Fin.ext (by match a with | ⟨0, _⟩ => rfl | ⟨1, _⟩ => rfl)
  have er : ridx_main_v34 i k = ix2 k (i 1) :=
    funext fun a => Fin.ext (by match a with | ⟨0, _⟩ => rfl | ⟨1, _⟩ => rfl)
  rw [el, er]
  rfl

/-- The hidden layer of the reference: the aggregated first layer plus the bias of its column, bounded below by zero. -/
theorem ref_hidden (x0 : S50000x128.Idx → EReal) (x1 : (⟨S2x800000, .i32⟩ : BufTy).Contents (Elt Ideal))
    (x2 : S800000.Idx → EReal) (x3 : S128x128.Idx → EReal) (x4 : S128.Idx → EReal) :
    val_main_v51 (F := Ideal) x0 x1 x2 x3 x4
      = fun i => max (val_main_v47 (F := Ideal) x0 x1 x2 x3 i + x4 (ix1 (i 1))) (Ideal.ofBits .f32 0x00000000#32) := by
  funext i
  have e : idx_main_v48 (idx_main_v49 i) = ix1 (i 1) :=
    funext fun a => Fin.ext (by match a with | ⟨0, _⟩ => rfl)
  rw [val_main_v51_apply, val_main_v50_apply, val_main_call1_v0_apply, val_main_call1_cst_apply, val_main_v49_apply,
    val_main_v48_apply, e]
  rfl

/-- The second linear layer of the reference: rows of the hidden layer times the second weight matrix. -/
theorem ref_lin2 (x0 : S50000x128.Idx → EReal) (x1 : (⟨S2x800000, .i32⟩ : BufTy).Contents (Elt Ideal))
    (x2 : S800000.Idx → EReal) (x3 : S128x128.Idx → EReal) (x4 : S128.Idx → EReal) (x5 : S128x64.Idx → EReal) :
    val_main_v52 (F := Ideal) x0 x1 x2 x3 x4 x5
      = fun i => ∑ k : Fin 128, val_main_v51 (F := Ideal) x0 x1 x2 x3 x4 (ix2 (i 0) k) * x5 (ix2 k (i 1)) := by
  funext i
  refine (val_main_v52_apply x0 x1 x2 x3 x4 x5 i).trans (Finset.sum_congr rfl fun k _ => ?_)
  have el : lidx_main_v52 i k = ix2 (i 0) k :=
    funext fun a => Fin.ext (by match a with | ⟨0, _⟩ => rfl | ⟨1, _⟩ => rfl)
  have er : ridx_main_v52 i k = ix2 k (i 1) :=
    funext fun a => Fin.ext (by match a with | ⟨0, _⟩ => rfl | ⟨1, _⟩ => rfl)
  rw [el, er]
  rfl

/-- The reference's output at row `p`, column `q`: the aggregated second layer plus the bias of its column, over the
    larger of the Euclidean norm of that biased row and the printed constant. -/
theorem ref_out_apply (x0 : S50000x128.Idx → EReal) (x1 : (⟨S2x800000, .i32⟩ : BufTy).Contents (Elt Ideal))
    (x2 : S800000.Idx → EReal) (x3 : S128x128.Idx → EReal) (x4 : S128.Idx → EReal) (x5 : S128x64.Idx → EReal)
    (x6 : S64.Idx → EReal) (p : Fin 50000) (q : Fin 64) :
    val_main_v73 (F := Ideal) x0 x1 x2 x3 x4 x5 x6 (ix2 p q)
      = Ideal.div (val_main_v65 (F := Ideal) x0 x1 x2 x3 x4 x5 (ix2 p q) + x6 (ix1 q))
          (max (Ideal.sqrt (∑ k : Fin 64, (val_main_v65 (F := Ideal) x0 x1 x2 x3 x4 x5 (ix2 p k) + x6 (ix1 k))
              * (val_main_v65 (F := Ideal) x0 x1 x2 x3 x4 x5 (ix2 p k) + x6 (ix1 k))))
            (Ideal.ofBits .f32 0x2B8CBCCC#32)) := by
  have hv68 : ∀ (a : Fin 50000) (b : Fin 64), val_main_v68 (F := Ideal) x0 x1 x2 x3 x4 x5 x6 (ix2 a b)
      = val_main_v65 (F := Ideal) x0 x1 x2 x3 x4 x5 (ix2 a b) + x6 (ix1 b) := fun a b => by
    have e : idx_main_v66 (idx_main_v67 (ix2 a b)) = ix1 b :=
      funext fun c => Fin.ext (by match c with | ⟨0, _⟩ => rfl)
    rw [val_main_v68_apply, val_main_v67_apply, val_main_v66_apply, e]
    rfl
  have hidx : ∀ k : Fin 64, idx_main_call2_v1 (idx_main_call2_v2 (idx_main_v72 (ix2 p q))) k = ix2 p k := fun k =>
    funext fun c => Fin.ext (by match c with | ⟨0, _⟩ => rfl | ⟨1, _⟩ => rfl)
  rw [val_main_v73_apply, val_main_v72_apply, val_main_v71_apply, val_main_v70_apply, val_main_cst_12_apply,
    val_main_v69_apply, val_main_call2_v2_apply, val_main_call2_v1_apply, val_main_call2_cst_apply, hv68 p q]
  simp only [Ideal.hostDivf_def, Ideal.hostUnary_sqrt_def, Ideal.maximumf_def, Ideal.ofBits_def, Ideal.ofBits_zero_f32,
    zero_add]
  refine congrArg (fun s => Ideal.div (val_main_v65 (F := Ideal) x0 x1 x2 x3 x4 x5 (ix2 p q) + x6 (ix1 q))
    (max (Ideal.sqrt s) (Ideal.ofBits .f32 0x2B8CBCCC#32))) (Finset.sum_congr rfl fun k _ => ?_)
  rw [hidx k, val_main_call2_v0_apply, hv68 p k]
  rfl

/-- The output of the reference as one function: with `v` the aggregated second layer plus the bias of its column, each
    entry of `v` over the larger of its row's Euclidean norm and the printed constant. -/
theorem ref_out (x0 : S50000x128.Idx → EReal) (x1 : (⟨S2x800000, .i32⟩ : BufTy).Contents (Elt Ideal))
    (x2 : S800000.Idx → EReal) (x3 : S128x128.Idx → EReal) (x4 : S128.Idx → EReal) (x5 : S128x64.Idx → EReal)
    (x6 : S64.Idx → EReal) (v : S50000x64.Idx → EReal)
    (hv : v = fun j => val_main_v65 (F := Ideal) x0 x1 x2 x3 x4 x5 j + x6 (ix1 (j 1))) :
    val_main_v73 (F := Ideal) x0 x1 x2 x3 x4 x5 x6
      = fun i => Ideal.div (v i)
          (max (Ideal.sqrt (∑ k : Fin 64, v (ix2 (i 0) k) * v (ix2 (i 0) k))) (Ideal.ofBits .f32 0x2B8CBCCC#32)) := by
  subst hv
  funext i
  obtain ⟨p, q, rfl⟩ : ∃ (p : Fin 50000) (q : Fin 64), i = ix2 p q := ⟨i 0, i 1, eq_ix2 i⟩
  exact ref_out_apply x0 x1 x2 x3 x4 x5 x6 p q

/-- A bias vector of length 128 cast to one row reads, in column `f`, its entry `f`. -/
theorem bias_row128 (x4 : S128.Idx → EReal) (h : S128.ShapeCasts S1x128) (f : Fin 128) :
    shapeCast S1x128 x4 h (ix2 (0 : Fin 1) f) = x4 (ix1 f) :=
  shapeCast_a_1a_apply x4 h 0 f

/-- A bias vector of length 64 cast to one row reads, in column `f`, its entry `f`. -/
theorem bias_row64 (x6 : S64.Idx → EReal) (h : S64.ShapeCasts S1x64) (f : Fin 64) :
    shapeCast S1x64 x6 h (ix2 (0 : Fin 1) f) = x6 (ix1 f) :=
  shapeCast_a_1a_apply x6 h 0 f

end Cert.RefStages

end
-- ==== Proof.KernelResult.lean ====
/-
  The idealized kernel's result is the reference's last stage of the kernel's own arguments.

  Read back through its twenty segments, the result buffer is the last region's bias-and-normalise of the second
  aggregate; that aggregate is an accumulating scatter of the second layer's message rows through the col words;
  the messages are gathered rows of the second matrix product scaled by the edge coefficients; and so on down to the
  three padded edge arrays. Each stage is identified with the reference's: the padded arrays agree with the
  reference's on the first 850000 edges and carry weight 0 on the idle ones, so degrees, coefficients on real edges,
  and both aggregates coincide; the matrix products, the bias-and-relu and the normalisation are the same functions
  of equal arrays.
-/
import proofs.«168910_j58506044506599_1_alg».proof.Proof.KernelValue
import proofs.«168910_j58506044506599_1_alg».proof.Proof.EdgeLayer1
import proofs.«168910_j58506044506599_1_alg».proof.Proof.EdgeLayer2
import proofs.«168910_j58506044506599_1_alg».proof.Proof.EdgeLists
import proofs.«168910_j58506044506599_1_alg».proof.Proof.RefStages

set_option maxRecDepth 65536
set_option maxHeartbeats 2000000

noncomputable section

namespace Cert.KernelResult

open Cert.KernelIdeal Cert.KernelIdeal.Gen
open Idealize.ShloMosaic Idealize.ShloMosaic.TcCoe Idealize.SL.Sem Idealize.ShloMosaic.StableHlo Idealize.ShloMosaic.ValueIdx
open Cert.KernelIdeal.HostStages Cert.KernelIdeal.Boundary Cert.EdgeBridge

variable (m : (ℓ : Loc nD τ sig) → Buf (Elt Ideal) ℓ) (ρ : Dev nD → PrngReg) (c : Dev nD)

/-- The padded edge arrays agree with the reference's edge arrays of the same arguments on the first 850000 edges, and
    the idle edges weigh 0. -/
theorem edges_agree : Agrees (W6 (F := Ideal) m ρ c (Proc.devRef .tc main_v9)) (W6 (F := Ideal) m ρ c (Proc.devRef .tc main_v10)) (W6 (F := Ideal) m ρ c (Proc.devRef .tc main_v11)) (m ((c.tc : Thread nD τ).loc main_arg1)) (m ((c.tc : Thread nD τ).loc main_arg2)) where
  row e := (Cert.EdgeLists.ker_row (W0 (F := Ideal) m ρ c) e).trans (Cert.EdgeLists.ref_row (m ((c.tc : Thread nD τ).loc main_arg1)) e).symm
  col e := (Cert.EdgeLists.ker_col (W0 (F := Ideal) m ρ c) e).trans (Cert.EdgeLists.ref_col (m ((c.tc : Thread nD τ).loc main_arg1)) e).symm
  ew e := (Cert.EdgeLists.ker_ew (W0 (F := Ideal) m ρ c) e).trans (Cert.EdgeLists.ref_ew (m ((c.tc : Thread nD τ).loc main_arg2)) e).symm
  idle e h := (Cert.EdgeLists.ker_ew_tail (W0 (F := Ideal) m ρ c) e h).trans Ideal.ofBits_zero_f32

theorem dinv_stage : W8 (F := Ideal) m ρ c (Proc.devRef .tc main_v18) = Cert.ReferenceIdeal.Read.val_main_v17 (F := Ideal) (m ((c.tc : Thread nD τ).loc main_arg1)) (m ((c.tc : Thread nD τ).loc main_arg2)) :=
  (val8_v18 m ρ c).trans (dinv_eq (edges_agree m ρ c))

theorem coeff_stage : W10 (F := Ideal) m ρ c (Proc.devRef .tc main_v36) = (coeffK (Cert.ReferenceIdeal.Read.val_main_v17 (F := Ideal) (m ((c.tc : Thread nD τ).loc main_arg1)) (m ((c.tc : Thread nD τ).loc main_arg2))) (W6 (F := Ideal) m ρ c (Proc.devRef .tc main_v9)) (W6 (F := Ideal) m ρ c (Proc.devRef .tc main_v10)) (W6 (F := Ideal) m ρ c (Proc.devRef .tc main_v11))) := by
  rw [val10_v36 m ρ c, val9_v26 m ρ c, val9_v35 m ρ c, val9_v34 m ρ c, dinv_stage m ρ c,
    keep_main_v9_6_8 m ρ c, keep_main_v10_6_8 m ρ c, keep_main_v11_6_8 m ρ c]
  rfl

theorem lin1_stage : W11 (F := Ideal) m ρ c (Proc.devRef .tc main_v37) = Cert.ReferenceIdeal.Read.val_main_v34 (F := Ideal) (m ((c.tc : Thread nD τ).loc main_arg0)) (m ((c.tc : Thread nD τ).loc main_arg3)) := by
  rw [val11_v37 m ρ c, keep_main_arg0_0_10 m ρ c, keep_main_arg3_0_10 m ρ c]
  exact (Cert.RefStages.ref_lin1 (m ((c.tc : Thread nD τ).loc main_arg0)) (m ((c.tc : Thread nD τ).loc main_arg3))).symm

theorem msg1_stage : W13 (F := Ideal) m ρ c (Proc.devRef .tc main_v45)
    = msgK128 (Cert.ReferenceIdeal.Read.val_main_v34 (F := Ideal) (m ((c.tc : Thread nD τ).loc main_arg0)) (m ((c.tc : Thread nD τ).loc main_arg3))) (coeffK (Cert.ReferenceIdeal.Read.val_main_v17 (F := Ideal) (m ((c.tc : Thread nD τ).loc main_arg1)) (m ((c.tc : Thread nD τ).loc main_arg2))) (W6 (F := Ideal) m ρ c (Proc.devRef .tc main_v9)) (W6 (F := Ideal) m ρ c (Proc.devRef .tc main_v10)) (W6 (F := Ideal) m ρ c (Proc.devRef .tc main_v11))) (W6 (F := Ideal) m ρ c (Proc.devRef .tc main_v9)) := by
  rw [val13_v45 m ρ c, val12_v44 m ρ c, lin1_stage m ρ c, keep_main_v9_8_11 m ρ c, keep_main_v9_6_8 m ρ c,
    keep_main_v36_10_12 m ρ c, coeff_stage m ρ c]
  rfl

theorem agg1_stage : W14 (F := Ideal) m ρ c (Proc.devRef .tc main_v48) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  rw [val14_v48 m ρ c, msg1_stage m ρ c, keep_main_v10_8_13 m ρ c, keep_main_v10_6_8 m ρ c]
  exact agg128_eq (edges_agree m ρ c) (m ((c.tc : Thread nD τ).loc main_arg0)) (m ((c.tc : Thread nD τ).loc main_arg3))

theorem hidden_stage : W15 (F := Ideal) m ρ c (Proc.devRef .tc main_v50) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [val15_v50 m ρ c, agg1_stage m ρ c, val14_v49 m ρ c, keep_main_arg4_0_13 m ρ c, Cert.RefStages.ref_hidden]
  funext i
  exact congrArg (fun t => max (Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) i + t) (Ideal.ofBits .f32 0x00000000#32))
    (Cert.RefStages.bias_row128 (m ((c.tc : Thread nD τ).loc main_arg4)) _ (i 1))

theorem lin2_stage : W16 (F := Ideal) m ρ c (Proc.devRef .tc main_v51) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [val16_v51 m ρ c, hidden_stage m ρ c, keep_main_arg5_0_15 m ρ c]
  exact (Cert.RefStages.ref_lin2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).symm

theorem msg2_stage : W18 (F := Ideal) m ρ c (Proc.devRef .tc main_v59)
    = msgK64 (Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (coeffK (Cert.ReferenceIdeal.Read.val_main_v17 (F := Ideal) (m ((c.tc : Thread nD τ).loc main_arg1)) (m ((c.tc : Thread nD τ).loc main_arg2))) (W6 (F := Ideal) m ρ c (Proc.devRef .tc main_v9)) (W6 (F := Ideal) m ρ c (Proc.devRef .tc main_v10)) (W6 (F := Ideal) m ρ c (Proc.devRef .tc main_v11))) (W6 (F := Ideal) m ρ c (Proc.devRef .tc main_v9)) := by
  rw [val18_v59 m ρ c, val17_v58 m ρ c, lin2_stage m ρ c, keep_main_v9_11_16 m ρ c, keep_main_v9_8_11 m ρ c,
    keep_main_v9_6_8 m ρ c, keep_main_v36_12_17 m ρ c, keep_main_v36_10_12 m ρ c, coeff_stage m ρ c]
  rfl

theorem agg2_stage : W19 (F := Ideal) m ρ c (Proc.devRef .tc main_v62) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [val19_v62 m ρ c, msg2_stage m ρ c, keep_main_v10_13_18 m ρ c, keep_main_v10_8_13 m ρ c, keep_main_v10_6_8 m ρ c]
  exact agg64_eq (edges_agree m ρ c) (m ((c.tc : Thread nD τ).loc main_arg0)) (m ((c.tc : Thread nD τ).loc main_arg3)) (m ((c.tc : Thread nD τ).loc main_arg4)) (m ((c.tc : Thread nD τ).loc main_arg5))

/-- The bias row added to the second aggregate, on both sides. -/
theorem biased_stage :
    Region6.biased (Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
        (shapeCast S1x64 (W0 (F := Ideal) m ρ c (Proc.devRef .tc main_arg6)) shapeCasts_S64_S1x64)
      = fun j => Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) j + (m ((c.tc : Thread nD τ).loc main_arg6)) (ix1 (j 1)) := by
  funext j
  exact congrArg (fun t => Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) j + t)
    (Cert.RefStages.bias_row64 (m ((c.tc : Thread nD τ).loc main_arg6)) _ (j 1))

/-- The kernel's result array is the reference's last stage of the kernel's arguments. -/
theorem result_eq : W20 (F := Ideal) m ρ c (Proc.devRef .tc main_v64)
    = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [val20_v64 m ρ c, agg2_stage m ρ c, val19_v63 m ρ c, keep_main_arg6_0_18 m ρ c,
    Cert.RefStages.ref_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) _ rfl]
  unfold Region6.biasNormalize
  rw [biased_stage m ρ c]

end Cert.KernelResult

end
-- ==== Proof.lean ====
/- Both programs compute two layers of graph convolution with symmetric normalisation on a graph of
   50000 nodes given by 800000 weighted edges, to which one self loop of weight one per node is added. With
   deg(v) the sum of the weights of the edges into v, dinv(v) = deg(v)^(-1/2) where deg(v) > 0 and 0 elsewhere, and
   norm(e) = dinv(row e) · w(e) · dinv(col e), a layer sends H to the array whose row v is the sum over the edges e
   into v of norm(e) · (H W)(row e), plus the bias. The first layer is followed by the maximum with zero, the second
   by the division of every row by the larger of its Euclidean length and 1e-12.
   The reference works on the 850000 edges. The kernel pads the three edge arrays to 851968 entries with 1968 idle
   edges from node 0 to node 0 of weight 0: an idle edge adds 0 to the degree of node 0, its norm is
   dinv(0) · 0 · dinv(0) = 0, and so it adds a zero row to both aggregates — over the extended reals zero times anything is zero and
   adding zero changes nothing, so the padded sums are the unpadded ones. The edge lists
   themselves (the given edges, then the self loops) are the same entry by entry on both sides; the two matrix
   products, the bias-and-maximum and the final normalisation by the row length are the same functions of the same
   arrays on both sides. The kernel's staged regions each leave ONE whole-array function of the arrays they find
   (the elementwise product of three columns, a matrix product block by block, a row scaling, the bias and
   maximum, the row normalisation), so the kernel's result buffer ends at the reference's result function of the
   seven arguments: that equation is `Cert.KernelResult.result_eq`, and `Cert.Assembly.claim_of_result` derives every
   claim from it — the three frames from the programs' runs, the idealization's ledger (empty: no operation was
   rewritten), and the equality of the two results from memories that agree on the arguments. -/
import proofs.«168910_j58506044506599_1_alg».proof.Defs
import proofs.«168910_j58506044506599_1_alg».proof.Proof.Gen.Kernel
import proofs.«168910_j58506044506599_1_alg».proof.Proof.Gen.Kernel.Skeleton
import proofs.«168910_j58506044506599_1_alg».proof.Proof.Gen.Kernel.Launch
import proofs.«168910_j58506044506599_1_alg».proof.Proof.Gen.Kernel.Points
import proofs.«168910_j58506044506599_1_alg».proof.Proof.Gen.Kernel.Frame
import proofs.«168910_j58506044506599_1_alg».proof.Proof.Gen.KernelIdeal
import proofs.«168910_j58506044506599_1_alg».proof.Proof.Gen.KernelIdeal.Skeleton
import proofs.«168910_j58506044506599_1_alg».proof.Proof.Gen.KernelIdeal.Launch
import proofs.«168910_j58506044506599_1_alg».proof.Proof.Gen.KernelIdeal.Points
import proofs.«168910_j58506044506599_1_alg».proof.Proof.Gen.KernelIdeal.Frame
import proofs.«168910_j58506044506599_1_alg».proof.Proof.Gen.ReferenceIdeal
import proofs.«168910_j58506044506599_1_alg».proof.Proof.Gen.ReferenceIdeal.Run
import proofs.«168910_j58506044506599_1_alg».proof.Proof.Gen.ReferenceIdeal.Read
import proofs.«168910_j58506044506599_1_alg».proof.Proof.Gen.Pre_finite_inputs
import proofs.«168910_j58506044506599_1_alg».proof.Proof.Assembly
import proofs.«168910_j58506044506599_1_alg».proof.Proof.KernelResult
import Idealize.ShloMosaic.Adequacy
import Idealize.ShloMosaic.Init

noncomputable section

namespace Cert.Proof

open Idealize.ShloMosaic Idealize.SL.Sem

theorem claim : Cert.Claim := Cert.Assembly.claim_of_result Cert.KernelResult.result_eq

end Cert.Proof

end
